-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384 : Shape := ⟨1, ![384]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S384x128 .f32) (main_arg9 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S384 .f32) (main_arg7 : FVec F S384 .f32) (main_arg8 : FVec F S384x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S384 .f32) (main_arg7 : FVec F S384 .f32) (main_arg8 : FVec F S384x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384 : Shape := ⟨1, ![384]⟩
abbrev S384x128 : Shape := ⟨2, ![384, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S1x128 : Shape := ⟨2, ![1, 128]⟩
abbrev S10000x384 : Shape := ⟨2, ![10000, 384]⟩
abbrev S1x384 : Shape := ⟨2, ![1, 384]⟩

abbrev nBuf : Space → Nat
  | .hbm => 126
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384, .f32⟩
  | .hbm, ⟨7, _⟩ => ⟨S384, .f32⟩
  | .hbm, ⟨8, _⟩ => ⟨S384x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000, .f32⟩
  | .hbm, ⟨85, _⟩ => ⟨S1600000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x1, .f32⟩
  | .hbm, ⟨96, _⟩ => ⟨S1600000x128, .f32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S100000, .f32⟩
  | .hbm, ⟨103, _⟩ => ⟨S100000x1, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S384, .f32⟩
  | .hbm, ⟨109, _⟩ => ⟨S384, .f32⟩
  | .hbm, ⟨110, _⟩ => ⟨S_, .f32⟩
  | .hbm, ⟨111, _⟩ => ⟨S384, .f32⟩
  | .hbm, ⟨112, _⟩ => ⟨S384, .f32⟩
  | .hbm, ⟨113, _⟩ => ⟨S_, .f32⟩
  | .hbm, ⟨114, _⟩ => ⟨S384, .f32⟩
  | .hbm, ⟨115, _⟩ => ⟨S384, .f32⟩
  | .hbm, ⟨116, _⟩ => ⟨S384, .f32⟩
  | .hbm, ⟨117, _⟩ => ⟨S384, .f32⟩
  | .hbm, ⟨118, _⟩ => ⟨S_, .f32⟩
  | .hbm, ⟨119, _⟩ => ⟨S384, .f32⟩
  | .hbm, ⟨120, _⟩ => ⟨S384, .f32⟩
  | .hbm, ⟨121, _⟩ => ⟨S_, .f32⟩
  | .hbm, ⟨122, _⟩ => ⟨S384, .f32⟩
  | .hbm, ⟨123, _⟩ => ⟨S384, .f32⟩
  | .hbm, ⟨124, _⟩ => ⟨S384, .f32⟩
  | .hbm, ⟨125, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S384, .f32⟩
  | .local _ .vmem, ⟨27, _⟩ => ⟨S384, .f32⟩
  | .local _ .vmem, ⟨28, _⟩ => ⟨S384, .f32⟩
  | .local _ .vmem, ⟨29, _⟩ => ⟨S384, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S384, .f32⟩
  | .local _ .vmem, ⟨37, _⟩ => ⟨S384, .f32⟩
  | .local _ .vmem, ⟨38, _⟩ => ⟨S384, .f32⟩
  | .local _ .vmem, ⟨39, _⟩ => ⟨S384, .f32⟩
  | .local _ .vmem, ⟨40, _⟩ => ⟨S384x128, .f32⟩
  | .local _ .vmem, ⟨41, _⟩ => ⟨S128, .f32⟩
  | .local _ .vmem, ⟨42, _⟩ => ⟨S10000x128, .f32⟩
  | .local _ .vmem, ⟨43, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81_0 : Ref sig .tc := ⟨.hbm, 108, rfl⟩
abbrev main_v81_1 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg4_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg7_0 : Ref sig .tc := ⟨.vmem, 40, rfl⟩
abbrev cc5_stg8_0 : Ref sig .tc := ⟨.vmem, 41, rfl⟩
abbrev cc5_stg9_0 : Ref sig .tc := ⟨.vmem, 42, rfl⟩
abbrev cc5_stg9_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem4_0 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem8_0 : DmaSem sig := 39
abbrev cc5_sem9_0 : DmaSem sig := 40
abbrev cc5_sem9_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_11 : BitVec 32 := 0#32
  let v24 : BitVec 1 := Scalar.cmpi .ne v23 c0_i32_11
  v24

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S384 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S384x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S10000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S384_S384_0 : ∀ a, (![0] : Fin 1 → Nat) a + S384.size a ≤ S384.size a
  h_S384 : 0 < S384.numel
  shapeCasts_S384_S384 : S384.ShapeCasts S384
  concatenates_S10000x128_S10000x128_S10000x128_S10000x384_d1 : Shape.Concatenates [S10000x128, S10000x128, S10000x128] S10000x384 1
  reduces_S10000x384_S384 : S10000x384.Reduces [0] S384
  bcast_S_S384 : S_.BroadcastsInDim S384 (![] : Fin 0 → Fin S384.rank)
  shapeCasts_S384_S1x384 : S384.ShapeCasts S1x384
  broadcasts_S1x384_S10000x384 : S1x384.Broadcasts S10000x384
  inb_S384x128_S384x128_0_0 : ∀ a, (![0, 0] : Fin 2 → Nat) a + S384x128.size a ≤ S384x128.size a
  h_S384x128 : 0 < S384x128.numel
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x384_S384x128_S10000x128_1_0_0_1_n_n_wf : DotDims.WF S10000x384 S384x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384.size a ≤ S384.size a
  hwx4_3 : ∀ i : grid4.Coords, EltTy.bits .f32 = 32 ∨ (Rect.block (s := S384) S384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S384.size a ≤ S384.size a
  hwx4_4 : ∀ i : grid4.Coords, EltTy.bits .f32 = 32 ∨ (Rect.block (s := S384) S384.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S384.size a ≤ S384.size a
  hwx5_3 : ∀ i : grid5.Coords, EltTy.bits .f32 = 32 ∨ (Rect.block (s := S384) S384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S384.size a ≤ S384.size a
  hwx5_4 : ∀ i : grid5.Coords, EltTy.bits .f32 = 32 ∨ (Rect.block (s := S384) S384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S384.size a ≤ S384.size a
  hwx5_5 : ∀ i : grid5.Coords, EltTy.bits .f32 = 32 ∨ (Rect.block (s := S384) S384.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S384.size a ≤ S384.size a
  hwx5_6 : ∀ i : grid5.Coords, EltTy.bits .f32 = 32 ∨ (Rect.block (s := S384) S384.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S384x128.size a ≤ S384x128.size a
  hwx5_7 : ∀ i : grid5.Coords, EltTy.bits .f32 = 32 ∨ (Rect.block (s := S384x128) S384x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128.size a ≤ S128.size a
  hwx5_8 : ∀ i : grid5.Coords, EltTy.bits .f32 = 32 ∨ (Rect.block (s := S128) S128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S10000x128.size a ≤ S100000x128.size a
  hwx5_9 : ∀ i : grid5.Coords, EltTy.bits .f32 = 32 ∨ (Rect.block (s := S100000x128) S10000x128.size (cc5_transform_9 i) (hinb5_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S10000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81_0) S384.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81_1) S384.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_arg0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg6) S384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg7) S384.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg8) S384x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg9) S128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v93) S10000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384 : Shape := ⟨1, ![384]⟩
abbrev S384x128 : Shape := ⟨2, ![384, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x384 : Shape := ⟨2, ![100000, 384]⟩
abbrev S1x384 : Shape := ⟨2, ![1, 384]⟩

abbrev nBuf : Space → Nat
  | .hbm => 163
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S384, .f32⟩
  | 7 => ⟨S384, .f32⟩
  | 8 => ⟨S384x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x1, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x384, .f32⟩
  | 1 => ⟨S_, .f32⟩
  | 2 => ⟨S384, .f32⟩
  | 3 => ⟨S_, .f32⟩
  | 4 => ⟨S384, .f32⟩
  | 5 => ⟨S384, .f32⟩
  | 6 => ⟨S1x384, .f32⟩
  | 7 => ⟨S100000x384, .f32⟩
  | 8 => ⟨S100000x384, .f32⟩
  | 9 => ⟨S100000x384, .f32⟩
  | 10 => ⟨S_, .f32⟩
  | 11 => ⟨S384, .f32⟩
  | 12 => ⟨S_, .f32⟩
  | 13 => ⟨S384, .f32⟩
  | 14 => ⟨S384, .f32⟩
  | 15 => ⟨S1x384, .f32⟩
  | 16 => ⟨S100000x384, .f32⟩
  | 17 => ⟨S100000x384, .f32⟩
  | 18 => ⟨S_, .f32⟩
  | 19 => ⟨S384, .f32⟩
  | 20 => ⟨S384, .f32⟩
  | 21 => ⟨S384, .f32⟩
  | 22 => ⟨S1x384, .f32⟩
  | 23 => ⟨S100000x384, .f32⟩
  | 24 => ⟨S100000x384, .f32⟩
  | 25 => ⟨S1x384, .f32⟩
  | 26 => ⟨S100000x384, .f32⟩
  | 27 => ⟨S100000x384, .f32⟩
  | 28 => ⟨S1x384, .f32⟩
  | 29 => ⟨S100000x384, .f32⟩
  | 30 => ⟨S100000x384, .f32⟩
  | 31 => ⟨S100000x128, .f32⟩
  | 32 => ⟨S1x128, .f32⟩
  | 33 => ⟨S100000x128, .f32⟩
  | 34 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_22 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x384_d1 : Shape.Concatenates [S100000x128, S100000x128, S100000x128] S100000x384 1
  reducesTo_S100000x384_S384_d0 : S100000x384.ReducesTo [0] S384
  h_S_ : 0 < S_.numel
  bcast_S_S384 : S_.BroadcastsInDim S384 (![] : Fin 0 → Fin S384.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.BitsRegion0.lean ====
/- The first layer's matrix-product call (word-level program): what one grid point's body leaves in its blocks, and the
   call's obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix-product call: each block of rows times the whole weight matrix (pipeline 0) -/

/-- Window `w`'s block at grid point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of rows, and the whole bias row. -/
abbrev rows0 : Rect S10000x128 := Rect.unit (s := S10000x128) ![0, 0] S10000x128.size inb_S10000x128_S10000x128_0_0
abbrev lane0 : Rect S128x128 := Rect.unit (s := S128x128) ![0, 0] S128x128.size inb_S128x128_S128x128_0_0

/-- What the body leaves in the output block: the one store's value over the two blocks read. -/
def out0_2 (x0 : Vec F S10000x128 .f32) (x1 : Vec F S128x128 .f32) : Vec F S10000x128 .f32 :=
  View.canon [⟨rows0, k0_pay1 (View.ld x0 rows0) (View.ld x1 lane0)⟩]

theorem cover0_2 (p0 : Vec F S10000x128 .f32) (y : S10000x128.Idx) :
    ∃ pc ∈ ([⟨rows0, p0⟩] : List (View.Piece (Elt F) S10000x128 .f32)), y ∈ pc.1.set :=
  View.cover_of_tiled [⟨rows0, p0⟩] S10000x128.size (by rfl) y

set_option maxHeartbeats 1000000 in
theorem sound_kernel0 (c : Dev nD) (E : Set ℕ) (i : grid0.Coords) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call: the arrays as found; after the body each input buffer at its block, the output's at the body's value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/- The bias-and-positive-part call on the first layer's aggregated rows (word-level program): what one grid point's body
   leaves in its blocks, and the call's obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The bias-and-positive-part call (pipeline 1): each block of rows plus the bias row, then the positive part -/

/-- Window `w`'s block at grid point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of rows, and the whole bias row. -/
abbrev rows1 : Rect S10000x128 := Rect.unit (s := S10000x128) ![0, 0] S10000x128.size inb_S10000x128_S10000x128_0_0
abbrev lane1 : Rect S128 := Rect.unit (s := S128) ![0] S128.size inb_S128_S128_0

/-- What the body leaves in the output block: the one store's value over the two blocks read. -/
def out1_2 (x0 : Vec F S10000x128 .f32) (x1 : Vec F S128 .f32) : Vec F S10000x128 .f32 :=
  View.canon [⟨rows1, k1_pay1 (View.ld x0 rows1) (View.ld x1 lane1)⟩]

theorem cover1_2 (p0 : Vec F S10000x128 .f32) (y : S10000x128.Idx) :
    ∃ pc ∈ ([⟨rows1, p0⟩] : List (View.Piece (Elt F) S10000x128 .f32)), y ∈ pc.1.set :=
  View.cover_of_tiled [⟨rows1, p0⟩] S10000x128.size (by rfl) y

set_option maxHeartbeats 1000000 in
theorem sound_kernel1 (c : Dev nD) (E : Set ℕ) (i : grid1.Coords) (arg0 : Memref sig .tc .vmem S10000x128 .f32) (harg0 : arg0.IsWhole)
    (arg1 : Memref sig .tc .vmem S128 .f32) (harg1 : arg1.IsWhole) (arg2 : Memref sig .tc .vmem S10000x128 .f32) (harg2 : arg2.IsWhole)
    (x0 : Vec F S10000x128 .f32) (x1 : Vec F S128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the call: the arrays as found; after the body each input buffer at its block, the output's at the body's value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/- The second layer's matrix-product call (word-level program): what one grid point's body leaves in its blocks, and the
   call's obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix-product call: each block of rows times the whole weight matrix (pipeline 2) -/

/-- Window `w`'s block at grid point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of rows, and the whole bias row. -/
abbrev rows2 : Rect S10000x128 := Rect.unit (s := S10000x128) ![0, 0] S10000x128.size inb_S10000x128_S10000x128_0_0
abbrev lane2 : Rect S128x128 := Rect.unit (s := S128x128) ![0, 0] S128x128.size inb_S128x128_S128x128_0_0

/-- What the body leaves in the output block: the one store's value over the two blocks read. -/
def out2_2 (x0 : Vec F S10000x128 .f32) (x1 : Vec F S128x128 .f32) : Vec F S10000x128 .f32 :=
  View.canon [⟨rows2, k2_pay1 (View.ld x0 rows2) (View.ld x1 lane2)⟩]

theorem cover2_2 (p0 : Vec F S10000x128 .f32) (y : S10000x128.Idx) :
    ∃ pc ∈ ([⟨rows2, p0⟩] : List (View.Piece (Elt F) S10000x128 .f32)), y ∈ pc.1.set :=
  View.cover_of_tiled [⟨rows2, p0⟩] S10000x128.size (by rfl) y

set_option maxHeartbeats 1000000 in
theorem sound_kernel2 (c : Dev nD) (E : Set ℕ) (i : grid2.Coords) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the call: the arrays as found; after the body each input buffer at its block, the output's at the body's value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
/- The bias-and-positive-part call on the second layer's aggregated rows (word-level program): what one grid point's body
   leaves in its blocks, and the call's obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The bias-and-positive-part call (pipeline 3): each block of rows plus the bias row, then the positive part -/

/-- Window `w`'s block at grid point `t`, read off the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of rows, and the whole bias row. -/
abbrev rows3 : Rect S10000x128 := Rect.unit (s := S10000x128) ![0, 0] S10000x128.size inb_S10000x128_S10000x128_0_0
abbrev lane3 : Rect S128 := Rect.unit (s := S128) ![0] S128.size inb_S128_S128_0

/-- What the body leaves in the output block: the one store's value over the two blocks read. -/
def out3_2 (x0 : Vec F S10000x128 .f32) (x1 : Vec F S128 .f32) : Vec F S10000x128 .f32 :=
  View.canon [⟨rows3, k3_pay1 (View.ld x0 rows3) (View.ld x1 lane3)⟩]

theorem cover3_2 (p0 : Vec F S10000x128 .f32) (y : S10000x128.Idx) :
    ∃ pc ∈ ([⟨rows3, p0⟩] : List (View.Piece (Elt F) S10000x128 .f32)), y ∈ pc.1.set :=
  View.cover_of_tiled [⟨rows3, p0⟩] S10000x128.size (by rfl) y

set_option maxHeartbeats 1000000 in
theorem sound_kernel3 (c : Dev nD) (E : Set ℕ) (i : grid3.Coords) (arg0 : Memref sig .tc .vmem S10000x128 .f32) (harg0 : arg0.IsWhole)
    (arg1 : Memref sig .tc .vmem S128 .f32) (harg1 : arg1.IsWhole) (arg2 : Memref sig .tc .vmem S10000x128 .f32) (harg2 : arg2.IsWhole)
    (x0 : Vec F S10000x128 .f32) (x1 : Vec F S128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call: the arrays as found; after the body each input buffer at its block, the output's at the body's value. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRegion4.lean ====
/- The column-statistics call (word-level program): over the grid's ten blocks of rows it accumulates, in two scratch rows
   carried from one point to the next, the column sums of the three row blocks side by side and of their squares; the first
   point starts both rows at zero and the last point copies them out. What each point's body leaves, and the call's
   obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics call (pipeline 4) -/

/-- The two conditions of the body, from the grid coordinate: "this is the first point" and "this is the last point". -/
abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1
theorem hcond4_0 : ∀ t : Fin cfg4.N, cond4_0 (grid4.coords t) ↔ t.val % 10 = 0 :=
  (by decide +kernel : ∀ t : Fin grid4.N, cond4_0 (grid4.coords t) ↔ t.val % 10 = 0)
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

theorem hz1 : (![0] : Fin 1 → Nat) = fun _ => 0 := funext fun a => by fin_cases a <;> rfl
theorem hz2 : (![0, 0] : Fin 2 → Nat) = fun _ => 0 := funext fun a => by fin_cases a <;> rfl

abbrev rows4 : Rect S10000x128 := Rect.unit (s := S10000x128) ![0, 0] S10000x128.size inb_S10000x128_S10000x128_0_0
abbrev lane4 : Rect S384 := Rect.unit (s := S384) ![0] S384.size inb_S384_S384_0

/-- One point's step of the two carried rows: the row so far plus this block's column sums (of the entries, of their squares). -/
def stepS (x0 x1 x2 : Vec F S10000x128 .f32) (s : Vec F S384 .f32) : Vec F S384 .f32 := k4_pay4 x0 x1 x2 s
def stepQ (x0 x1 x2 : Vec F S10000x128 .f32) (q : Vec F S384 .f32) : Vec F S384 .f32 := k4_pay5 x0 x1 x2 q

theorem cover4c (p0 : Vec F S384 .f32) (L : List (View.Piece (Elt F) S384 .f32)) (y : S384.Idx) :
    ∃ pc ∈ ((⟨lane4, p0⟩ :: L) : List (View.Piece (Elt F) S384 .f32)), y ∈ pc.1.set :=
  ⟨⟨lane4, p0⟩, List.mem_cons.mpr (Or.inl rfl), View.mem_set_unit_zero hz1 inb_S384_S384_0 y⟩

set_option maxHeartbeats 4000000 in
/-- A middle point: neither condition holds; the outputs' buffers are untouched, both carried rows take one step. -/
theorem sound_kernel4_M (c : Dev nD) (E : Set ℕ) (i : grid4.Coords) (hc0 : ¬cond4_0 i) (hc1 : ¬cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (y3 y4 s q : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4
            ∗ owns (c : Thread nD τ) arg6 fullShare (stepS x0 x1 x2 s) ∗ owns (c : Thread nD τ) arg7 fullShare (stepQ x0 x1 x2 q)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (View.ld (arg6.view.read (Elt F) f5) lane4) = _
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (View.ld (arg7.view.read (Elt F) f6) lane4) = _
  simp only [View.ld_unit_zero (S := S10000x128) hz2, View.ld_unit_zero (S := S384) hz1]
  rfl

set_option maxHeartbeats 4000000 in
/-- The first point: both carried rows are started at zero, then take one step; the outputs' buffers are untouched. -/
theorem sound_kernel4_F (c : Dev nD) (E : Set ℕ) (i : grid4.Coords) (hc0 : cond4_0 i) (hc1 : ¬cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (y3 y4 : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4
            ∗ owns (c : Thread nD τ) arg6 fullShare (stepS x0 x1 x2 k4_pay1) ∗ owns (c : Thread nD τ) arg7 fullShare (stepQ x0 x1 x2 k4_pay2)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (arg6.view.readCov [⟨lane4, k4_pay1⟩] lane4.toLoadRect) = _
    rw [View.readCov_unit_zero _ hz1]
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (arg7.view.readCov [⟨lane4, k4_pay2⟩] lane4.toLoadRect) = _
  rw [View.readCov_unit_zero _ hz1]
  simp only [View.ld_unit_zero (S := S10000x128) hz2, View.ld_unit_zero (S := S384) hz1]
  rfl

set_option maxHeartbeats 4000000 in
/-- The last point: both carried rows take one step, and are then copied out to the two outputs' buffers. -/
theorem sound_kernel4_L (c : Dev nD) (E : Set ℕ) (i : grid4.Coords) (hc0 : ¬cond4_0 i) (hc1 : cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (s q : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2 ∗ owns (c : Thread nD τ) arg4 fullShare (stepS x0 x1 x2 s) ∗ owns (c : Thread nD τ) arg5 fullShare (stepQ x0 x1 x2 q)
            ∗ owns (c : Thread nD τ) arg6 fullShare (stepS x0 x1 x2 s) ∗ owns (c : Thread nD τ) arg7 fullShare (stepQ x0 x1 x2 q)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  ·
    iexists _; isplitr
    swap; · iexact H3
    ipureintro
    refine (View.read_writes_eq_canon _ _ _ (cover4c _ _)).trans ?_
    refine (View.canon_cons_unit_zero hz1 _ _ _).trans ?_
    show arg6.view.readCov [(⟨lane4, k4_pay4 (View.ld (arg1.view.read (Elt F) f0) rows4) (View.ld (arg2.view.read (Elt F) f1) rows4) (View.ld (arg3.view.read (Elt F) f2) rows4) (View.ld (arg6.view.read (Elt F) f5) lane4)⟩ : View.Piece (Elt F) S384 .f32)] lane4.toLoadRect = _
    rw [View.readCov_unit_zero _ hz1]
    simp only [View.ld_unit_zero (S := S10000x128) hz2, View.ld_unit_zero (S := S384) hz1]
    rfl
  isplitl [H4]
  ·
    iexists _; isplitr
    swap; · iexact H4
    ipureintro
    refine (View.read_writes_eq_canon _ _ _ (cover4c _ _)).trans ?_
    refine (View.canon_cons_unit_zero hz1 _ _ _).trans ?_
    show arg7.view.readCov [(⟨lane4, k4_pay5 (View.ld (arg1.view.read (Elt F) f0) rows4) (View.ld (arg2.view.read (Elt F) f1) rows4) (View.ld (arg3.view.read (Elt F) f2) rows4) (View.ld (arg7.view.read (Elt F) f6) lane4)⟩ : View.Piece (Elt F) S384 .f32)] lane4.toLoadRect = _
    rw [View.readCov_unit_zero _ hz1]
    simp only [View.ld_unit_zero (S := S10000x128) hz2, View.ld_unit_zero (S := S384) hz1]
    rfl
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (View.ld (arg6.view.read (Elt F) f5) lane4) = _
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (View.ld (arg7.view.read (Elt F) f6) lane4) = _
  simp only [View.ld_unit_zero (S := S10000x128) hz2, View.ld_unit_zero (S := S384) hz1]
  rfl

/-! ## The blocks, the carried rows after each point, and the proof data -/

/-- Window `w`'s block at grid point `t`, read off the array the call finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The two scratch rows the kernel carries from point to point. -/
abbrev scM4_0 : Memref sig .tc .vmem S384 .f32 := Memref.whole cc4_scratch0
abbrev scM4_1 : Memref sig .tc .vmem S384 .f32 := Memref.whole cc4_scratch1

/-- THE ACCUMULATION: the two carried rows after the body at position `n` — started at zero and stepped at the first point,
    stepped from the point before at every other. -/
def accAt (c : Dev nD) : (n : ℕ) → n < cfg4.N → Vec F S384 .f32 × Vec F S384 .f32
  | 0, hn => (stepS (iblk4 V c 0 ⟨0, hn⟩) (iblk4 V c 1 ⟨0, hn⟩) (iblk4 V c 2 ⟨0, hn⟩) k4_pay1, stepQ (iblk4 V c 0 ⟨0, hn⟩) (iblk4 V c 1 ⟨0, hn⟩) (iblk4 V c 2 ⟨0, hn⟩) k4_pay2)
  | n + 1, hn => (stepS (iblk4 V c 0 ⟨n + 1, hn⟩) (iblk4 V c 1 ⟨n + 1, hn⟩) (iblk4 V c 2 ⟨n + 1, hn⟩) (accAt c n (Nat.lt_of_succ_lt hn)).1, stepQ (iblk4 V c 0 ⟨n + 1, hn⟩) (iblk4 V c 1 ⟨n + 1, hn⟩) (iblk4 V c 2 ⟨n + 1, hn⟩) (accAt c n (Nat.lt_of_succ_lt hn)).2)

theorem accAt_first (c : Dev nD) (t : Fin cfg4.N) (h0 : t.val = 0) :
    accAt V c t.val t.isLt = (stepS (iblk4 V c 0 t) (iblk4 V c 1 t) (iblk4 V c 2 t) k4_pay1, stepQ (iblk4 V c 0 t) (iblk4 V c 1 t) (iblk4 V c 2 t) k4_pay2) := by
  obtain ⟨n, hn⟩ := t
  cases n with
  | zero => rfl
  | succ n => exact absurd h0 (Nat.succ_ne_zero _)

theorem accAt_later (c : Dev nD) (t : Fin cfg4.N) (h0 : t.val ≠ 0) :
    accAt V c t.val t.isLt = (stepS (iblk4 V c 0 t) (iblk4 V c 1 t) (iblk4 V c 2 t) (accAt V c (t.val - 1) (Nat.lt_of_le_of_lt (Nat.sub_le _ _) t.isLt)).1,
      stepQ (iblk4 V c 0 t) (iblk4 V c 1 t) (iblk4 V c 2 t) (accAt V c (t.val - 1) (Nat.lt_of_le_of_lt (Nat.sub_le _ _) t.isLt)).2) := by
  obtain ⟨n, hn⟩ := t
  cases n with
  | zero => exact absurd rfl h0
  | succ n => rfl

/-- The call's invariant before position `n`: before the first point every scoped buffer at anything; afterwards the two
    carried rows at what the point before left, the other scoped buffers at anything; always the generator register at some state. -/
def PhiS (c : Dev nD) : (n : ℕ) → n ≤ cfg4.N → sProp 𝕄
  | 0, _ => Pipeline.ΦA spec4 c
  | n + 1, hn => iprop(iprop(iprop(owns (c : Thread nD τ) scM4_0 fullShare (accAt V c n hn).1 ∗ owns (c : Thread nD τ) scM4_1 fullShare (accAt V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(iprop(owns (c : Thread nD τ) scM4_0 fullShare (accAt V c n hn).1 ∗ owns (c : Thread nD τ) scM4_1 fullShare (accAt V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem PhiS_pos (c : Dev nD) (n : ℕ) (h : n ≤ cfg4.N) (hz : n ≠ 0) :
    PhiS V c n h = iprop(iprop(iprop(owns (c : Thread nD τ) scM4_0 fullShare (accAt V c (n - 1) (by omega)).1 ∗ owns (c : Thread nD τ) scM4_1 fullShare (accAt V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two scratch rows split out of the scoped rest. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The proof data of the call: the arrays as found; after the body each input buffer at its block, the two outputs' at the
    carried rows (consulted at the last point only, where the body copies them out); the invariant above. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (accAt V c t.val t.isLt).1
    | ⟨4, _⟩ => (accAt V c t.val t.isLt).2
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt V c t.val t.isLt).1 := by dsimp only [dat4]
theorem after4_4 (c : Dev nD) (t : Fin cfg4.N) : (dat4 V c).after 4 t = (accAt V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point, by the point's case: the inputs' buffers hold their blocks; the invariant hands over the two carried
    rows (at anything before the first point, at what the point before left afterwards) and takes them back stepped; an
    output's buffer is handed back as found except at the last point, where it receives the carried row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS V c (t.val + 1) t.isLt from rfl, PhiS_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 10 := lt_of_lt_of_eq t.isLt (show cfg4.N = 10 from N_4)
  by_cases h1 : t.val % 10 = 9
  · have hc1 : cond4_1 (grid4.coords t) := (hcond4_1 t).mpr h1
    have hc0 : ¬cond4_0 (grid4.coords t) := fun h => by have := (hcond4_0 t).mp h; omega
    have hz : t.val ≠ 0 := by omega
    rw [show (dat4 V c).leavesExact 3 t = owns (c : Thread nD τ) (st4_3 t) fullShare ((dat4 V c).after 3 t) from by
      unfold Dat.leavesExact; rw [liveAt4_3 t hc1], after4_3]
    rw [show (dat4 V c).leavesExact 4 t = owns (c : Thread nD τ) (st4_4 t) fullShare ((dat4 V c).after 4 t) from by
      unfold Dat.leavesExact; rw [liveAt4_4 t hc1], after4_4]
    rw [accAt_later V c t hz]; dsimp only
    rw [PhiS_castSucc V c t, PhiS_pos V c _ _ hz]
    iintro ⟨⟨⟨⟨HS0, HS1⟩, HRB⟩, Hg⟩, Ho, ⟨%d0, H0⟩, ⟨%d1, H1⟩, ⟨%d2, H2⟩, ⟨%d3, H3⟩, ⟨%d4, H4⟩⟩
    iapply (sound_kernel4_L c Set.univ _ hc0 hc1 _ _ _ _ _ _ _ _ _ _ _ _ _ _ (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HRB Hg]
    · isplitl [HS0 HS1 HRB]
      · isplitl [HS0 HS1]
        · isplitl [HS0]; · iexact HS0
          iexact HS1
        iexact HRB
      iexact Hg
    isplitl [Ho]; · iexact Ho
    isplitl [H0]; · iexact H0
    isplitl [H1]; · iexact H1
    isplitl [H2]; · iexact H2
    isplitl [H3]; · iexact H3
    iexact H4
  · have hc1 : ¬cond4_1 (grid4.coords t) := fun h => h1 ((hcond4_1 t).mp h)
    rw [Dat.leavesExact_idle (dat4 V c) 3 t (idleAt4_3 t hc1) (noFlush4_3 t hc1)]
    rw [Dat.leavesExact_idle (dat4 V c) 4 t (idleAt4_4 t hc1) (noFlush4_4 t hc1)]
    by_cases hz : t.val = 0
    · have hc0 : cond4_0 (grid4.coords t) := (hcond4_0 t).mpr (by omega)
      rw [accAt_first V c t hz]; dsimp only
      rw [PhiS_castSucc V c t, PhiS_zero V c _ _ hz, PhiA4_eq]
      iintro ⟨⟨⟨⟨HS0, HS1⟩, HRB⟩, Hg⟩, Ho, ⟨%d0, H0⟩, ⟨%d1, H1⟩, ⟨%d2, H2⟩, ⟨%d3, H3⟩, ⟨%d4, H4⟩⟩
      iapply (sound_kernel4_F c Set.univ _ hc0 hc1 _ _ _ _ _ _ _ _ _ _ _ _ _ _ (iblk4 V c 0 t) (iblk4 V c 1 t) (iblk4 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HRB Hg]
      · isplitl [HS0 HS1 HRB]
        · isplitl [HS0 HS1]
          · isplitl [HS0]; · iexact HS0
            iexact HS1
          iexact HRB
        iexact Hg
      isplitl [Ho]; · iexact Ho
      isplitl [H0]; · iexact H0
      isplitl [H1]; · iexact H1
      isplitl [H2]; · iexact H2
      isplitl [H3]; · iexists _; iexact H3
      iexists _; iexact H4
    · have hc0 : ¬cond4_0 (grid4.coords t) := fun h => by have := (hcond4_0 t).mp h; omega
      rw [accAt_later V c t hz]; dsimp only
      rw [PhiS_castSucc V c t, PhiS_pos V c _ _ hz]
      iintro ⟨⟨⟨⟨HS0, HS1⟩, HRB⟩, Hg⟩, Ho, ⟨%d0, H0⟩, ⟨%d1, H1⟩, ⟨%d2, H2⟩, ⟨%d3, H3⟩, ⟨%d4, H4⟩⟩
      iapply (sound_kernel4_M c Set.univ _ hc0 hc1 _ _ _ _ _ _ _ _ _ _ _ _ _ _ (iblk4 V c 0 t) (iblk4 V c 1 t) (iblk4 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HRB Hg]
      · isplitl [HS0 HS1 HRB]
        · isplitl [HS0 HS1]
          · isplitl [HS0]; · iexact HS0
            iexact HS1
          iexact HRB
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

/-- What the launch hands the call (every scoped buffer at anything) is the invariant before the first point. -/
theorem hin4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives the scoped buffers back: the carried rows' contents are forgotten. -/
theorem hout4 (c : Dev nD) : (dat4 V c).Φ (Fin.last cfg4.N) ⊢ Pipeline.ΦA spec4 c := by
  rw [show (dat4 V c).Φ (Fin.last cfg4.N) = PhiS V c (Fin.last cfg4.N).val (Nat.le_of_lt_succ (Fin.last cfg4.N).isLt) from rfl,
    PhiS_pos V c _ _ (by rw [Fin.val_last]; have : cfg4.N = 10 := N_4; omega), PhiA4_eq]
  iintro ⟨⟨⟨HS0, HS1⟩, HRB⟩, Hg⟩
  isplitl [HS0 HS1 HRB]
  · isplitl [HS0 HS1]
    · isplitl [HS0]
      · iexists _; iexact HS0
      iexists _; iexact HS1
    iexact HRB
  iexact Hg

end Cert.Kernel.Hand

end
-- ==== Proof.BitsRegion5.lean ====
/- The normalise-and-project call (word-level program): the three row blocks side by side, centred, scaled and shifted
   column by column, times the output weights, plus the output bias. What one grid point's body leaves in its blocks,
   and the call's obligation to the pipeline at every point. -/
import proofs.«125812_j16904991277430_1_alg».proof.Proof.Gen.Kernel.Launch
import proofs.«125812_j16904991277430_1_alg».proof.Proof.Gen.Kernel.Skeleton
import proofs.«125812_j16904991277430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalise-and-project call (pipeline 5) -/

/-- Window `w`'s block at grid point `t`, read off the array the call finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body reads and writes through. -/
abbrev whole5_S10000x128 : Rect S10000x128 := Rect.unit (s := S10000x128) ![0, 0] S10000x128.size inb_S10000x128_S10000x128_0_0
abbrev whole5_S384 : Rect S384 := Rect.unit (s := S384) ![0] S384.size inb_S384_S384_0
abbrev whole5_S384x128 : Rect S384x128 := Rect.unit (s := S384x128) ![0, 0] S384x128.size inb_S384x128_S384x128_0_0
abbrev whole5_S128 : Rect S128 := Rect.unit (s := S128) ![0] S128.size inb_S128_S128_0

/-- What the body leaves in the output block: the one store's value over the blocks read. -/
def out5_9 (x0 : Vec F S10000x128 .f32) (x1 : Vec F S10000x128 .f32) (x2 : Vec F S10000x128 .f32) (x3 : Vec F S384 .f32) (x4 : Vec F S384 .f32) (x5 : Vec F S384 .f32) (x6 : Vec F S384 .f32) (x7 : Vec F S384x128 .f32) (x8 : Vec F S128 .f32) : Vec F S10000x128 .f32 :=
  View.canon [⟨whole5_S10000x128, k5_pay1 (View.ld x0 whole5_S10000x128) (View.ld x1 whole5_S10000x128) (View.ld x2 whole5_S10000x128) (View.ld x3 whole5_S384) (View.ld x4 whole5_S384) (View.ld x5 whole5_S384) (View.ld x6 whole5_S384) (View.ld x7 whole5_S384x128) (View.ld x8 whole5_S128)⟩]

theorem cover5_9 (p0 : Vec F S10000x128 .f32) (y : S10000x128.Idx) :
    ∃ pc ∈ ([⟨whole5_S10000x128, p0⟩] : List (View.Piece (Elt F) S10000x128 .f32)), y ∈ pc.1.set :=
  View.cover_of_tiled [⟨whole5_S10000x128, p0⟩] S10000x128.size (by rfl) y

set_option maxHeartbeats 4000000 in
theorem sound_kernel5 (c : Dev nD) (E : Set ℕ) (i : grid5.Coords) (arg0 : Memref sig .tc .vmem S10000x128 .f32) (harg0 : arg0.IsWhole) (arg1 : Memref sig .tc .vmem S10000x128 .f32) (harg1 : arg1.IsWhole) (arg2 : Memref sig .tc .vmem S10000x128 .f32) (harg2 : arg2.IsWhole) (arg3 : Memref sig .tc .vmem S384 .f32) (harg3 : arg3.IsWhole) (arg4 : Memref sig .tc .vmem S384 .f32) (harg4 : arg4.IsWhole) (arg5 : Memref sig .tc .vmem S384 .f32) (harg5 : arg5.IsWhole) (arg6 : Memref sig .tc .vmem S384 .f32) (harg6 : arg6.IsWhole) (arg7 : Memref sig .tc .vmem S384x128 .f32) (harg7 : arg7.IsWhole) (arg8 : Memref sig .tc .vmem S128 .f32) (harg8 : arg8.IsWhole) (arg9 : Memref sig .tc .vmem S10000x128 .f32) (harg9 : arg9.IsWhole)
    (x0 : Vec F S10000x128 .f32) (x1 : Vec F S10000x128 .f32) (x2 : Vec F S10000x128 .f32) (x3 : Vec F S384 .f32) (x4 : Vec F S384 .f32) (x5 : Vec F S384 .f32) (x6 : Vec F S384 .f32) (x7 : Vec F S384x128 .f32) (x8 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__bn_output_kernel i arg0 harg0 arg1 harg1 arg2 harg2 arg3 harg3 arg4 harg4 arg5 harg5 arg6 harg6 arg7 harg7 arg8 harg8 arg9 harg9) K := by
  simp only [cc5__bn_output_kernel_eq_skeleton]; unfold cc5__bn_output_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-- The proof data of the call: the arrays as found; after the body each input buffer at its block, the output's at the body's value. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BitsFrame.lean ====
/- The run of the whole program (word-level): the contents of every unscoped buffer at each boundary between a stretch of host
   operations and a kernel call, folded from the launch memory; each call as a segment entered from one boundary and left at
   the next; and the run itself — every weakly fair execution terminates, nothing faulting, with every unscoped buffer at
   the last boundary's contents. The arguments are written by no stretch and are no call's output, so they end as launched. -/
import proofs.«125812_j16904991277430_1_alg».proof.Proof.BitsRegion0
import proofs.«125812_j16904991277430_1_alg».proof.Proof.BitsRegion1
import proofs.«125812_j16904991277430_1_alg».proof.Proof.BitsRegion2
import proofs.«125812_j16904991277430_1_alg».proof.Proof.BitsRegion3
import proofs.«125812_j16904991277430_1_alg».proof.Proof.BitsRegion4
import proofs.«125812_j16904991277430_1_alg».proof.Proof.BitsRegion5
import proofs.«125812_j16904991277430_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- Boundary 1 read at the TensorCore's references: what call 0 finds. -/
abbrev U1 : (c : Dev nD) → (b : Ref sig .tc) → Buf (Elt F) ((c : Thread nD τ).loc b) := fun c b => W1 m c b
/-- After call 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2x : (c : Dev nD) → (b : Ref sig .tc) → Buf (Elt F) ((c : Thread nD τ).loc b) := fun c b => W2 m c b
theorem hF0 (c : Dev nD) (w : Fin cfg0.W) : (dat0 (U1 m) c).arrAt w cfg0.N = U2x m c (Pipeline.arrRef spec0 w) :=
  (W2_arr m c w).symm
theorem hrest0 (c : Dev nD) : ∀ b, b ∉ Finset.univ.image (Pipeline.arrRef spec0) → U2x m c b = U1 m c b :=
  fun b hb => W2_of_ne m c b fun w e => hb (Finset.mem_image.mpr ⟨w, Finset.mem_univ _, e⟩)
/-- Call 0 changes only its output: every other buffer, an input window's array included, leaves as it entered. -/
theorem W2_keep (c : Dev nD) (b : Ref sig .tc) (hb0 : b ≠ main_v11) :
    W2 m c (Proc.devRef .tc b) = W1 m c (Proc.devRef .tc b) := by
  by_cases h : ∃ w, Pipeline.arrRef spec0 w = b
  · obtain ⟨w, rfl⟩ := h
    rw [W2_arr]
    have key : ∀ w : Fin cfg0.W, Pipeline.arrRef spec0 w ≠ main_v11 → (dat0 (U1 m) c).arrAt w cfg0.N = W1 m c (Proc.devRef .tc (Pipeline.arrRef spec0 w)) := by
      intro w
      match w with
      | ⟨0, _⟩ => intro _; exact ((dat0 (U1 m) c).arrAt_in _ rfl _).trans (A_eq0 (U1 m) c _)
      | ⟨1, _⟩ => intro _; exact ((dat0 (U1 m) c).arrAt_in _ rfl _).trans (A_eq0 (U1 m) c _)
      | ⟨2, _⟩ => intro hb0; exact absurd rfl hb0
    exact key w hb0
  · exact W2_of_ne m c b fun w e => h ⟨w, e⟩
/-- After the host stretch `hostOps1`. -/
abbrev W3 : Dev nD → Valuation τ sig (Elt F) := fun c => StableHlo.after hostOps1 (W2 m c)
/-- Boundary 3 read at the TensorCore's references: what call 1 finds. -/
abbrev U3 : (c : Dev nD) → (b : Ref sig .tc) → Buf (Elt F) ((c : Thread nD τ).loc b) := fun c b => W3 m c b
/-- After call 1: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4x : (c : Dev nD) → (b : Ref sig .tc) → Buf (Elt F) ((c : Thread nD τ).loc b) := fun c b => W4 m c b
theorem hF1 (c : Dev nD) (w : Fin cfg1.W) : (dat1 (U3 m) c).arrAt w cfg1.N = U4x m c (Pipeline.arrRef spec1 w) :=
  (W4_arr m c w).symm
theorem hrest1 (c : Dev nD) : ∀ b, b ∉ Finset.univ.image (Pipeline.arrRef spec1) → U4x m c b = U3 m c b :=
  fun b hb => W4_of_ne m c b fun w e => hb (Finset.mem_image.mpr ⟨w, Finset.mem_univ _, e⟩)
/-- Call 1 changes only its output: every other buffer, an input window's array included, leaves as it entered. -/
theorem W4_keep (c : Dev nD) (b : Ref sig .tc) (hb0 : b ≠ main_v45) :
    W4 m c (Proc.devRef .tc b) = W3 m c (Proc.devRef .tc b) := by
  by_cases h : ∃ w, Pipeline.arrRef spec1 w = b
  · obtain ⟨w, rfl⟩ := h
    rw [W4_arr]
    have key : ∀ w : Fin cfg1.W, Pipeline.arrRef spec1 w ≠ main_v45 → (dat1 (U3 m) c).arrAt w cfg1.N = W3 m c (Proc.devRef .tc (Pipeline.arrRef spec1 w)) := by
      intro w
      match w with
      | ⟨0, _⟩ => intro _; exact ((dat1 (U3 m) c).arrAt_in _ rfl _).trans (A_eq1 (U3 m) c _)
      | ⟨1, _⟩ => intro _; exact ((dat1 (U3 m) c).arrAt_in _ rfl _).trans (A_eq1 (U3 m) c _)
      | ⟨2, _⟩ => intro hb0; exact absurd rfl hb0
    exact key w hb0
  · exact W4_of_ne m c b fun w e => h ⟨w, e⟩
/-- Boundary 4 read at the TensorCore's references: what call 2 finds. -/
abbrev U4 : (c : Dev nD) → (b : Ref sig .tc) → Buf (Elt F) ((c : Thread nD τ).loc b) := fun c b => W4 m c b
/-- After call 2: its arrays at what the pipeline leaves, every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5x : (c : Dev nD) → (b : Ref sig .tc) → Buf (Elt F) ((c : Thread nD τ).loc b) := fun c b => W5 m c b
theorem hF2 (c : Dev nD) (w : Fin cfg2.W) : (dat2 (U4 m) c).arrAt w cfg2.N = U5x m c (Pipeline.arrRef spec2 w) :=
  (W5_arr m c w).symm
theorem hrest2 (c : Dev nD) : ∀ b, b ∉ Finset.univ.image (Pipeline.arrRef spec2) → U5x m c b = U4 m c b :=
  fun b hb => W5_of_ne m c b fun w e => hb (Finset.mem_image.mpr ⟨w, Finset.mem_univ _, e⟩)
/-- Call 2 changes only its output: every other buffer, an input window's array included, leaves as it entered. -/
theorem W5_keep (c : Dev nD) (b : Ref sig .tc) (hb0 : b ≠ main_v46) :
    W5 m c (Proc.devRef .tc b) = W4 m c (Proc.devRef .tc b) := by
  by_cases h : ∃ w, Pipeline.arrRef spec2 w = b
  · obtain ⟨w, rfl⟩ := h
    rw [W5_arr]
    have key : ∀ w : Fin cfg2.W, Pipeline.arrRef spec2 w ≠ main_v46 → (dat2 (U4 m) c).arrAt w cfg2.N = W4 m c (Proc.devRef .tc (Pipeline.arrRef spec2 w)) := by
      intro w
      match w with
      | ⟨0, _⟩ => intro _; exact ((dat2 (U4 m) c).arrAt_in _ rfl _).trans (A_eq2 (U4 m) c _)
      | ⟨1, _⟩ => intro _; exact ((dat2 (U4 m) c).arrAt_in _ rfl _).trans (A_eq2 (U4 m) c _)
      | ⟨2, _⟩ => intro hb0; exact absurd rfl hb0
    exact key w hb0
  · exact W5_of_ne m c b fun w e => h ⟨w, e⟩
/-- After the host stretch `hostOps3`. -/
abbrev W6 : Dev nD → Valuation τ sig (Elt F) := fun c => StableHlo.after hostOps3 (W5 m c)
/-- Boundary 6 read at the TensorCore's references: what call 3 finds. -/
abbrev U6 : (c : Dev nD) → (b : Ref sig .tc) → Buf (Elt F) ((c : Thread nD τ).loc b) := fun c b => W6 m c b
/-- After call 3: its arrays at what the pipeline leaves, every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7x : (c : Dev nD) → (b : Ref sig .tc) → Buf (Elt F) ((c : Thread nD τ).loc b) := fun c b => W7 m c b
theorem hF3 (c : Dev nD) (w : Fin cfg3.W) : (dat3 (U6 m) c).arrAt w cfg3.N = U7x m c (Pipeline.arrRef spec3 w) :=
  (W7_arr m c w).symm
theorem hrest3 (c : Dev nD) : ∀ b, b ∉ Finset.univ.image (Pipeline.arrRef spec3) → U7x m c b = U6 m c b :=
  fun b hb => W7_of_ne m c b fun w e => hb (Finset.mem_image.mpr ⟨w, Finset.mem_univ _, e⟩)
/-- Call 3 changes only its output: every other buffer, an input window's array included, leaves as it entered. -/
theorem W7_keep (c : Dev nD) (b : Ref sig .tc) (hb0 : b ≠ main_v80) :
    W7 m c (Proc.devRef .tc b) = W6 m c (Proc.devRef .tc b) := by
  by_cases h : ∃ w, Pipeline.arrRef spec3 w = b
  · obtain ⟨w, rfl⟩ := h
    rw [W7_arr]
    have key : ∀ w : Fin cfg3.W, Pipeline.arrRef spec3 w ≠ main_v80 → (dat3 (U6 m) c).arrAt w cfg3.N = W6 m c (Proc.devRef .tc (Pipeline.arrRef spec3 w)) := by
      intro w
      match w with
      | ⟨0, _⟩ => intro _; exact ((dat3 (U6 m) c).arrAt_in _ rfl _).trans (A_eq3 (U6 m) c _)
      | ⟨1, _⟩ => intro _; exact ((dat3 (U6 m) c).arrAt_in _ rfl _).trans (A_eq3 (U6 m) c _)
      | ⟨2, _⟩ => intro hb0; exact absurd rfl hb0
    exact key w hb0
  · exact W7_of_ne m c b fun w e => h ⟨w, e⟩
/-- Boundary 7 read at the TensorCore's references: what call 4 finds. -/
abbrev U7 : (c : Dev nD) → (b : Ref sig .tc) → Buf (Elt F) ((c : Thread nD τ).loc b) := fun c b => W7 m c b
/-- After call 4: its arrays at what the pipeline leaves, every other buffer as entered. -/
def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev U8x : (c : Dev nD) → (b : Ref sig .tc) → Buf (Elt F) ((c : Thread nD τ).loc b) := fun c b => W8 m c b
theorem hF4 (c : Dev nD) (w : Fin cfg4.W) : (dat4 (U7 m) c).arrAt w cfg4.N = U8x m c (Pipeline.arrRef spec4 w) :=
  (W8_arr m c w).symm
theorem hrest4 (c : Dev nD) : ∀ b, b ∉ Finset.univ.image (Pipeline.arrRef spec4) → U8x m c b = U7 m c b :=
  fun b hb => W8_of_ne m c b fun w e => hb (Finset.mem_image.mpr ⟨w, Finset.mem_univ _, e⟩)
/-- Call 4 changes only its outputs: every other buffer, an input window's array included, leaves as it entered. -/
theorem W8_keep (c : Dev nD) (b : Ref sig .tc) (hb0 : b ≠ main_v81_0) (hb1 : b ≠ main_v81_1) :
    W8 m c (Proc.devRef .tc b) = W7 m c (Proc.devRef .tc b) := by
  by_cases h : ∃ w, Pipeline.arrRef spec4 w = b
  · obtain ⟨w, rfl⟩ := h
    rw [W8_arr]
    have key : ∀ w : Fin cfg4.W, Pipeline.arrRef spec4 w ≠ main_v81_0 → Pipeline.arrRef spec4 w ≠ main_v81_1 → (dat4 (U7 m) c).arrAt w cfg4.N = W7 m c (Proc.devRef .tc (Pipeline.arrRef spec4 w)) := by
      intro w
      match w with
      | ⟨0, _⟩ => intro _; intro _; exact ((dat4 (U7 m) c).arrAt_in _ rfl _).trans (A_eq4 (U7 m) c _)
      | ⟨1, _⟩ => intro _; intro _; exact ((dat4 (U7 m) c).arrAt_in _ rfl _).trans (A_eq4 (U7 m) c _)
      | ⟨2, _⟩ => intro _; intro _; exact ((dat4 (U7 m) c).arrAt_in _ rfl _).trans (A_eq4 (U7 m) c _)
      | ⟨3, _⟩ => intro hb0; intro hb1; exact absurd rfl hb0
      | ⟨4, _⟩ => intro hb0; intro hb1; exact absurd rfl hb1
    exact key w hb0 hb1
  · exact W8_of_ne m c b fun w e => h ⟨w, e⟩
/-- After the host stretch `hostOps5`. -/
abbrev W9 : Dev nD → Valuation τ sig (Elt F) := fun c => StableHlo.after hostOps5 (W8 m c)
/-- Boundary 9 read at the TensorCore's references: what call 5 finds. -/
abbrev U9 : (c : Dev nD) → (b : Ref sig .tc) → Buf (Elt F) ((c : Thread nD τ).loc b) := fun c b => W9 m c b
/-- After call 5: its arrays at what the pipeline leaves, every other buffer as entered. -/
def W10 (c : Dev nD) : Valuation τ sig (Elt F) :=
  Pipeline.withArrays spec5 c (W9 m c) fun w => (dat5 (U9 m) c).arrAt w cfg5.N
theorem W10_arr (c : Dev nD) (w : Fin cfg5.W) :
    W10 m c (Proc.devRef .tc (Pipeline.arrRef spec5 w)) = (dat5 (U9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
abbrev U10x : (c : Dev nD) → (b : Ref sig .tc) → Buf (Elt F) ((c : Thread nD τ).loc b) := fun c b => W10 m c b
theorem hF5 (c : Dev nD) (w : Fin cfg5.W) : (dat5 (U9 m) c).arrAt w cfg5.N = U10x m c (Pipeline.arrRef spec5 w) :=
  (W10_arr m c w).symm
theorem hrest5 (c : Dev nD) : ∀ b, b ∉ Finset.univ.image (Pipeline.arrRef spec5) → U10x m c b = U9 m c b :=
  fun b hb => W10_of_ne m c b fun w e => hb (Finset.mem_image.mpr ⟨w, Finset.mem_univ _, e⟩)
/-- Call 5 changes only its output: every other buffer, an input window's array included, leaves as it entered. -/
theorem W10_keep (c : Dev nD) (b : Ref sig .tc) (hb0 : b ≠ main_v93) :
    W10 m c (Proc.devRef .tc b) = W9 m c (Proc.devRef .tc b) := by
  by_cases h : ∃ w, Pipeline.arrRef spec5 w = b
  · obtain ⟨w, rfl⟩ := h
    rw [W10_arr]
    have key : ∀ w : Fin cfg5.W, Pipeline.arrRef spec5 w ≠ main_v93 → (dat5 (U9 m) c).arrAt w cfg5.N = W9 m c (Proc.devRef .tc (Pipeline.arrRef spec5 w)) := by
      intro w
      match w with
      | ⟨0, _⟩ => intro _; exact ((dat5 (U9 m) c).arrAt_in _ rfl _).trans (A_eq5 (U9 m) c _)
      | ⟨1, _⟩ => intro _; exact ((dat5 (U9 m) c).arrAt_in _ rfl _).trans (A_eq5 (U9 m) c _)
      | ⟨2, _⟩ => intro _; exact ((dat5 (U9 m) c).arrAt_in _ rfl _).trans (A_eq5 (U9 m) c _)
      | ⟨3, _⟩ => intro _; exact ((dat5 (U9 m) c).arrAt_in _ rfl _).trans (A_eq5 (U9 m) c _)
      | ⟨4, _⟩ => intro _; exact ((dat5 (U9 m) c).arrAt_in _ rfl _).trans (A_eq5 (U9 m) c _)
      | ⟨5, _⟩ => intro _; exact ((dat5 (U9 m) c).arrAt_in _ rfl _).trans (A_eq5 (U9 m) c _)
      | ⟨6, _⟩ => intro _; exact ((dat5 (U9 m) c).arrAt_in _ rfl _).trans (A_eq5 (U9 m) c _)
      | ⟨7, _⟩ => intro _; exact ((dat5 (U9 m) c).arrAt_in _ rfl _).trans (A_eq5 (U9 m) c _)
      | ⟨8, _⟩ => intro _; exact ((dat5 (U9 m) c).arrAt_in _ rfl _).trans (A_eq5 (U9 m) c _)
      | ⟨9, _⟩ => intro hb0; exact absurd rfl hb0
    exact key w hb0
  · exact W10_of_ne m c b fun w e => h ⟨w, e⟩

/-- A buffer that no host stretch writes and that is no call's output reaches the end as launched. -/
theorem W10_launch (c : Dev nD) (r : Ref sig .tc) (h0 : r ∉ hostOps0_W) (h1 : r ∉ hostOps1_W) (h3 : r ∉ hostOps3_W) (h5 : r ∉ hostOps5_W)
    (ho : r ∉ ([main_v11, main_v45, main_v46, main_v80, main_v81_0, main_v81_1, main_v93] : List (Ref sig .tc))) :
    W10 m c (Proc.devRef .tc r) = m ((c : Thread nD τ).loc r) := by
  have e11 : r ≠ main_v11 := fun e => ho (by rw [e]; decide)
  have e45 : r ≠ main_v45 := fun e => ho (by rw [e]; decide)
  have e46 : r ≠ main_v46 := fun e => ho (by rw [e]; decide)
  have e80 : r ≠ main_v80 := fun e => ho (by rw [e]; decide)
  have e810 : r ≠ main_v81_0 := fun e => ho (by rw [e]; decide)
  have e811 : r ≠ main_v81_1 := fun e => ho (by rw [e]; decide)
  have e93 : r ≠ main_v93 := fun e => ho (by rw [e]; decide)
  calc W10 m c (Proc.devRef .tc r)
    _ = W9 m c (Proc.devRef .tc r) := W10_keep m c r e93
    _ = W8 m c (Proc.devRef .tc r) := StableHlo.after_of_writes_sub hostOps5 _ hostOps5_writes h5
    _ = W7 m c (Proc.devRef .tc r) := W8_keep m c r e810 e811
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0
    _ = m ((c : Thread nD τ).loc r) := rfl

/-! ## The proof data family and the thread state -/

abbrev admH : (p : Fin 6) → (pcfgs (F := F) p).Adm := fun p => (cfgs p).toPCfg_adm
/-- Every call's proof data, each at the contents it is entered from. -/
def pdatsH : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U7 m) c
  | ⟨5, _⟩ => fun c => dat5 (U9 m) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W10 m c) ∗ ∃ r, prngReg c r)

/-! ## The calls as segments -/

set_option backward.isDefEq.respectTransparency.types false in
/-- Call 0 over the thread state: entered from every unscoped buffer at boundary 1, left at boundary 2. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2x m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at boundary 3, left at boundary 4. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4x m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at boundary 4, left at boundary 5. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ LH lvH 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U4 m c) (U5x m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at boundary 6, left at boundary 7. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ LH lvH 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U6 m c) (U7x m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped buffer at boundary 7, left at boundary 8. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ LH lvH 4 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec4 c (U7 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (U7 m) c); unfold Pipeline.ΦA
    iintro ⟨Hp, -, Hr⟩
    isplitl [Hr]; · iexact Hr
    iexact Hp
  hout c := by
    rw [Pipeline.ownSems0_none]
    refine (hout4 (U7 m) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U7 m c) (U8x m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered from every unscoped buffer at boundary 9, left at boundary 10. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U9 m) c).loose
  hwaits := Pipeline.hwaits_of_owed_zero _ _ _ _ LH lvH 5 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec5 c (U9 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (U9 m c) (U10x m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .region (reg2 m),
    .host (hsegH hostOps3 hostOps3_sub hostOps3_fresh (W5 m)),
    .region (reg3 m),
    .region (reg4 m),
    .host (hsegH hostOps5 hostOps5_sub hostOps5_fresh (W8 m)),
    .region (reg5 m) ]

theorem main_run (c : Dev nD) : main (F := F) c = Pipeline.Seg.run (segsH m) := (main_chain c).trans (by chain_rfl)

set_option backward.isDefEq.respectTransparency.types false in
/-- THE RUN: from any memory with zero counters every weakly fair execution of the program terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W10 m c) ∗ rest c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W10_launch m c main_arg0 (by decide) (by decide) (by decide) (by decide) (by decide)),
     (h c _ (mem_uc main_arg1 (by decide))).trans (W10_launch m c main_arg1 (by decide) (by decide) (by decide) (by decide) (by decide)),
     (h c _ (mem_uc main_arg2 (by decide))).trans (W10_launch m c main_arg2 (by decide) (by decide) (by decide) (by decide) (by decide)),
     (h c _ (mem_uc main_arg3 (by decide))).trans (W10_launch m c main_arg3 (by decide) (by decide) (by decide) (by decide) (by decide)),
     (h c _ (mem_uc main_arg4 (by decide))).trans (W10_launch m c main_arg4 (by decide) (by decide) (by decide) (by decide) (by decide)),
     (h c _ (mem_uc main_arg5 (by decide))).trans (W10_launch m c main_arg5 (by decide) (by decide) (by decide) (by decide) (by decide)),
     (h c _ (mem_uc main_arg6 (by decide))).trans (W10_launch m c main_arg6 (by decide) (by decide) (by decide) (by decide) (by decide)),
     (h c _ (mem_uc main_arg7 (by decide))).trans (W10_launch m c main_arg7 (by decide) (by decide) (by decide) (by decide) (by decide)),
     (h c _ (mem_uc main_arg8 (by decide))).trans (W10_launch m c main_arg8 (by decide) (by decide) (by decide) (by decide) (by decide)),
     (h c _ (mem_uc main_arg9 (by decide))).trans (W10_launch m c main_arg9 (by decide) (by decide) (by decide) (by decide) (by decide))⟩)
    (run_all m ρ)

end Cert.Kernel.Hand

end
-- ==== Proof.IdealRegion0.lean ====
/- The first layer's matrix-product call (idealized program): what one grid point's body leaves in its blocks, and the
   call's obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix-product call: each block of rows times the whole weight matrix (pipeline 0) -/

/-- Window `w`'s block at grid point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of rows, and the whole bias row. -/
abbrev rows0 : Rect S10000x128 := Rect.unit (s := S10000x128) ![0, 0] S10000x128.size inb_S10000x128_S10000x128_0_0
abbrev lane0 : Rect S128x128 := Rect.unit (s := S128x128) ![0, 0] S128x128.size inb_S128x128_S128x128_0_0

/-- What the body leaves in the output block: the one store's value over the two blocks read. -/
def out0_2 (x0 : Vec F S10000x128 .f32) (x1 : Vec F S128x128 .f32) : Vec F S10000x128 .f32 :=
  View.canon [⟨rows0, k0_pay1 (View.ld x0 rows0) (View.ld x1 lane0)⟩]

theorem cover0_2 (p0 : Vec F S10000x128 .f32) (y : S10000x128.Idx) :
    ∃ pc ∈ ([⟨rows0, p0⟩] : List (View.Piece (Elt F) S10000x128 .f32)), y ∈ pc.1.set :=
  View.cover_of_tiled [⟨rows0, p0⟩] S10000x128.size (by rfl) y

set_option maxHeartbeats 1000000 in
theorem sound_kernel0 (c : Dev nD) (E : Set ℕ) (i : grid0.Coords) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call: the arrays as found; after the body each input buffer at its block, the output's at the body's value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/- The bias-and-positive-part call on the first layer's aggregated rows (idealized program): what one grid point's body
   leaves in its blocks, and the call's obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The bias-and-positive-part call (pipeline 1): each block of rows plus the bias row, then the positive part -/

/-- Window `w`'s block at grid point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of rows, and the whole bias row. -/
abbrev rows1 : Rect S10000x128 := Rect.unit (s := S10000x128) ![0, 0] S10000x128.size inb_S10000x128_S10000x128_0_0
abbrev lane1 : Rect S128 := Rect.unit (s := S128) ![0] S128.size inb_S128_S128_0

/-- What the body leaves in the output block: the one store's value over the two blocks read. -/
def out1_2 (x0 : Vec F S10000x128 .f32) (x1 : Vec F S128 .f32) : Vec F S10000x128 .f32 :=
  View.canon [⟨rows1, k1_pay1 (View.ld x0 rows1) (View.ld x1 lane1)⟩]

theorem cover1_2 (p0 : Vec F S10000x128 .f32) (y : S10000x128.Idx) :
    ∃ pc ∈ ([⟨rows1, p0⟩] : List (View.Piece (Elt F) S10000x128 .f32)), y ∈ pc.1.set :=
  View.cover_of_tiled [⟨rows1, p0⟩] S10000x128.size (by rfl) y

set_option maxHeartbeats 1000000 in
theorem sound_kernel1 (c : Dev nD) (E : Set ℕ) (i : grid1.Coords) (arg0 : Memref sig .tc .vmem S10000x128 .f32) (harg0 : arg0.IsWhole)
    (arg1 : Memref sig .tc .vmem S128 .f32) (harg1 : arg1.IsWhole) (arg2 : Memref sig .tc .vmem S10000x128 .f32) (harg2 : arg2.IsWhole)
    (x0 : Vec F S10000x128 .f32) (x1 : Vec F S128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the call: the arrays as found; after the body each input buffer at its block, the output's at the body's value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/- The second layer's matrix-product call (idealized program): what one grid point's body leaves in its blocks, and the
   call's obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix-product call: each block of rows times the whole weight matrix (pipeline 2) -/

/-- Window `w`'s block at grid point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of rows, and the whole bias row. -/
abbrev rows2 : Rect S10000x128 := Rect.unit (s := S10000x128) ![0, 0] S10000x128.size inb_S10000x128_S10000x128_0_0
abbrev lane2 : Rect S128x128 := Rect.unit (s := S128x128) ![0, 0] S128x128.size inb_S128x128_S128x128_0_0

/-- What the body leaves in the output block: the one store's value over the two blocks read. -/
def out2_2 (x0 : Vec F S10000x128 .f32) (x1 : Vec F S128x128 .f32) : Vec F S10000x128 .f32 :=
  View.canon [⟨rows2, k2_pay1 (View.ld x0 rows2) (View.ld x1 lane2)⟩]

theorem cover2_2 (p0 : Vec F S10000x128 .f32) (y : S10000x128.Idx) :
    ∃ pc ∈ ([⟨rows2, p0⟩] : List (View.Piece (Elt F) S10000x128 .f32)), y ∈ pc.1.set :=
  View.cover_of_tiled [⟨rows2, p0⟩] S10000x128.size (by rfl) y

set_option maxHeartbeats 1000000 in
theorem sound_kernel2 (c : Dev nD) (E : Set ℕ) (i : grid2.Coords) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the call: the arrays as found; after the body each input buffer at its block, the output's at the body's value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
/- The bias-and-positive-part call on the second layer's aggregated rows (idealized program): what one grid point's body
   leaves in its blocks, and the call's obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The bias-and-positive-part call (pipeline 3): each block of rows plus the bias row, then the positive part -/

/-- Window `w`'s block at grid point `t`, read off the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of rows, and the whole bias row. -/
abbrev rows3 : Rect S10000x128 := Rect.unit (s := S10000x128) ![0, 0] S10000x128.size inb_S10000x128_S10000x128_0_0
abbrev lane3 : Rect S128 := Rect.unit (s := S128) ![0] S128.size inb_S128_S128_0

/-- What the body leaves in the output block: the one store's value over the two blocks read. -/
def out3_2 (x0 : Vec F S10000x128 .f32) (x1 : Vec F S128 .f32) : Vec F S10000x128 .f32 :=
  View.canon [⟨rows3, k3_pay1 (View.ld x0 rows3) (View.ld x1 lane3)⟩]

theorem cover3_2 (p0 : Vec F S10000x128 .f32) (y : S10000x128.Idx) :
    ∃ pc ∈ ([⟨rows3, p0⟩] : List (View.Piece (Elt F) S10000x128 .f32)), y ∈ pc.1.set :=
  View.cover_of_tiled [⟨rows3, p0⟩] S10000x128.size (by rfl) y

set_option maxHeartbeats 1000000 in
theorem sound_kernel3 (c : Dev nD) (E : Set ℕ) (i : grid3.Coords) (arg0 : Memref sig .tc .vmem S10000x128 .f32) (harg0 : arg0.IsWhole)
    (arg1 : Memref sig .tc .vmem S128 .f32) (harg1 : arg1.IsWhole) (arg2 : Memref sig .tc .vmem S10000x128 .f32) (harg2 : arg2.IsWhole)
    (x0 : Vec F S10000x128 .f32) (x1 : Vec F S128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call: the arrays as found; after the body each input buffer at its block, the output's at the body's value. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRegion4.lean ====
/- The column-statistics call (idealized program): over the grid's ten blocks of rows it accumulates, in two scratch rows
   carried from one point to the next, the column sums of the three row blocks side by side and of their squares; the first
   point starts both rows at zero and the last point copies them out. What each point's body leaves, and the call's
   obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-statistics call (pipeline 4) -/

/-- The two conditions of the body, from the grid coordinate: "this is the first point" and "this is the last point". -/
abbrev cond4_0 (i : grid4.Coords) : Prop := (Scalar.cmpi .ne (Scalar.extui (Scalar.cmpi .eq (BitVec.ofNat 32 (i 0).val) 0#32)) 0#32) = 1#1
abbrev cond4_1 (i : grid4.Coords) : Prop := k4_cond2 i = 1#1
theorem hcond4_0 : ∀ t : Fin cfg4.N, cond4_0 (grid4.coords t) ↔ t.val % 10 = 0 :=
  (by decide +kernel : ∀ t : Fin grid4.N, cond4_0 (grid4.coords t) ↔ t.val % 10 = 0)
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem idleAt4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

theorem hz1 : (![0] : Fin 1 → Nat) = fun _ => 0 := funext fun a => by fin_cases a <;> rfl
theorem hz2 : (![0, 0] : Fin 2 → Nat) = fun _ => 0 := funext fun a => by fin_cases a <;> rfl

abbrev rows4 : Rect S10000x128 := Rect.unit (s := S10000x128) ![0, 0] S10000x128.size inb_S10000x128_S10000x128_0_0
abbrev lane4 : Rect S384 := Rect.unit (s := S384) ![0] S384.size inb_S384_S384_0

/-- One point's step of the two carried rows: the row so far plus this block's column sums (of the entries, of their squares). -/
def stepS (x0 x1 x2 : Vec F S10000x128 .f32) (s : Vec F S384 .f32) : Vec F S384 .f32 := k4_pay4 x0 x1 x2 s
def stepQ (x0 x1 x2 : Vec F S10000x128 .f32) (q : Vec F S384 .f32) : Vec F S384 .f32 := k4_pay5 x0 x1 x2 q

theorem cover4c (p0 : Vec F S384 .f32) (L : List (View.Piece (Elt F) S384 .f32)) (y : S384.Idx) :
    ∃ pc ∈ ((⟨lane4, p0⟩ :: L) : List (View.Piece (Elt F) S384 .f32)), y ∈ pc.1.set :=
  ⟨⟨lane4, p0⟩, List.mem_cons.mpr (Or.inl rfl), View.mem_set_unit_zero hz1 inb_S384_S384_0 y⟩

set_option maxHeartbeats 4000000 in
/-- A middle point: neither condition holds; the outputs' buffers are untouched, both carried rows take one step. -/
theorem sound_kernel4_M (c : Dev nD) (E : Set ℕ) (i : grid4.Coords) (hc0 : ¬cond4_0 i) (hc1 : ¬cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (y3 y4 s q : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4
            ∗ owns (c : Thread nD τ) arg6 fullShare (stepS x0 x1 x2 s) ∗ owns (c : Thread nD τ) arg7 fullShare (stepQ x0 x1 x2 q)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (View.ld (arg6.view.read (Elt F) f5) lane4) = _
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (View.ld (arg7.view.read (Elt F) f6) lane4) = _
  simp only [View.ld_unit_zero (S := S10000x128) hz2, View.ld_unit_zero (S := S384) hz1]
  rfl

set_option maxHeartbeats 4000000 in
/-- The first point: both carried rows are started at zero, then take one step; the outputs' buffers are untouched. -/
theorem sound_kernel4_F (c : Dev nD) (E : Set ℕ) (i : grid4.Coords) (hc0 : cond4_0 i) (hc1 : ¬cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (y3 y4 : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4
            ∗ owns (c : Thread nD τ) arg6 fullShare (stepS x0 x1 x2 k4_pay1) ∗ owns (c : Thread nD τ) arg7 fullShare (stepQ x0 x1 x2 k4_pay2)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (arg6.view.readCov [⟨lane4, k4_pay1⟩] lane4.toLoadRect) = _
    rw [View.readCov_unit_zero _ hz1]
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (arg7.view.readCov [⟨lane4, k4_pay2⟩] lane4.toLoadRect) = _
  rw [View.readCov_unit_zero _ hz1]
  simp only [View.ld_unit_zero (S := S10000x128) hz2, View.ld_unit_zero (S := S384) hz1]
  rfl

set_option maxHeartbeats 4000000 in
/-- The last point: both carried rows take one step, and are then copied out to the two outputs' buffers. -/
theorem sound_kernel4_L (c : Dev nD) (E : Set ℕ) (i : grid4.Coords) (hc0 : ¬cond4_0 i) (hc1 : cond4_1 i)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S384 .f32) (harg4 : arg4.IsWhole)
    (arg5 : Memref sig .tc .vmem S384 .f32) (harg5 : arg5.IsWhole) (arg6 : Memref sig .tc .vmem S384 .f32) (harg6 : arg6.IsWhole)
    (arg7 : Memref sig .tc .vmem S384 .f32) (harg7 : arg7.IsWhole)
    (x0 x1 x2 : Vec F S10000x128 .f32) (s q : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare s ∗ owns (c : Thread nD τ) arg7 fullShare q
        ∗ (iprop(owns (c : Thread nD τ) arg1 fullShare x0 ∗ owns (c : Thread nD τ) arg2 fullShare x1 ∗ owns (c : Thread nD τ) arg3 fullShare x2 ∗ owns (c : Thread nD τ) arg4 fullShare (stepS x0 x1 x2 s) ∗ owns (c : Thread nD τ) arg5 fullShare (stepQ x0 x1 x2 q)
            ∗ owns (c : Thread nD τ) arg6 fullShare (stepS x0 x1 x2 s) ∗ owns (c : Thread nD τ) arg7 fullShare (stepQ x0 x1 x2 q)) -∗ K ⟨⟩))
      ⊢ wp frame (wpE (defs₀ (F := F)) Variants.none c none) E (cc4__bn_stats_kernel i arg1 harg1 arg2 harg2 arg3 harg3 arg4 harg4 arg5 harg5 arg6 harg6 arg7 harg7) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  ·
    iexists _; isplitr
    swap; · iexact H3
    ipureintro
    refine (View.read_writes_eq_canon _ _ _ (cover4c _ _)).trans ?_
    refine (View.canon_cons_unit_zero hz1 _ _ _).trans ?_
    show arg6.view.readCov [(⟨lane4, k4_pay4 (View.ld (arg1.view.read (Elt F) f0) rows4) (View.ld (arg2.view.read (Elt F) f1) rows4) (View.ld (arg3.view.read (Elt F) f2) rows4) (View.ld (arg6.view.read (Elt F) f5) lane4)⟩ : View.Piece (Elt F) S384 .f32)] lane4.toLoadRect = _
    rw [View.readCov_unit_zero _ hz1]
    simp only [View.ld_unit_zero (S := S10000x128) hz2, View.ld_unit_zero (S := S384) hz1]
    rfl
  isplitl [H4]
  ·
    iexists _; isplitr
    swap; · iexact H4
    ipureintro
    refine (View.read_writes_eq_canon _ _ _ (cover4c _ _)).trans ?_
    refine (View.canon_cons_unit_zero hz1 _ _ _).trans ?_
    show arg7.view.readCov [(⟨lane4, k4_pay5 (View.ld (arg1.view.read (Elt F) f0) rows4) (View.ld (arg2.view.read (Elt F) f1) rows4) (View.ld (arg3.view.read (Elt F) f2) rows4) (View.ld (arg7.view.read (Elt F) f6) lane4)⟩ : View.Piece (Elt F) S384 .f32)] lane4.toLoadRect = _
    rw [View.readCov_unit_zero _ hz1]
    simp only [View.ld_unit_zero (S := S10000x128) hz2, View.ld_unit_zero (S := S384) hz1]
    rfl
  isplitl [H5]
  ·
    iexists _; isplitr
    swap; · iexact H5
    ipureintro
    refine (View.read_writes_eq_canon _ _ _ (cover4c _ _)).trans ?_
    refine (View.canon_cons_unit_zero hz1 _ _ _).trans ?_
    show k4_pay4 (View.ld (arg1.view.read (Elt F) f0) rows4) (View.ld (arg2.view.read (Elt F) f1) rows4) (View.ld (arg3.view.read (Elt F) f2) rows4) (View.ld (arg6.view.read (Elt F) f5) lane4) = _
    simp only [View.ld_unit_zero (S := S10000x128) hz2, View.ld_unit_zero (S := S384) hz1]
    rfl
  iexists _; isplitr
  swap; · iexact H6
  ipureintro
  refine (View.read_writes_eq_canon _ _ _ (cover4c _ _)).trans ?_
  refine (View.canon_cons_unit_zero hz1 _ _ _).trans ?_
  show k4_pay5 (View.ld (arg1.view.read (Elt F) f0) rows4) (View.ld (arg2.view.read (Elt F) f1) rows4) (View.ld (arg3.view.read (Elt F) f2) rows4) (View.ld (arg7.view.read (Elt F) f6) lane4) = _
  simp only [View.ld_unit_zero (S := S10000x128) hz2, View.ld_unit_zero (S := S384) hz1]
  rfl

/-! ## The blocks, the carried rows after each point, and the proof data -/

/-- Window `w`'s block at grid point `t`, read off the array the call finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The two scratch rows the kernel carries from point to point. -/
abbrev scM4_0 : Memref sig .tc .vmem S384 .f32 := Memref.whole cc4_scratch0
abbrev scM4_1 : Memref sig .tc .vmem S384 .f32 := Memref.whole cc4_scratch1

/-- THE ACCUMULATION: the two carried rows after the body at position `n` — started at zero and stepped at the first point,
    stepped from the point before at every other. -/
def accAt (c : Dev nD) : (n : ℕ) → n < cfg4.N → Vec F S384 .f32 × Vec F S384 .f32
  | 0, hn => (stepS (iblk4 V c 0 ⟨0, hn⟩) (iblk4 V c 1 ⟨0, hn⟩) (iblk4 V c 2 ⟨0, hn⟩) k4_pay1, stepQ (iblk4 V c 0 ⟨0, hn⟩) (iblk4 V c 1 ⟨0, hn⟩) (iblk4 V c 2 ⟨0, hn⟩) k4_pay2)
  | n + 1, hn => (stepS (iblk4 V c 0 ⟨n + 1, hn⟩) (iblk4 V c 1 ⟨n + 1, hn⟩) (iblk4 V c 2 ⟨n + 1, hn⟩) (accAt c n (Nat.lt_of_succ_lt hn)).1, stepQ (iblk4 V c 0 ⟨n + 1, hn⟩) (iblk4 V c 1 ⟨n + 1, hn⟩) (iblk4 V c 2 ⟨n + 1, hn⟩) (accAt c n (Nat.lt_of_succ_lt hn)).2)

theorem accAt_first (c : Dev nD) (t : Fin cfg4.N) (h0 : t.val = 0) :
    accAt V c t.val t.isLt = (stepS (iblk4 V c 0 t) (iblk4 V c 1 t) (iblk4 V c 2 t) k4_pay1, stepQ (iblk4 V c 0 t) (iblk4 V c 1 t) (iblk4 V c 2 t) k4_pay2) := by
  obtain ⟨n, hn⟩ := t
  cases n with
  | zero => rfl
  | succ n => exact absurd h0 (Nat.succ_ne_zero _)

theorem accAt_later (c : Dev nD) (t : Fin cfg4.N) (h0 : t.val ≠ 0) :
    accAt V c t.val t.isLt = (stepS (iblk4 V c 0 t) (iblk4 V c 1 t) (iblk4 V c 2 t) (accAt V c (t.val - 1) (Nat.lt_of_le_of_lt (Nat.sub_le _ _) t.isLt)).1,
      stepQ (iblk4 V c 0 t) (iblk4 V c 1 t) (iblk4 V c 2 t) (accAt V c (t.val - 1) (Nat.lt_of_le_of_lt (Nat.sub_le _ _) t.isLt)).2) := by
  obtain ⟨n, hn⟩ := t
  cases n with
  | zero => exact absurd rfl h0
  | succ n => rfl

/-- The call's invariant before position `n`: before the first point every scoped buffer at anything; afterwards the two
    carried rows at what the point before left, the other scoped buffers at anything; always the generator register at some state. -/
def PhiS (c : Dev nD) : (n : ℕ) → n ≤ cfg4.N → sProp 𝕄
  | 0, _ => Pipeline.ΦA spec4 c
  | n + 1, hn => iprop(iprop(iprop(owns (c : Thread nD τ) scM4_0 fullShare (accAt V c n hn).1 ∗ owns (c : Thread nD τ) scM4_1 fullShare (accAt V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(iprop(owns (c : Thread nD τ) scM4_0 fullShare (accAt V c n hn).1 ∗ owns (c : Thread nD τ) scM4_1 fullShare (accAt V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem PhiS_pos (c : Dev nD) (n : ℕ) (h : n ≤ cfg4.N) (hz : n ≠ 0) :
    PhiS V c n h = iprop(iprop(iprop(owns (c : Thread nD τ) scM4_0 fullShare (accAt V c (n - 1) (by omega)).1 ∗ owns (c : Thread nD τ) scM4_1 fullShare (accAt V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two scratch rows split out of the scoped rest. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The proof data of the call: the arrays as found; after the body each input buffer at its block, the two outputs' at the
    carried rows (consulted at the last point only, where the body copies them out); the invariant above. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (accAt V c t.val t.isLt).1
    | ⟨4, _⟩ => (accAt V c t.val t.isLt).2
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS_castSucc (c : Dev nD) (t : Fin cfg4.N) :
    (dat4 V c).Φ t.castSucc = PhiS V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (accAt V c t.val t.isLt).1 := by dsimp only [dat4]
theorem after4_4 (c : Dev nD) (t : Fin cfg4.N) : (dat4 V c).after 4 t = (accAt V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point, by the point's case: the inputs' buffers hold their blocks; the invariant hands over the two carried
    rows (at anything before the first point, at what the point before left afterwards) and takes them back stepped; an
    output's buffer is handed back as found except at the last point, where it receives the carried row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS V c (t.val + 1) t.isLt from rfl, PhiS_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  have hN : t.val < 10 := lt_of_lt_of_eq t.isLt (show cfg4.N = 10 from N_4)
  by_cases h1 : t.val % 10 = 9
  · have hc1 : cond4_1 (grid4.coords t) := (hcond4_1 t).mpr h1
    have hc0 : ¬cond4_0 (grid4.coords t) := fun h => by have := (hcond4_0 t).mp h; omega
    have hz : t.val ≠ 0 := by omega
    rw [show (dat4 V c).leavesExact 3 t = owns (c : Thread nD τ) (st4_3 t) fullShare ((dat4 V c).after 3 t) from by
      unfold Dat.leavesExact; rw [liveAt4_3 t hc1], after4_3]
    rw [show (dat4 V c).leavesExact 4 t = owns (c : Thread nD τ) (st4_4 t) fullShare ((dat4 V c).after 4 t) from by
      unfold Dat.leavesExact; rw [liveAt4_4 t hc1], after4_4]
    rw [accAt_later V c t hz]; dsimp only
    rw [PhiS_castSucc V c t, PhiS_pos V c _ _ hz]
    iintro ⟨⟨⟨⟨HS0, HS1⟩, HRB⟩, Hg⟩, Ho, ⟨%d0, H0⟩, ⟨%d1, H1⟩, ⟨%d2, H2⟩, ⟨%d3, H3⟩, ⟨%d4, H4⟩⟩
    iapply (sound_kernel4_L c Set.univ _ hc0 hc1 _ _ _ _ _ _ _ _ _ _ _ _ _ _ (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HRB Hg]
    · isplitl [HS0 HS1 HRB]
      · isplitl [HS0 HS1]
        · isplitl [HS0]; · iexact HS0
          iexact HS1
        iexact HRB
      iexact Hg
    isplitl [Ho]; · iexact Ho
    isplitl [H0]; · iexact H0
    isplitl [H1]; · iexact H1
    isplitl [H2]; · iexact H2
    isplitl [H3]; · iexact H3
    iexact H4
  · have hc1 : ¬cond4_1 (grid4.coords t) := fun h => h1 ((hcond4_1 t).mp h)
    rw [Dat.leavesExact_idle (dat4 V c) 3 t (idleAt4_3 t hc1) (noFlush4_3 t hc1)]
    rw [Dat.leavesExact_idle (dat4 V c) 4 t (idleAt4_4 t hc1) (noFlush4_4 t hc1)]
    by_cases hz : t.val = 0
    · have hc0 : cond4_0 (grid4.coords t) := (hcond4_0 t).mpr (by omega)
      rw [accAt_first V c t hz]; dsimp only
      rw [PhiS_castSucc V c t, PhiS_zero V c _ _ hz, PhiA4_eq]
      iintro ⟨⟨⟨⟨HS0, HS1⟩, HRB⟩, Hg⟩, Ho, ⟨%d0, H0⟩, ⟨%d1, H1⟩, ⟨%d2, H2⟩, ⟨%d3, H3⟩, ⟨%d4, H4⟩⟩
      iapply (sound_kernel4_F c Set.univ _ hc0 hc1 _ _ _ _ _ _ _ _ _ _ _ _ _ _ (iblk4 V c 0 t) (iblk4 V c 1 t) (iblk4 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HRB Hg]
      · isplitl [HS0 HS1 HRB]
        · isplitl [HS0 HS1]
          · isplitl [HS0]; · iexact HS0
            iexact HS1
          iexact HRB
        iexact Hg
      isplitl [Ho]; · iexact Ho
      isplitl [H0]; · iexact H0
      isplitl [H1]; · iexact H1
      isplitl [H2]; · iexact H2
      isplitl [H3]; · iexists _; iexact H3
      iexists _; iexact H4
    · have hc0 : ¬cond4_0 (grid4.coords t) := fun h => by have := (hcond4_0 t).mp h; omega
      rw [accAt_later V c t hz]; dsimp only
      rw [PhiS_castSucc V c t, PhiS_pos V c _ _ hz]
      iintro ⟨⟨⟨⟨HS0, HS1⟩, HRB⟩, Hg⟩, Ho, ⟨%d0, H0⟩, ⟨%d1, H1⟩, ⟨%d2, H2⟩, ⟨%d3, H3⟩, ⟨%d4, H4⟩⟩
      iapply (sound_kernel4_M c Set.univ _ hc0 hc1 _ _ _ _ _ _ _ _ _ _ _ _ _ _ (iblk4 V c 0 t) (iblk4 V c 1 t) (iblk4 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HRB Hg]
      · isplitl [HS0 HS1 HRB]
        · isplitl [HS0 HS1]
          · isplitl [HS0]; · iexact HS0
            iexact HS1
          iexact HRB
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

/-- What the launch hands the call (every scoped buffer at anything) is the invariant before the first point. -/
theorem hin4 (c : Dev nD) : Pipeline.ΦA spec4 c ⊢ (dat4 V c).Φ 0 := by
  rw [show (dat4 V c).Φ 0 = PhiS V c 0 (Nat.zero_le _) from rfl, PhiS_zero V c 0 _ rfl]
  try exact Idealize.SL.BI.Entails.refl _

/-- After the last point the invariant gives the scoped buffers back: the carried rows' contents are forgotten. -/
theorem hout4 (c : Dev nD) : (dat4 V c).Φ (Fin.last cfg4.N) ⊢ Pipeline.ΦA spec4 c := by
  rw [show (dat4 V c).Φ (Fin.last cfg4.N) = PhiS V c (Fin.last cfg4.N).val (Nat.le_of_lt_succ (Fin.last cfg4.N).isLt) from rfl,
    PhiS_pos V c _ _ (by rw [Fin.val_last]; have : cfg4.N = 10 := N_4; omega), PhiA4_eq]
  iintro ⟨⟨⟨HS0, HS1⟩, HRB⟩, Hg⟩
  isplitl [HS0 HS1 HRB]
  · isplitl [HS0 HS1]
    · isplitl [HS0]
      · iexists _; iexact HS0
      iexists _; iexact HS1
    iexact HRB
  iexact Hg

end Cert.KernelIdeal.Hand

end
-- ==== Proof.IdealRegion5.lean ====
/- The normalise-and-project call (idealized program): the three row blocks side by side, centred, scaled and shifted
   column by column, times the output weights, plus the output bias. What one grid point's body leaves in its blocks,
   and the call's obligation to the pipeline at every point. -/
import proofs.«125812_j16904991277430_1_alg».proof.Proof.Gen.KernelIdeal.Launch
import proofs.«125812_j16904991277430_1_alg».proof.Proof.Gen.KernelIdeal.Skeleton
import proofs.«125812_j16904991277430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The normalise-and-project call (pipeline 5) -/

/-- Window `w`'s block at grid point `t`, read off the array the call finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body reads and writes through. -/
abbrev whole5_S10000x128 : Rect S10000x128 := Rect.unit (s := S10000x128) ![0, 0] S10000x128.size inb_S10000x128_S10000x128_0_0
abbrev whole5_S384 : Rect S384 := Rect.unit (s := S384) ![0] S384.size inb_S384_S384_0
abbrev whole5_S384x128 : Rect S384x128 := Rect.unit (s := S384x128) ![0, 0] S384x128.size inb_S384x128_S384x128_0_0
abbrev whole5_S128 : Rect S128 := Rect.unit (s := S128) ![0] S128.size inb_S128_S128_0

/-- What the body leaves in the output block: the one store's value over the blocks read. -/
def out5_9 (x0 : Vec F S10000x128 .f32) (x1 : Vec F S10000x128 .f32) (x2 : Vec F S10000x128 .f32) (x3 : Vec F S384 .f32) (x4 : Vec F S384 .f32) (x5 : Vec F S384 .f32) (x6 : Vec F S384 .f32) (x7 : Vec F S384x128 .f32) (x8 : Vec F S128 .f32) : Vec F S10000x128 .f32 :=
  View.canon [⟨whole5_S10000x128, k5_pay1 (View.ld x0 whole5_S10000x128) (View.ld x1 whole5_S10000x128) (View.ld x2 whole5_S10000x128) (View.ld x3 whole5_S384) (View.ld x4 whole5_S384) (View.ld x5 whole5_S384) (View.ld x6 whole5_S384) (View.ld x7 whole5_S384x128) (View.ld x8 whole5_S128)⟩]

theorem cover5_9 (p0 : Vec F S10000x128 .f32) (y : S10000x128.Idx) :
    ∃ pc ∈ ([⟨whole5_S10000x128, p0⟩] : List (View.Piece (Elt F) S10000x128 .f32)), y ∈ pc.1.set :=
  View.cover_of_tiled [⟨whole5_S10000x128, p0⟩] S10000x128.size (by rfl) y

set_option maxHeartbeats 4000000 in
theorem sound_kernel5 (c : Dev nD) (E : Set ℕ) (i : grid5.Coords) (arg0 : Memref sig .tc .vmem S10000x128 .f32) (harg0 : arg0.IsWhole) (arg1 : Memref sig .tc .vmem S10000x128 .f32) (harg1 : arg1.IsWhole) (arg2 : Memref sig .tc .vmem S10000x128 .f32) (harg2 : arg2.IsWhole) (arg3 : Memref sig .tc .vmem S384 .f32) (harg3 : arg3.IsWhole) (arg4 : Memref sig .tc .vmem S384 .f32) (harg4 : arg4.IsWhole) (arg5 : Memref sig .tc .vmem S384 .f32) (harg5 : arg5.IsWhole) (arg6 : Memref sig .tc .vmem S384 .f32) (harg6 : arg6.IsWhole) (arg7 : Memref sig .tc .vmem S384x128 .f32) (harg7 : arg7.IsWhole) (arg8 : Memref sig .tc .vmem S128 .f32) (harg8 : arg8.IsWhole) (arg9 : Memref sig .tc .vmem S10000x128 .f32) (harg9 : arg9.IsWhole)
    (x0 : Vec F S10000x128 .f32) (x1 : Vec F S10000x128 .f32) (x2 : Vec F S10000x128 .f32) (x3 : Vec F S384 .f32) (x4 : Vec F S384 .f32) (x5 : Vec F S384 .f32) (x6 : Vec F S384 .f32) (x7 : Vec F S384x128 .f32) (x8 : Vec F S128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out5_9 x0 x1 x2 x3 x4 x5 x6 x7 x8)) -∗ K ⟨⟩))
      ⊢ wp frame (wpE (defs₀ (F := F)) Variants.none c none) E (cc5__bn_output_kernel i arg0 harg0 arg1 harg1 arg2 harg2 arg3 harg3 arg4 harg4 arg5 harg5 arg6 harg6 arg7 harg7 arg8 harg8 arg9 harg9) K := by
  simp only [cc5__bn_output_kernel_eq_skeleton]; unfold cc5__bn_output_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-- The proof data of the call: the arrays as found; after the body each input buffer at its block, the output's at the body's value. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IdealFrame.lean ====
/- The run of the whole program (idealized): the contents of every unscoped buffer at each boundary between a stretch of host
   operations and a kernel call, folded from the launch memory; each call as a segment entered from one boundary and left at
   the next; and the run itself — every weakly fair execution terminates, nothing faulting, with every unscoped buffer at
   the last boundary's contents. The arguments are written by no stretch and are no call's output, so they end as launched. -/
import proofs.«125812_j16904991277430_1_alg».proof.Proof.IdealRegion0
import proofs.«125812_j16904991277430_1_alg».proof.Proof.IdealRegion1
import proofs.«125812_j16904991277430_1_alg».proof.Proof.IdealRegion2
import proofs.«125812_j16904991277430_1_alg».proof.Proof.IdealRegion3
import proofs.«125812_j16904991277430_1_alg».proof.Proof.IdealRegion4
import proofs.«125812_j16904991277430_1_alg».proof.Proof.IdealRegion5
import proofs.«125812_j16904991277430_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- Boundary 1 read at the TensorCore's references: what call 0 finds. -/
abbrev U1 : (c : Dev nD) → (b : Ref sig .tc) → Buf (Elt F) ((c : Thread nD τ).loc b) := fun c b => W1 m c b
/-- After call 0: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2x : (c : Dev nD) → (b : Ref sig .tc) → Buf (Elt F) ((c : Thread nD τ).loc b) := fun c b => W2 m c b
theorem hF0 (c : Dev nD) (w : Fin cfg0.W) : (dat0 (U1 m) c).arrAt w cfg0.N = U2x m c (Pipeline.arrRef spec0 w) :=
  (W2_arr m c w).symm
theorem hrest0 (c : Dev nD) : ∀ b, b ∉ Finset.univ.image (Pipeline.arrRef spec0) → U2x m c b = U1 m c b :=
  fun b hb => W2_of_ne m c b fun w e => hb (Finset.mem_image.mpr ⟨w, Finset.mem_univ _, e⟩)
/-- Call 0 changes only its output: every other buffer, an input window's array included, leaves as it entered. -/
theorem W2_keep (c : Dev nD) (b : Ref sig .tc) (hb0 : b ≠ main_v11) :
    W2 m c (Proc.devRef .tc b) = W1 m c (Proc.devRef .tc b) := by
  by_cases h : ∃ w, Pipeline.arrRef spec0 w = b
  · obtain ⟨w, rfl⟩ := h
    rw [W2_arr]
    have key : ∀ w : Fin cfg0.W, Pipeline.arrRef spec0 w ≠ main_v11 → (dat0 (U1 m) c).arrAt w cfg0.N = W1 m c (Proc.devRef .tc (Pipeline.arrRef spec0 w)) := by
      intro w
      match w with
      | ⟨0, _⟩ => intro _; exact ((dat0 (U1 m) c).arrAt_in _ rfl _).trans (A_eq0 (U1 m) c _)
      | ⟨1, _⟩ => intro _; exact ((dat0 (U1 m) c).arrAt_in _ rfl _).trans (A_eq0 (U1 m) c _)
      | ⟨2, _⟩ => intro hb0; exact absurd rfl hb0
    exact key w hb0
  · exact W2_of_ne m c b fun w e => h ⟨w, e⟩
/-- After the host stretch `hostOps1`. -/
abbrev W3 : Dev nD → Valuation τ sig (Elt F) := fun c => StableHlo.after hostOps1 (W2 m c)
/-- Boundary 3 read at the TensorCore's references: what call 1 finds. -/
abbrev U3 : (c : Dev nD) → (b : Ref sig .tc) → Buf (Elt F) ((c : Thread nD τ).loc b) := fun c b => W3 m c b
/-- After call 1: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4x : (c : Dev nD) → (b : Ref sig .tc) → Buf (Elt F) ((c : Thread nD τ).loc b) := fun c b => W4 m c b
theorem hF1 (c : Dev nD) (w : Fin cfg1.W) : (dat1 (U3 m) c).arrAt w cfg1.N = U4x m c (Pipeline.arrRef spec1 w) :=
  (W4_arr m c w).symm
theorem hrest1 (c : Dev nD) : ∀ b, b ∉ Finset.univ.image (Pipeline.arrRef spec1) → U4x m c b = U3 m c b :=
  fun b hb => W4_of_ne m c b fun w e => hb (Finset.mem_image.mpr ⟨w, Finset.mem_univ _, e⟩)
/-- Call 1 changes only its output: every other buffer, an input window's array included, leaves as it entered. -/
theorem W4_keep (c : Dev nD) (b : Ref sig .tc) (hb0 : b ≠ main_v45) :
    W4 m c (Proc.devRef .tc b) = W3 m c (Proc.devRef .tc b) := by
  by_cases h : ∃ w, Pipeline.arrRef spec1 w = b
  · obtain ⟨w, rfl⟩ := h
    rw [W4_arr]
    have key : ∀ w : Fin cfg1.W, Pipeline.arrRef spec1 w ≠ main_v45 → (dat1 (U3 m) c).arrAt w cfg1.N = W3 m c (Proc.devRef .tc (Pipeline.arrRef spec1 w)) := by
      intro w
      match w with
      | ⟨0, _⟩ => intro _; exact ((dat1 (U3 m) c).arrAt_in _ rfl _).trans (A_eq1 (U3 m) c _)
      | ⟨1, _⟩ => intro _; exact ((dat1 (U3 m) c).arrAt_in _ rfl _).trans (A_eq1 (U3 m) c _)
      | ⟨2, _⟩ => intro hb0; exact absurd rfl hb0
    exact key w hb0
  · exact W4_of_ne m c b fun w e => h ⟨w, e⟩
/-- Boundary 4 read at the TensorCore's references: what call 2 finds. -/
abbrev U4 : (c : Dev nD) → (b : Ref sig .tc) → Buf (Elt F) ((c : Thread nD τ).loc b) := fun c b => W4 m c b
/-- After call 2: its arrays at what the pipeline leaves, every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5x : (c : Dev nD) → (b : Ref sig .tc) → Buf (Elt F) ((c : Thread nD τ).loc b) := fun c b => W5 m c b
theorem hF2 (c : Dev nD) (w : Fin cfg2.W) : (dat2 (U4 m) c).arrAt w cfg2.N = U5x m c (Pipeline.arrRef spec2 w) :=
  (W5_arr m c w).symm
theorem hrest2 (c : Dev nD) : ∀ b, b ∉ Finset.univ.image (Pipeline.arrRef spec2) → U5x m c b = U4 m c b :=
  fun b hb => W5_of_ne m c b fun w e => hb (Finset.mem_image.mpr ⟨w, Finset.mem_univ _, e⟩)
/-- Call 2 changes only its output: every other buffer, an input window's array included, leaves as it entered. -/
theorem W5_keep (c : Dev nD) (b : Ref sig .tc) (hb0 : b ≠ main_v46) :
    W5 m c (Proc.devRef .tc b) = W4 m c (Proc.devRef .tc b) := by
  by_cases h : ∃ w, Pipeline.arrRef spec2 w = b
  · obtain ⟨w, rfl⟩ := h
    rw [W5_arr]
    have key : ∀ w : Fin cfg2.W, Pipeline.arrRef spec2 w ≠ main_v46 → (dat2 (U4 m) c).arrAt w cfg2.N = W4 m c (Proc.devRef .tc (Pipeline.arrRef spec2 w)) := by
      intro w
      match w with
      | ⟨0, _⟩ => intro _; exact ((dat2 (U4 m) c).arrAt_in _ rfl _).trans (A_eq2 (U4 m) c _)
      | ⟨1, _⟩ => intro _; exact ((dat2 (U4 m) c).arrAt_in _ rfl _).trans (A_eq2 (U4 m) c _)
      | ⟨2, _⟩ => intro hb0; exact absurd rfl hb0
    exact key w hb0
  · exact W5_of_ne m c b fun w e => h ⟨w, e⟩
/-- After the host stretch `hostOps3`. -/
abbrev W6 : Dev nD → Valuation τ sig (Elt F) := fun c => StableHlo.after hostOps3 (W5 m c)
/-- Boundary 6 read at the TensorCore's references: what call 3 finds. -/
abbrev U6 : (c : Dev nD) → (b : Ref sig .tc) → Buf (Elt F) ((c : Thread nD τ).loc b) := fun c b => W6 m c b
/-- After call 3: its arrays at what the pipeline leaves, every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7x : (c : Dev nD) → (b : Ref sig .tc) → Buf (Elt F) ((c : Thread nD τ).loc b) := fun c b => W7 m c b
theorem hF3 (c : Dev nD) (w : Fin cfg3.W) : (dat3 (U6 m) c).arrAt w cfg3.N = U7x m c (Pipeline.arrRef spec3 w) :=
  (W7_arr m c w).symm
theorem hrest3 (c : Dev nD) : ∀ b, b ∉ Finset.univ.image (Pipeline.arrRef spec3) → U7x m c b = U6 m c b :=
  fun b hb => W7_of_ne m c b fun w e => hb (Finset.mem_image.mpr ⟨w, Finset.mem_univ _, e⟩)
/-- Call 3 changes only its output: every other buffer, an input window's array included, leaves as it entered. -/
theorem W7_keep (c : Dev nD) (b : Ref sig .tc) (hb0 : b ≠ main_v80) :
    W7 m c (Proc.devRef .tc b) = W6 m c (Proc.devRef .tc b) := by
  by_cases h : ∃ w, Pipeline.arrRef spec3 w = b
  · obtain ⟨w, rfl⟩ := h
    rw [W7_arr]
    have key : ∀ w : Fin cfg3.W, Pipeline.arrRef spec3 w ≠ main_v80 → (dat3 (U6 m) c).arrAt w cfg3.N = W6 m c (Proc.devRef .tc (Pipeline.arrRef spec3 w)) := by
      intro w
      match w with
      | ⟨0, _⟩ => intro _; exact ((dat3 (U6 m) c).arrAt_in _ rfl _).trans (A_eq3 (U6 m) c _)
      | ⟨1, _⟩ => intro _; exact ((dat3 (U6 m) c).arrAt_in _ rfl _).trans (A_eq3 (U6 m) c _)
      | ⟨2, _⟩ => intro hb0; exact absurd rfl hb0
    exact key w hb0
  · exact W7_of_ne m c b fun w e => h ⟨w, e⟩
/-- Boundary 7 read at the TensorCore's references: what call 4 finds. -/
abbrev U7 : (c : Dev nD) → (b : Ref sig .tc) → Buf (Elt F) ((c : Thread nD τ).loc b) := fun c b => W7 m c b
/-- After call 4: its arrays at what the pipeline leaves, every other buffer as entered. -/
def W8 (c : Dev nD) : Valuation τ sig (Elt F) :=
  Pipeline.withArrays spec4 c (W7 m c) fun w => (dat4 (U7 m) c).arrAt w cfg4.N
theorem W8_arr (c : Dev nD) (w : Fin cfg4.W) :
    W8 m c (Proc.devRef .tc (Pipeline.arrRef spec4 w)) = (dat4 (U7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev U8x : (c : Dev nD) → (b : Ref sig .tc) → Buf (Elt F) ((c : Thread nD τ).loc b) := fun c b => W8 m c b
theorem hF4 (c : Dev nD) (w : Fin cfg4.W) : (dat4 (U7 m) c).arrAt w cfg4.N = U8x m c (Pipeline.arrRef spec4 w) :=
  (W8_arr m c w).symm
theorem hrest4 (c : Dev nD) : ∀ b, b ∉ Finset.univ.image (Pipeline.arrRef spec4) → U8x m c b = U7 m c b :=
  fun b hb => W8_of_ne m c b fun w e => hb (Finset.mem_image.mpr ⟨w, Finset.mem_univ _, e⟩)
/-- Call 4 changes only its outputs: every other buffer, an input window's array included, leaves as it entered. -/
theorem W8_keep (c : Dev nD) (b : Ref sig .tc) (hb0 : b ≠ main_v81_0) (hb1 : b ≠ main_v81_1) :
    W8 m c (Proc.devRef .tc b) = W7 m c (Proc.devRef .tc b) := by
  by_cases h : ∃ w, Pipeline.arrRef spec4 w = b
  · obtain ⟨w, rfl⟩ := h
    rw [W8_arr]
    have key : ∀ w : Fin cfg4.W, Pipeline.arrRef spec4 w ≠ main_v81_0 → Pipeline.arrRef spec4 w ≠ main_v81_1 → (dat4 (U7 m) c).arrAt w cfg4.N = W7 m c (Proc.devRef .tc (Pipeline.arrRef spec4 w)) := by
      intro w
      match w with
      | ⟨0, _⟩ => intro _; intro _; exact ((dat4 (U7 m) c).arrAt_in _ rfl _).trans (A_eq4 (U7 m) c _)
      | ⟨1, _⟩ => intro _; intro _; exact ((dat4 (U7 m) c).arrAt_in _ rfl _).trans (A_eq4 (U7 m) c _)
      | ⟨2, _⟩ => intro _; intro _; exact ((dat4 (U7 m) c).arrAt_in _ rfl _).trans (A_eq4 (U7 m) c _)
      | ⟨3, _⟩ => intro hb0; intro hb1; exact absurd rfl hb0
      | ⟨4, _⟩ => intro hb0; intro hb1; exact absurd rfl hb1
    exact key w hb0 hb1
  · exact W8_of_ne m c b fun w e => h ⟨w, e⟩
/-- After the host stretch `hostOps5`. -/
abbrev W9 : Dev nD → Valuation τ sig (Elt F) := fun c => StableHlo.after hostOps5 (W8 m c)
/-- Boundary 9 read at the TensorCore's references: what call 5 finds. -/
abbrev U9 : (c : Dev nD) → (b : Ref sig .tc) → Buf (Elt F) ((c : Thread nD τ).loc b) := fun c b => W9 m c b
/-- After call 5: its arrays at what the pipeline leaves, every other buffer as entered. -/
def W10 (c : Dev nD) : Valuation τ sig (Elt F) :=
  Pipeline.withArrays spec5 c (W9 m c) fun w => (dat5 (U9 m) c).arrAt w cfg5.N
theorem W10_arr (c : Dev nD) (w : Fin cfg5.W) :
    W10 m c (Proc.devRef .tc (Pipeline.arrRef spec5 w)) = (dat5 (U9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
abbrev U10x : (c : Dev nD) → (b : Ref sig .tc) → Buf (Elt F) ((c : Thread nD τ).loc b) := fun c b => W10 m c b
theorem hF5 (c : Dev nD) (w : Fin cfg5.W) : (dat5 (U9 m) c).arrAt w cfg5.N = U10x m c (Pipeline.arrRef spec5 w) :=
  (W10_arr m c w).symm
theorem hrest5 (c : Dev nD) : ∀ b, b ∉ Finset.univ.image (Pipeline.arrRef spec5) → U10x m c b = U9 m c b :=
  fun b hb => W10_of_ne m c b fun w e => hb (Finset.mem_image.mpr ⟨w, Finset.mem_univ _, e⟩)
/-- Call 5 changes only its output: every other buffer, an input window's array included, leaves as it entered. -/
theorem W10_keep (c : Dev nD) (b : Ref sig .tc) (hb0 : b ≠ main_v93) :
    W10 m c (Proc.devRef .tc b) = W9 m c (Proc.devRef .tc b) := by
  by_cases h : ∃ w, Pipeline.arrRef spec5 w = b
  · obtain ⟨w, rfl⟩ := h
    rw [W10_arr]
    have key : ∀ w : Fin cfg5.W, Pipeline.arrRef spec5 w ≠ main_v93 → (dat5 (U9 m) c).arrAt w cfg5.N = W9 m c (Proc.devRef .tc (Pipeline.arrRef spec5 w)) := by
      intro w
      match w with
      | ⟨0, _⟩ => intro _; exact ((dat5 (U9 m) c).arrAt_in _ rfl _).trans (A_eq5 (U9 m) c _)
      | ⟨1, _⟩ => intro _; exact ((dat5 (U9 m) c).arrAt_in _ rfl _).trans (A_eq5 (U9 m) c _)
      | ⟨2, _⟩ => intro _; exact ((dat5 (U9 m) c).arrAt_in _ rfl _).trans (A_eq5 (U9 m) c _)
      | ⟨3, _⟩ => intro _; exact ((dat5 (U9 m) c).arrAt_in _ rfl _).trans (A_eq5 (U9 m) c _)
      | ⟨4, _⟩ => intro _; exact ((dat5 (U9 m) c).arrAt_in _ rfl _).trans (A_eq5 (U9 m) c _)
      | ⟨5, _⟩ => intro _; exact ((dat5 (U9 m) c).arrAt_in _ rfl _).trans (A_eq5 (U9 m) c _)
      | ⟨6, _⟩ => intro _; exact ((dat5 (U9 m) c).arrAt_in _ rfl _).trans (A_eq5 (U9 m) c _)
      | ⟨7, _⟩ => intro _; exact ((dat5 (U9 m) c).arrAt_in _ rfl _).trans (A_eq5 (U9 m) c _)
      | ⟨8, _⟩ => intro _; exact ((dat5 (U9 m) c).arrAt_in _ rfl _).trans (A_eq5 (U9 m) c _)
      | ⟨9, _⟩ => intro hb0; exact absurd rfl hb0
    exact key w hb0
  · exact W10_of_ne m c b fun w e => h ⟨w, e⟩

/-- A buffer that no host stretch writes and that is no call's output reaches the end as launched. -/
theorem W10_launch (c : Dev nD) (r : Ref sig .tc) (h0 : r ∉ hostOps0_W) (h1 : r ∉ hostOps1_W) (h3 : r ∉ hostOps3_W) (h5 : r ∉ hostOps5_W)
    (ho : r ∉ ([main_v11, main_v45, main_v46, main_v80, main_v81_0, main_v81_1, main_v93] : List (Ref sig .tc))) :
    W10 m c (Proc.devRef .tc r) = m ((c : Thread nD τ).loc r) := by
  have e11 : r ≠ main_v11 := fun e => ho (by rw [e]; decide)
  have e45 : r ≠ main_v45 := fun e => ho (by rw [e]; decide)
  have e46 : r ≠ main_v46 := fun e => ho (by rw [e]; decide)
  have e80 : r ≠ main_v80 := fun e => ho (by rw [e]; decide)
  have e810 : r ≠ main_v81_0 := fun e => ho (by rw [e]; decide)
  have e811 : r ≠ main_v81_1 := fun e => ho (by rw [e]; decide)
  have e93 : r ≠ main_v93 := fun e => ho (by rw [e]; decide)
  calc W10 m c (Proc.devRef .tc r)
    _ = W9 m c (Proc.devRef .tc r) := W10_keep m c r e93
    _ = W8 m c (Proc.devRef .tc r) := StableHlo.after_of_writes_sub hostOps5 _ hostOps5_writes h5
    _ = W7 m c (Proc.devRef .tc r) := W8_keep m c r e810 e811
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0
    _ = m ((c : Thread nD τ).loc r) := rfl

/-! ## The proof data family and the thread state -/

abbrev admH : (p : Fin 6) → (pcfgs (F := F) p).Adm := fun p => (cfgs p).toPCfg_adm
/-- Every call's proof data, each at the contents it is entered from. -/
def pdatsH : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U7 m) c
  | ⟨5, _⟩ => fun c => dat5 (U9 m) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (W10 m c) ∗ ∃ r, prngReg c r)

/-! ## The calls as segments -/

set_option backward.isDefEq.respectTransparency.types false in
/-- Call 0 over the thread state: entered from every unscoped buffer at boundary 1, left at boundary 2. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2x m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at boundary 3, left at boundary 4. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4x m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at boundary 4, left at boundary 5. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ LH lvH 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U4 m c) (U5x m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at boundary 6, left at boundary 7. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ LH lvH 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U6 m c) (U7x m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped buffer at boundary 7, left at boundary 8. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ LH lvH 4 fun _ _ => rfl
  pre c := iprop(StableHlo.held (c : Thread nD τ) (Pipeline.ucRefs τ sig) (W7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := UR sig nD τ) (Lvl := ℕ) spec4 c (U7 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (U7 m) c); unfold Pipeline.ΦA
    iintro ⟨Hp, -, Hr⟩
    isplitl [Hr]; · iexact Hr
    iexact Hp
  hout c := by
    rw [Pipeline.ownSems0_none]
    refine (hout4 (U7 m) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (U7 m c) (U8x m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 over the thread state: entered from every unscoped buffer at boundary 9, left at boundary 10. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (U9 m) c).loose
  hwaits := Pipeline.hwaits_of_owed_zero _ _ _ _ LH lvH 5 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec5 c (U9 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (U9 m c) (U10x m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .region (reg2 m),
    .host (hsegH hostOps3 hostOps3_sub hostOps3_fresh (W5 m)),
    .region (reg3 m),
    .region (reg4 m),
    .host (hsegH hostOps5 hostOps5_sub hostOps5_fresh (W8 m)),
    .region (reg5 m) ]

theorem main_run (c : Dev nD) : main (F := F) c = Pipeline.Seg.run (segsH m) := (main_chain c).trans (by chain_rfl)

set_option backward.isDefEq.respectTransparency.types false in
/-- THE RUN: from any memory with zero counters every weakly fair execution of the program terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W10 m c) ∗ rest c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W10_launch m c main_arg0 (by decide) (by decide) (by decide) (by decide) (by decide)),
     (h c _ (mem_uc main_arg1 (by decide))).trans (W10_launch m c main_arg1 (by decide) (by decide) (by decide) (by decide) (by decide)),
     (h c _ (mem_uc main_arg2 (by decide))).trans (W10_launch m c main_arg2 (by decide) (by decide) (by decide) (by decide) (by decide)),
     (h c _ (mem_uc main_arg3 (by decide))).trans (W10_launch m c main_arg3 (by decide) (by decide) (by decide) (by decide) (by decide)),
     (h c _ (mem_uc main_arg4 (by decide))).trans (W10_launch m c main_arg4 (by decide) (by decide) (by decide) (by decide) (by decide)),
     (h c _ (mem_uc main_arg5 (by decide))).trans (W10_launch m c main_arg5 (by decide) (by decide) (by decide) (by decide) (by decide)),
     (h c _ (mem_uc main_arg6 (by decide))).trans (W10_launch m c main_arg6 (by decide) (by decide) (by decide) (by decide) (by decide)),
     (h c _ (mem_uc main_arg7 (by decide))).trans (W10_launch m c main_arg7 (by decide) (by decide) (by decide) (by decide) (by decide)),
     (h c _ (mem_uc main_arg8 (by decide))).trans (W10_launch m c main_arg8 (by decide) (by decide) (by decide) (by decide) (by decide)),
     (h c _ (mem_uc main_arg9 (by decide))).trans (W10_launch m c main_arg9 (by decide) (by decide) (by decide) (by decide) (by decide))⟩)
    (run_all m ρ)

end Cert.KernelIdeal.Hand

end
-- ==== Proof.Spec.lean ====
/- The mathematics of the program as whole-array functions, generic in the number system: one layer's aggregation over the
   graph (the neighbours' rows scaled by the two end points' inverse root degrees and summed per destination, plus the row's
   own scaled copy), one layer (aggregation, bias, positive part), the three feature blocks side by side, the column sums,
   the column mean, the inverse standard deviation in the reference's form (mean of squared deviations) and in the kernel's
   form (mean of squares minus squared mean, clamped at zero), and the normalise-and-project stage. The reference's stages
   are these functions by unfolding. -/
import proofs.«125812_j16904991277430_1_alg».proof.Proof.Gen.ReferenceIdeal.Read

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- One layer's aggregation of the rows `h` over the edge list `x1`: for every edge the source row scaled by the product of
    the two end points' inverse root degrees, summed into the destination row; plus each row scaled by its own squared
    inverse root degree. (The pieces that depend on the edge list alone are the reference's own stages.) -/
def aggOf (h : (⟨S100000x128, .f32⟩ : BufTy).Contents (Elt F)) (x1 : (⟨S2x1600000, .i32⟩ : BufTy).Contents (Elt F)) : (⟨S100000x128, .f32⟩ : BufTy).Contents (Elt F) :=
  addf (Host.scatterAdd scatter_S100000x128_S1600000x1_S1600000x128_1_0_0_1 (broadcastInDim S100000x128 ![] bcast_S_S100000x128 (constant S_ .f32 0x00000000#32)) (Cert.ReferenceIdeal.Read.val_main_v38 (F := F) x1) (mulf (Host.gather gather_S100000x128_S1600000x1_S1600000x128_1_0_n_n_0_1_1128 h (Cert.ReferenceIdeal.Read.val_main_v32 (F := F) x1)) (Cert.ReferenceIdeal.Read.val_main_v35 (F := F) x1))) (mulf h (Cert.ReferenceIdeal.Read.val_main_v42 (F := F) x1))

/-- One layer: the aggregation plus the bias row, then the positive part. -/
def layerOf (h : (⟨S100000x128, .f32⟩ : BufTy).Contents (Elt F)) (x1 : (⟨S2x1600000, .i32⟩ : BufTy).Contents (Elt F)) (b : (⟨S128, .f32⟩ : BufTy).Contents (Elt F)) : (⟨S100000x128, .f32⟩ : BufTy).Contents (Elt F) :=
  maximumf (addf (aggOf h x1) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The three feature blocks side by side. -/
def catOf (a b c : (⟨S100000x128, .f32⟩ : BufTy).Contents (Elt F)) : (⟨S100000x384, .f32⟩ : BufTy).Contents (Elt F) :=
  concatenate S100000x384 1 [⟨S100000x128, a⟩, ⟨S100000x128, b⟩, ⟨S100000x128, c⟩] concatenates_S100000x128_S100000x128_S100000x128_S100000x384_d1

/-- The column sums (from zero). -/
def sumCols (xc : (⟨S100000x384, .f32⟩ : BufTy).Contents (Elt F)) : (⟨S384, .f32⟩ : BufTy).Contents (Elt F) :=
  Host.reduceAdd xc (constant S_ .f32 0x00000000#32) reducesTo_S100000x384_S384_d0 h_S_

/-- A column vector of totals divided by the number of rows. -/
def muOf (S : (⟨S384, .f32⟩ : BufTy).Contents (Elt F)) : (⟨S384, .f32⟩ : BufTy).Contents (Elt F) :=
  Host.divf S (broadcastInDim S384 ![] bcast_S_S384 (constant S_ .f32 0x47C35000#32))

/-- A length-384 vector repeated down the rows. -/
def rowsOf (v : (⟨S384, .f32⟩ : BufTy).Contents (Elt F)) : (⟨S100000x384, .f32⟩ : BufTy).Contents (Elt F) :=
  broadcastInDim S100000x384 ![0, 1] bcast_S1x384_S100000x384_0_1 (broadcastInDim S1x384 ![1] bcast_S384_S1x384_1 v)

/-- The small constant added under the root, and zero, as length-384 vectors. -/
def epsRow : (⟨S384, .f32⟩ : BufTy).Contents (Elt F) := broadcastInDim S384 ![] bcast_S_S384 (constant S_ .f32 0x3727C5AC#32)
def zeroRow : (⟨S384, .f32⟩ : BufTy).Contents (Elt F) := broadcastInDim S384 ![] bcast_S_S384 (constant S_ .f32 0x00000000#32)

/-- The inverse standard deviation as the reference computes it: the mean of the squared deviations from the mean. -/
def invstdR (xc : (⟨S100000x384, .f32⟩ : BufTy).Contents (Elt F)) : (⟨S384, .f32⟩ : BufTy).Contents (Elt F) :=
  Host.rsqrt (addf (muOf (sumCols (mulf (subf xc (rowsOf (muOf (sumCols xc)))) (subf xc (rowsOf (muOf (sumCols xc))))))) epsRow)

/-- The inverse standard deviation as the kernel computes it from the two totals: mean of squares minus squared mean, clamped at zero. -/
def invstdK (S Q : (⟨S384, .f32⟩ : BufTy).Contents (Elt F)) : (⟨S384, .f32⟩ : BufTy).Contents (Elt F) :=
  Host.rsqrt (addf (maximumf (subf (muOf Q) (mulf (muOf S) (muOf S))) zeroRow) epsRow)

/-- Centre, scale, shift column by column, project, add the output bias. -/
def outOf (xc : (⟨S100000x384, .f32⟩ : BufTy).Contents (Elt F)) (mu inv x6 x7 : (⟨S384, .f32⟩ : BufTy).Contents (Elt F)) (x8 : (⟨S384x128, .f32⟩ : BufTy).Contents (Elt F)) (x9 : (⟨S128, .f32⟩ : BufTy).Contents (Elt F)) : (⟨S100000x128, .f32⟩ : BufTy).Contents (Elt F) :=
  addf (Host.dotGeneral dot_S100000x384_S384x128_S100000x128_1_0_0_1_n_n none (addf (mulf (mulf (subf xc (rowsOf mu)) (rowsOf inv)) (rowsOf x6)) (rowsOf x7)) x8) (broadcastInDim S100000x128 ![0, 1] bcast_S1x128_S100000x128_0_1 (broadcastInDim S1x128 ![1] bcast_S128_S1x128_1 x9))

/-! ## The reference's stages are these functions -/

theorem ref_v44 (x0 : (⟨S100000x128, .f32⟩ : BufTy).Contents (Elt F)) (x1 : (⟨S2x1600000, .i32⟩ : BufTy).Contents (Elt F)) (x2 : (⟨S128x128, .f32⟩ : BufTy).Contents (Elt F)) :
    val_main_v44 (F := F) x0 x1 x2 = aggOf (val_main_v4 (F := F) x0 x2) x1 := rfl
theorem ref_v48 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) :
    val_main_v48 (F := F) x0 x1 x2 x3 = layerOf (val_main_v4 (F := F) x0 x2) x1 x3 := rfl
theorem ref_v93 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v93 (F := F) x0 x1 x2 x3 x4 x5 = layerOf (val_main_v49 (F := F) x0 x1 x2 x3 x4) x1 x5 := rfl
theorem ref_v94 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v94 (F := F) x0 x1 x2 x3 x4 x5 = catOf x0 (val_main_v48 (F := F) x0 x1 x2 x3) (val_main_v93 (F := F) x0 x1 x2 x3 x4 x5) := rfl
theorem ref_v123 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 x7 : (⟨S384, .f32⟩ : BufTy).Contents (Elt F)) (x8 : (⟨S384x128, .f32⟩ : BufTy).Contents (Elt F)) (x9 : (⟨S128, .f32⟩ : BufTy).Contents (Elt F)) :
    val_main_v123 (F := F) x0 x1 x2 x3 x4 x5 x6 x7 x8 x9
      = outOf (val_main_v94 (F := F) x0 x1 x2 x3 x4 x5) (muOf (sumCols (val_main_v94 (F := F) x0 x1 x2 x3 x4 x5))) (invstdR (val_main_v94 (F := F) x0 x1 x2 x3 x4 x5)) x6 x7 x8 x9 := rfl

end Cert.Spec

end
-- ==== Proof.IdealCarry.lean ====
/- Reading the buffers at the boundaries of the idealized kernel program: a buffer that the items between two boundaries neither
   write (host stretches) nor leave as an output (kernel calls) holds at the later boundary what it held at the earlier one;
   the first stretch's results (the edge sources and destinations, the inverse root degrees) and the last stretch's (the
   column mean and the inverse standard deviation from the two totals) as pure terms of what the stretch reads. -/
import proofs.«125812_j16904991277430_1_alg».proof.Proof.IdealFrame
import proofs.«125812_j16904991277430_1_alg».proof.Proof.Spec
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.StableHlo
open Idealize.SL.Sem

variable {F : FTy → Type} [FloatOps F]
variable (m : (ℓ : Loc nD τ sig) → Buf (Elt F) ℓ)

/-! ## Buffers carried from one boundary to a later one -/

/-- From the first call's entry back to the launch. -/
theorem W1_eq_W0 (c : Dev nD) (r : Ref sig .tc) (h0 : r ∉ hostOps0_W) :
    W1 m c (Proc.devRef .tc r) = W0 m c (Proc.devRef .tc r) :=
  calc W1 m c (Proc.devRef .tc r)
    _ = W0 m c (Proc.devRef .tc r) := StableHlo.after_of_writes_sub hostOps0 _ hostOps0_writes h0

/-- From the second call's entry back to the launch. -/
theorem W3_eq_W0 (c : Dev nD) (r : Ref sig .tc) (h1 : r ∉ hostOps1_W) (e11 : r ≠ main_v11) (h0 : r ∉ hostOps0_W) :
    W3 m c (Proc.devRef .tc r) = W0 m c (Proc.devRef .tc r) :=
  calc W3 m c (Proc.devRef .tc r)
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0

/-- From the third call's entry back to the launch. -/
theorem W4_eq_W0 (c : Dev nD) (r : Ref sig .tc) (e45 : r ≠ main_v45) (h1 : r ∉ hostOps1_W) (e11 : r ≠ main_v11) (h0 : r ∉ hostOps0_W) :
    W4 m c (Proc.devRef .tc r) = W0 m c (Proc.devRef .tc r) :=
  calc W4 m c (Proc.devRef .tc r)
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0

/-- From the fourth call's entry back to the launch. -/
theorem W6_eq_W0 (c : Dev nD) (r : Ref sig .tc) (h3 : r ∉ hostOps3_W) (e46 : r ≠ main_v46) (e45 : r ≠ main_v45) (h1 : r ∉ hostOps1_W) (e11 : r ≠ main_v11) (h0 : r ∉ hostOps0_W) :
    W6 m c (Proc.devRef .tc r) = W0 m c (Proc.devRef .tc r) :=
  calc W6 m c (Proc.devRef .tc r)
    _ = W5 m c (Proc.devRef .tc r) := StableHlo.after_of_writes_sub hostOps3 _ hostOps3_writes h3
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0

/-- From the fifth call's entry back to the launch. -/
theorem W7_eq_W0 (c : Dev nD) (r : Ref sig .tc) (e80 : r ≠ main_v80) (h3 : r ∉ hostOps3_W) (e46 : r ≠ main_v46) (e45 : r ≠ main_v45) (h1 : r ∉ hostOps1_W) (e11 : r ≠ main_v11) (h0 : r ∉ hostOps0_W) :
    W7 m c (Proc.devRef .tc r) = W0 m c (Proc.devRef .tc r) :=
  calc W7 m c (Proc.devRef .tc r)
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0

/-- From the last call's entry back to the launch. -/
theorem W9_eq_W0 (c : Dev nD) (r : Ref sig .tc) (h5 : r ∉ hostOps5_W) (e810 : r ≠ main_v81_0) (e811 : r ≠ main_v81_1) (e80 : r ≠ main_v80) (h3 : r ∉ hostOps3_W) (e46 : r ≠ main_v46) (e45 : r ≠ main_v45) (h1 : r ∉ hostOps1_W) (e11 : r ≠ main_v11) (h0 : r ∉ hostOps0_W) :
    W9 m c (Proc.devRef .tc r) = W0 m c (Proc.devRef .tc r) :=
  calc W9 m c (Proc.devRef .tc r)
    _ = W8 m c (Proc.devRef .tc r) := StableHlo.after_of_writes_sub hostOps5 _ hostOps5_writes h5
    _ = W7 m c (Proc.devRef .tc r) := W8_keep m c r e810 e811
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11
    _ = W0 m c (Proc.devRef .tc r) := StableHlo.after_of_writes_sub hostOps0 _ hostOps0_writes h0

/-- Across the first call. -/
theorem W2_eq_W1 (c : Dev nD) (r : Ref sig .tc) (e11 : r ≠ main_v11) :
    W2 m c (Proc.devRef .tc r) = W1 m c (Proc.devRef .tc r) :=
  calc W2 m c (Proc.devRef .tc r)
    _ = W1 m c (Proc.devRef .tc r) := W2_keep m c r e11

/-- From the second aggregation's entry back to the first call's entry. -/
theorem W5_eq_W1 (c : Dev nD) (r : Ref sig .tc) (e46 : r ≠ main_v46) (e45 : r ≠ main_v45) (h1 : r ∉ hostOps1_W) (e11 : r ≠ main_v11) :
    W5 m c (Proc.devRef .tc r) = W1 m c (Proc.devRef .tc r) :=
  calc W5 m c (Proc.devRef .tc r)
    _ = W4 m c (Proc.devRef .tc r) := W5_keep m c r e46
    _ = W3 m c (Proc.devRef .tc r) := W4_keep m c r e45
    _ = W2 m c (Proc.devRef .tc r) := StableHlo.after_of_writes_sub hostOps1 _ hostOps1_writes h1
    _ = W1 m c (Proc.devRef .tc r) := W2_keep m c r e11

/-- From the statistics call's entry back to the first layer's output. -/
theorem W7_eq_W4 (c : Dev nD) (r : Ref sig .tc) (e80 : r ≠ main_v80) (h3 : r ∉ hostOps3_W) (e46 : r ≠ main_v46) :
    W7 m c (Proc.devRef .tc r) = W4 m c (Proc.devRef .tc r) :=
  calc W7 m c (Proc.devRef .tc r)
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46

/-- From the last call's entry back to the first layer's output. -/
theorem W9_eq_W4 (c : Dev nD) (r : Ref sig .tc) (h5 : r ∉ hostOps5_W) (e810 : r ≠ main_v81_0) (e811 : r ≠ main_v81_1) (e80 : r ≠ main_v80) (h3 : r ∉ hostOps3_W) (e46 : r ≠ main_v46) :
    W9 m c (Proc.devRef .tc r) = W4 m c (Proc.devRef .tc r) :=
  calc W9 m c (Proc.devRef .tc r)
    _ = W8 m c (Proc.devRef .tc r) := StableHlo.after_of_writes_sub hostOps5 _ hostOps5_writes h5
    _ = W7 m c (Proc.devRef .tc r) := W8_keep m c r e810 e811
    _ = W6 m c (Proc.devRef .tc r) := W7_keep m c r e80
    _ = W5 m c (Proc.devRef .tc r) := StableHlo.after_of_writes_sub hostOps3 _ hostOps3_writes h3
    _ = W4 m c (Proc.devRef .tc r) := W5_keep m c r e46

/-- From the last call's entry back to the second layer's output. -/
theorem W9_eq_W7 (c : Dev nD) (r : Ref sig .tc) (h5 : r ∉ hostOps5_W) (e810 : r ≠ main_v81_0) (e811 : r ≠ main_v81_1) :
    W9 m c (Proc.devRef .tc r) = W7 m c (Proc.devRef .tc r) :=
  calc W9 m c (Proc.devRef .tc r)
    _ = W8 m c (Proc.devRef .tc r) := StableHlo.after_of_writes_sub hostOps5 _ hostOps5_writes h5
    _ = W7 m c (Proc.devRef .tc r) := W8_keep m c r e810 e811

/-! ## The first stretch: the edge list's two rows and the inverse root degrees -/

theorem W1_src (c : Dev nD) : W1 m c (Proc.devRef .tc main_v1) = Cert.ReferenceIdeal.Read.val_main_v1 (F := F) (m ((c : Thread nD τ).loc main_arg1)) := by
  show StableHlo.after hostOps0 (W0 m c) (Proc.devRef .tc main_v1) = _
  after_results
  rfl
theorem W1_dst (c : Dev nD) : W1 m c (Proc.devRef .tc main_v3) = Cert.ReferenceIdeal.Read.val_main_v3 (F := F) (m ((c : Thread nD τ).loc main_arg1)) := by
  show StableHlo.after hostOps0 (W0 m c) (Proc.devRef .tc main_v3) = _
  after_results
  rfl
theorem W1_dinv (c : Dev nD) : W1 m c (Proc.devRef .tc main_v10) = Cert.ReferenceIdeal.Read.val_main_v11 (F := F) (m ((c : Thread nD τ).loc main_arg1)) := by
  show StableHlo.after hostOps0 (W0 m c) (Proc.devRef .tc main_v10) = _
  after_results
  rfl

/-! ## The last stretch: the mean and the inverse standard deviation from the two totals -/

theorem W9_mu (c : Dev nD) : W9 m c (Proc.devRef .tc main_v83) = muOf (F := F) (W8 m c (Proc.devRef .tc main_v81_0)) := by
  show StableHlo.after hostOps5 (W8 m c) (Proc.devRef .tc main_v83) = _
  after_results
  rfl
theorem W9_invstd (c : Dev nD) : W9 m c (Proc.devRef .tc main_v92) = invstdK (F := F) (W8 m c (Proc.devRef .tc main_v81_0)) (W8 m c (Proc.devRef .tc main_v81_1)) := by
  show StableHlo.after hostOps5 (W8 m c) (Proc.devRef .tc main_v92) = _
  after_results
  rfl

end Cert.KernelIdeal.Hand

end
-- ==== Proof.IdealStretches.lean ====
/-
  The two host stretches that aggregate one layer's rows over the graph, as whole-array functions of what they find.

  Each stretch is forty operations: the edge sources and destinations are wrapped into row numbers (a negative number
  has the row count added), the inverse root degrees are gathered at both end points of every edge and multiplied, the
  rows to aggregate are gathered at the sources, scaled by that product, and summed into the destination rows from
  zero; to this is added each row scaled by its own squared inverse root degree. Where the inverse root degrees, the
  sources and the destinations the stretch finds are the reference's own stages of the edge list, the stretch's result
  is the aggregation `aggOf` of the rows it finds over that edge list: the two programs apply the same operations, one
  by one, under different buffer names.
-/
import proofs.«125812_j16904991277430_1_alg».proof.Proof.IdealFrame
import proofs.«125812_j16904991277430_1_alg».proof.Proof.Gen.KernelIdeal.Launch
import proofs.«125812_j16904991277430_1_alg».proof.Proof.Spec
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.StableHlo Idealize.SL.Sem

variable {F : FTy → Type} [FloatOps F]
variable (m : (ℓ : Loc nD τ sig) → Buf (Elt F) ℓ)

/-- The first aggregation stretch: what it leaves in its result buffer is the aggregation of the rows call 0 wrote. -/
theorem stretch1 (c : Dev nD)
    (hd : W2 m c (Proc.devRef .tc main_v10) = Cert.ReferenceIdeal.Read.val_main_v11 (F := F) (m ((c : Thread nD τ).loc main_arg1)))
    (hs : W2 m c (Proc.devRef .tc main_v1) = Cert.ReferenceIdeal.Read.val_main_v1 (F := F) (m ((c : Thread nD τ).loc main_arg1)))
    (ht : W2 m c (Proc.devRef .tc main_v3) = Cert.ReferenceIdeal.Read.val_main_v3 (F := F) (m ((c : Thread nD τ).loc main_arg1))) :
    W3 m c (Proc.devRef .tc main_v44) = aggOf (F := F) (W2 m c (Proc.devRef .tc main_v11)) (m ((c : Thread nD τ).loc main_arg1)) := by
  show StableHlo.after hostOps1 (W2 m c) (Proc.devRef .tc main_v44) = _
  after_results_simp
  rw [hd, hs, ht]
  rfl

/-- The second aggregation stretch: what it leaves in its result buffer is the aggregation of the rows call 2 wrote. -/
theorem stretch3 (c : Dev nD)
    (hd : W5 m c (Proc.devRef .tc main_v10) = Cert.ReferenceIdeal.Read.val_main_v11 (F := F) (m ((c : Thread nD τ).loc main_arg1)))
    (hs : W5 m c (Proc.devRef .tc main_v1) = Cert.ReferenceIdeal.Read.val_main_v1 (F := F) (m ((c : Thread nD τ).loc main_arg1)))
    (ht : W5 m c (Proc.devRef .tc main_v3) = Cert.ReferenceIdeal.Read.val_main_v3 (F := F) (m ((c : Thread nD τ).loc main_arg1))) :
    W6 m c (Proc.devRef .tc main_v79) = aggOf (F := F) (W5 m c (Proc.devRef .tc main_v46)) (m ((c : Thread nD τ).loc main_arg1)) := by
  show StableHlo.after hostOps3 (W5 m c) (Proc.devRef .tc main_v79) = _
  after_results_simp
  rw [hd, hs, ht]
  rfl

end Cert.KernelIdeal.Hand

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«125812_j16904991277430_1_alg».proof.Proof.LibPlainMatmul
import proofs.«125812_j16904991277430_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.IdealArr0.lean ====
/- The array the first matrix-product call leaves: its ten blocks of rows are the rows of the whole product of the two
   argument arrays, at the exact extended reals. -/
import proofs.«125812_j16904991277430_1_alg».proof.Proof.IdealRegion0
import proofs.«125812_j16904991277430_1_alg».proof.Proof.IdealRegion4
import proofs.«125812_j16904991277430_1_alg».proof.Proof.LibMatrixProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.MatrixProduct

variable (V : (c : Dev nD) → (b : Ref sig .tc) → Buf (Elt Ideal) ((c : Thread nD τ).loc b))

/-! ## Call 0: the blocks of rows of the product are the rows of the whole product -/

/-- The index maps over the grid: the row-block windows sit at block row `t`, the weight window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value is the product of its two blocks. -/
theorem pay0_eq (x0 : Vec Ideal S10000x128 .f32) (x1 : Vec Ideal S128x128 .f32) : k0_pay1 x0 x1 = mm x0 x1 :=
  matmul_zero_eq_mm dot_S10000x128_S128x128_S10000x128_1_0_0_1_n_n_wf none x0 x1

/-- What point `t` writes back is block `t` of the whole product. -/
theorem flushed0_eq (c : Dev nD) (t : Fin cfg0.N) :
    (dat0 V c).flushed 2 t = ((cfg0.win 2).blk t).view.read (Elt Ideal)
      (mm (V c main_arg0 : S100000x128.Idx → EReal) (V c main_arg2 : S128x128.Idx → EReal)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x128) hz2]
  rw [pay0_eq]
  obtain ⟨e0, e1, e2, e3, e4, e5⟩ := idx0 t
  funext j
  show mm (iblk0 V c 0 t) (iblk0 V c 1 t) j = mm (V c main_arg0 : S100000x128.Idx → EReal) (V c main_arg2 : S128x128.Idx → EReal) (((cfg0.win 2).blk t).view.emb j)
  refine mm_of_row_col _ _ _ _ j _ (fun k => ?_) (fun k => ?_)
  · show V c main_arg0 (((cfg0.win 0).blk t).view.emb (ix2 (j 0) k)) = V c main_arg0 (ix2 ((((cfg0.win 2).blk t).view.emb j) 0) k)
    congr 1
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- Every row of the output is in some point's block: the ten blocks of 10000 rows tile the 100000. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v11).slice (win0_2.rect t)).set ↔ _
  rw [View.set_slice_whole, Rect.mem_set_unit]
  exact Iff.rfl

theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 10000 < cfg0.N := by rw [show cfg0.N = 10 from N_0]; omega
  obtain ⟨e0, e1, e2, e3, e4, e5⟩ := idx0 ⟨(i 0).val / 10000, hlt⟩
  refine ⟨⟨(i 0).val / 10000, hlt⟩, flush0_2 _, ?_⟩
  rw [mem_blk0]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; rw [e4]; dsimp only; omega
  | ⟨1, _⟩ => show win0_2.index ⟨(i 0).val / 10000, hlt⟩ (1 : Fin 2) * 128 ≤ (i 1).val ∧ (i 1).val < win0_2.index ⟨(i 0).val / 10000, hlt⟩ (1 : Fin 2) * 128 + 128; rw [e5]; omega

/-- THE ARRAY call 0 leaves: the whole product. -/
theorem arr0 (c : Dev nD) : (dat0 V c).arrAt 2 cfg0.N = mm (V c main_arg0 : S100000x128.Idx → EReal) (V c main_arg2 : S128x128.Idx → EReal) :=
  (dat0 V c).arrAt_eq_of_cover 2 _ (fun t _ => flushed0_eq V c t) (cover0)

end Cert.KernelIdeal.Hand

end
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.Spec2.lean ====
/- One layer's last step as a function of its own: the bias row added to every row, then the positive part; and that step
   read at an entry, at the exact extended reals. -/
import proofs.«125812_j16904991277430_1_alg».proof.Proof.Spec
import proofs.«125812_j16904991277430_1_alg».proof.Proof.LibBiasRows
import Idealize.ShloMosaic.Lib.Pipeline.Value
import Idealize.ShloMosaic.Lib.ValueIdx

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable {F : FTy → Type} [FloatOps F]

/-- The bias row added to every row of `A`, then the positive part. -/
def biasPos (A : (⟨S100000x128, .f32⟩ : BufTy).Contents (Elt F)) (b : (⟨S128, .f32⟩ : BufTy).Contents (Elt F)) : (⟨S100000x128, .f32⟩ : BufTy).Contents (Elt F) :=
  maximumf (addf A (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- A layer is that step over the aggregation. -/
theorem layerOf_eq (h : (⟨S100000x128, .f32⟩ : BufTy).Contents (Elt F)) (x1 : (⟨S2x1600000, .i32⟩ : BufTy).Contents (Elt F)) (b : (⟨S128, .f32⟩ : BufTy).Contents (Elt F)) :
    layerOf (F := F) h x1 b = biasPos (aggOf h x1) b := rfl

/-- At entry (r, a): the larger of A(r, a) + b(a) and zero. -/
theorem biasPos_apply (A : (⟨S100000x128, .f32⟩ : BufTy).Contents (Elt Ideal)) (b : (⟨S128, .f32⟩ : BufTy).Contents (Elt Ideal)) (r : Fin 100000) (a : Fin 128) :
    biasPos (F := Ideal) A b (ix2 r a) = max (A (ix2 r a) + b (ix1 a)) (Ideal.ofBits .f32 0x00000000#32) := by
  show max (A (ix2 r a) + broadcastInDim S100000x128 ![0, 1] bcast_S1x128_S100000x128_0_1 (broadcastInDim S1x128 ![1] bcast_S128_S1x128_1 b) (ix2 r a))
      (broadcastInDim S100000x128 ![] bcast_S_S100000x128 (constant (F := Ideal) S_ .f32 0x00000000#32) (ix2 r a)) = _
  rw [bias_rows_apply b bcast_S128_S1x128_1 bcast_S1x128_S100000x128_0_1 r a]
  refine congrArg (max _) ?_
  exact broadcastInDim_apply _ bcast_S_S100000x128 (constant (F := Ideal) S_ .f32 0x00000000#32) (ix2 r a) (fun x => x.elim0) (fun x => x.elim0)

end Cert.Spec

end
-- ==== Proof.IdealArr1.lean ====
/- The array the first bias-and-positive-part call leaves: its ten blocks of rows are the rows of the whole stage applied to
   the aggregated rows and the bias, at the exact extended reals. -/
import proofs.«125812_j16904991277430_1_alg».proof.Proof.IdealRegion1
import proofs.«125812_j16904991277430_1_alg».proof.Proof.IdealRegion4
import proofs.«125812_j16904991277430_1_alg».proof.Proof.Spec2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Call 1: the blocks of rows of the output are the rows of the whole bias-and-positive-part stage -/

theorem idxb1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The body's value at entry (p, a): the larger of the block's entry plus the bias entry, and zero. -/
theorem payb1_at (x0 : Vec Ideal S10000x128 .f32) (x1 : Vec Ideal S128 .f32) (p : Fin 10000) (a : Fin 128) :
    k1_pay1 x0 x1 (ix2 p a) = max (x0 (ix2 p a) + x1 (ix1 a)) (Ideal.ofBits .f32 0x00000000#32) := by
  unfold k1_pay1
  show max (shapeCast S10000x128 x0 shapeCasts_S10000x128_S10000x128 (ix2 p a)
      + broadcastTo S10000x128 (shapeCast S1x128 x1 shapeCasts_S128_S1x128) broadcasts_S1x128_S10000x128 (ix2 p a)) _ = _
  rw [shapeCast_self, broadcastTo_1b_ab_apply, shapeCast_a_1a_apply]
  rfl

/-- What point `t` writes back is block `t` of the whole stage. -/
theorem flushedb1_eq (c : Dev nD) (t : Fin cfg1.N) :
    (dat1 V c).flushed 2 t = ((cfg1.win 2).blk t).view.read (Elt Ideal)
      (Cert.Spec.biasPos (F := Ideal) (V c main_v44) (V c main_arg3)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128) hz1]
  obtain ⟨e0, e1, e2, e3, e4⟩ := idxb1 t
  have hN : t.val < 10 := lt_of_lt_of_eq t.isLt (show cfg1.N = 10 from N_1)
  funext j
  obtain ⟨p, a, rfl⟩ : ∃ (p : Fin 10000) (a : Fin 128), j = ix2 p a := ⟨j 0, j 1, eq_ix2 j⟩
  have hr : 10000 * t.val + p.val < 100000 := by have := p.isLt; omega
  have hemb : ((cfg1.win 2).blk t).view.emb (ix2 p a) = (ix2 (⟨10000 * t.val + p.val, hr⟩ : Fin 100000) a : S100000x128.Idx) := by
    funext ax; apply Fin.ext
    match ax with
    | ⟨0, _⟩ => show win1_2.index t (0 : Fin 2) * 10000 + 1 * p.val = 10000 * t.val + p.val; omega
    | ⟨1, _⟩ => show win1_2.index t (1 : Fin 2) * 128 + 1 * a.val = a.val; omega
  have h0 : iblk1 V c 0 t (ix2 p a) = V c main_v44 (ix2 (⟨10000 * t.val + p.val, hr⟩ : Fin 100000) a : S100000x128.Idx) := by
    show V c main_v44 (((cfg1.win 0).blk t).view.emb (ix2 p a)) = _
    refine congrArg (V c main_v44) ?_
    funext ax; apply Fin.ext
    match ax with
    | ⟨0, _⟩ => show win1_0.index t (0 : Fin 2) * 10000 + 1 * p.val = 10000 * t.val + p.val; omega
    | ⟨1, _⟩ => show win1_0.index t (1 : Fin 2) * 128 + 1 * a.val = a.val; omega
  have h1 : iblk1 V c 1 t (ix1 a) = V c main_arg3 (ix1 a : S128.Idx) := by
    show V c main_arg3 (((cfg1.win 1).blk t).view.emb (ix1 a)) = _
    refine congrArg (V c main_arg3) ?_
    funext ax; apply Fin.ext
    match ax with
    | ⟨0, _⟩ => show win1_1.index t (0 : Fin 1) * 128 + 1 * a.val = a.val; omega
  show k1_pay1 (iblk1 V c 0 t) (iblk1 V c 1 t) (ix2 p a) = Cert.Spec.biasPos (F := Ideal) (V c main_v44) (V c main_arg3) (((cfg1.win 2).blk t).view.emb (ix2 p a))
  rw [payb1_at, hemb, Cert.Spec.biasPos_apply, h0, h1]

theorem mem_blkb1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

theorem coverb1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 10000 < cfg1.N := by rw [show cfg1.N = 10 from N_1]; omega
  obtain ⟨e0, e1, e2, e3, e4⟩ := idxb1 ⟨(i 0).val / 10000, hlt⟩
  refine ⟨⟨(i 0).val / 10000, hlt⟩, flush1_2 _, ?_⟩
  rw [mem_blkb1]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; rw [e3]; dsimp only; omega
  | ⟨1, _⟩ => show win1_2.index ⟨(i 0).val / 10000, hlt⟩ (1 : Fin 2) * 128 ≤ (i 1).val ∧ (i 1).val < win1_2.index ⟨(i 0).val / 10000, hlt⟩ (1 : Fin 2) * 128 + 128; rw [e4]; omega

/-- THE ARRAY call 1 leaves: the whole stage. -/
theorem arrb1 (c : Dev nD) : (dat1 V c).arrAt 2 cfg1.N = Cert.Spec.biasPos (F := Ideal) (V c main_v44) (V c main_arg3) :=
  (dat1 V c).arrAt_eq_of_cover 2 _ (fun t _ => flushedb1_eq V c t) (coverb1)

end Cert.KernelIdeal.Hand

end
-- ==== Proof.IdealArr2.lean ====
/- The array the second matrix-product call leaves: its ten blocks of rows are the rows of the whole product of the first
   layer's output and the second weight matrix, at the exact extended reals. -/
import proofs.«125812_j16904991277430_1_alg».proof.Proof.IdealRegion2
import proofs.«125812_j16904991277430_1_alg».proof.Proof.IdealRegion4
import proofs.«125812_j16904991277430_1_alg».proof.Proof.LibMatrixProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.MatrixProduct

variable (V : (c : Dev nD) → (b : Ref sig .tc) → Buf (Elt Ideal) ((c : Thread nD τ).loc b))

/-! ## Call 2: the blocks of rows of the product are the rows of the whole product -/

/-- The index maps over the grid: the row-block windows sit at block row `t`, the weight window at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value is the product of its two blocks. -/
theorem pay2_eq (x0 : Vec Ideal S10000x128 .f32) (x1 : Vec Ideal S128x128 .f32) : k2_pay1 x0 x1 = mm x0 x1 := by
  unfold k2_pay1
  rw [shapeCast_self]
  exact matmul_zero_eq_mm dot_S10000x128_S128x128_S10000x128_1_0_0_1_n_n_wf none x0 x1

/-- What point `t` writes back is block `t` of the whole product. -/
theorem flushed2_eq (c : Dev nD) (t : Fin cfg2.N) :
    (dat2 V c).flushed 2 t = ((cfg2.win 2).blk t).view.read (Elt Ideal)
      (mm (V c main_v45 : S100000x128.Idx → EReal) (V c main_arg4 : S128x128.Idx → EReal)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  rw [pay2_eq]
  obtain ⟨e0, e1, e2, e3, e4, e5⟩ := idx2 t
  funext j
  show mm (iblk2 V c 0 t) (iblk2 V c 1 t) j = mm (V c main_v45 : S100000x128.Idx → EReal) (V c main_arg4 : S128x128.Idx → EReal) (((cfg2.win 2).blk t).view.emb j)
  refine mm_of_row_col _ _ _ _ j _ (fun k => ?_) (fun k => ?_)
  · show V c main_v45 (((cfg2.win 0).blk t).view.emb (ix2 (j 0) k)) = V c main_v45 (ix2 ((((cfg2.win 2).blk t).view.emb j) 0) k)
    congr 1
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg4 (((cfg2.win 1).blk t).view.emb (ix2 k (j 1))) = V c main_arg4 (ix2 k ((((cfg2.win 2).blk t).view.emb j) 1))
    congr 1
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- Every row of the output is in some point's block: the ten blocks of 10000 rows tile the 100000. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 10000 < cfg2.N := by rw [show cfg2.N = 10 from N_2]; omega
  obtain ⟨e0, e1, e2, e3, e4, e5⟩ := idx2 ⟨(i 0).val / 10000, hlt⟩
  refine ⟨⟨(i 0).val / 10000, hlt⟩, flush2_2 _, ?_⟩
  rw [mem_blk2]
  intro a
  match a with
  | ⟨0, _⟩ => show win2_2.index ⟨(i 0).val / 10000, hlt⟩ (0 : Fin 2) * 10000 ≤ (i 0).val ∧ (i 0).val < win2_2.index ⟨(i 0).val / 10000, hlt⟩ (0 : Fin 2) * 10000 + 10000; rw [e4]; dsimp only; omega
  | ⟨1, _⟩ => show win2_2.index ⟨(i 0).val / 10000, hlt⟩ (1 : Fin 2) * 128 ≤ (i 1).val ∧ (i 1).val < win2_2.index ⟨(i 0).val / 10000, hlt⟩ (1 : Fin 2) * 128 + 128; rw [e5]; omega

/-- THE ARRAY call 2 leaves: the whole product. -/
theorem arr2 (c : Dev nD) : (dat2 V c).arrAt 2 cfg2.N = mm (V c main_v45 : S100000x128.Idx → EReal) (V c main_arg4 : S128x128.Idx → EReal) :=
  (dat2 V c).arrAt_eq_of_cover 2 _ (fun t _ => flushed2_eq V c t) (cover2)

end Cert.KernelIdeal.Hand

end
-- ==== Proof.IdealArr3.lean ====
/- The array the second bias-and-positive-part call leaves: its ten blocks of rows are the rows of the whole stage applied to
   the aggregated rows and the bias, at the exact extended reals. -/
import proofs.«125812_j16904991277430_1_alg».proof.Proof.IdealRegion3
import proofs.«125812_j16904991277430_1_alg».proof.Proof.IdealRegion4
import proofs.«125812_j16904991277430_1_alg».proof.Proof.Spec2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Call 3: the blocks of rows of the output are the rows of the whole bias-and-positive-part stage -/

theorem idxb3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The body's value at entry (p, a): the larger of the block's entry plus the bias entry, and zero. -/
theorem payb3_at (x0 : Vec Ideal S10000x128 .f32) (x1 : Vec Ideal S128 .f32) (p : Fin 10000) (a : Fin 128) :
    k3_pay1 x0 x1 (ix2 p a) = max (x0 (ix2 p a) + x1 (ix1 a)) (Ideal.ofBits .f32 0x00000000#32) := by
  unfold k3_pay1
  show max (shapeCast S10000x128 x0 shapeCasts_S10000x128_S10000x128 (ix2 p a)
      + broadcastTo S10000x128 (shapeCast S1x128 x1 shapeCasts_S128_S1x128) broadcasts_S1x128_S10000x128 (ix2 p a)) _ = _
  rw [shapeCast_self, broadcastTo_1b_ab_apply, shapeCast_a_1a_apply]
  rfl

/-- What point `t` writes back is block `t` of the whole stage. -/
theorem flushedb3_eq (c : Dev nD) (t : Fin cfg3.N) :
    (dat3 V c).flushed 2 t = ((cfg3.win 2).blk t).view.read (Elt Ideal)
      (Cert.Spec.biasPos (F := Ideal) (V c main_v79) (V c main_arg5)) := by
  show (cfg3.win 2).cut (grid3.coords t) ((dat3 V c).after 2 t) = _
  rw [after3_2]
  unfold out3_2
  rw [View.canon_unit_zero hz2]
  simp only [View.ld_unit_zero (S := S10000x128) hz2, View.ld_unit_zero (S := S128) hz1]
  obtain ⟨e0, e1, e2, e3, e4⟩ := idxb3 t
  have hN : t.val < 10 := lt_of_lt_of_eq t.isLt (show cfg3.N = 10 from N_3)
  funext j
  obtain ⟨p, a, rfl⟩ : ∃ (p : Fin 10000) (a : Fin 128), j = ix2 p a := ⟨j 0, j 1, eq_ix2 j⟩
  have hr : 10000 * t.val + p.val < 100000 := by have := p.isLt; omega
  have hemb : ((cfg3.win 2).blk t).view.emb (ix2 p a) = (ix2 (⟨10000 * t.val + p.val, hr⟩ : Fin 100000) a : S100000x128.Idx) := by
    funext ax; apply Fin.ext
    match ax with
    | ⟨0, _⟩ => show win3_2.index t (0 : Fin 2) * 10000 + 1 * p.val = 10000 * t.val + p.val; omega
    | ⟨1, _⟩ => show win3_2.index t (1 : Fin 2) * 128 + 1 * a.val = a.val; omega
  have h0 : iblk3 V c 0 t (ix2 p a) = V c main_v79 (ix2 (⟨10000 * t.val + p.val, hr⟩ : Fin 100000) a : S100000x128.Idx) := by
    show V c main_v79 (((cfg3.win 0).blk t).view.emb (ix2 p a)) = _
    refine congrArg (V c main_v79) ?_
    funext ax; apply Fin.ext
    match ax with
    | ⟨0, _⟩ => show win3_0.index t (0 : Fin 2) * 10000 + 1 * p.val = 10000 * t.val + p.val; omega
    | ⟨1, _⟩ => show win3_0.index t (1 : Fin 2) * 128 + 1 * a.val = a.val; omega
  have h1 : iblk3 V c 1 t (ix1 a) = V c main_arg5 (ix1 a : S128.Idx) := by
    show V c main_arg5 (((cfg3.win 1).blk t).view.emb (ix1 a)) = _
    refine congrArg (V c main_arg5) ?_
    funext ax; apply Fin.ext
    match ax with
    | ⟨0, _⟩ => show win3_1.index t (0 : Fin 1) * 128 + 1 * a.val = a.val; omega
  show k3_pay1 (iblk3 V c 0 t) (iblk3 V c 1 t) (ix2 p a) = Cert.Spec.biasPos (F := Ideal) (V c main_v79) (V c main_arg5) (((cfg3.win 2).blk t).view.emb (ix2 p a))
  rw [payb3_at, hemb, Cert.Spec.biasPos_apply, h0, h1]

theorem mem_blkb3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v80).slice (win3_2.rect t)).set ↔ _
  rw [View.set_slice_whole, Rect.mem_set_unit]
  exact Iff.rfl

theorem coverb3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 10000 < cfg3.N := by rw [show cfg3.N = 10 from N_3]; omega
  obtain ⟨e0, e1, e2, e3, e4⟩ := idxb3 ⟨(i 0).val / 10000, hlt⟩
  refine ⟨⟨(i 0).val / 10000, hlt⟩, flush3_2 _, ?_⟩
  rw [mem_blkb3]
  intro a
  match a with
  | ⟨0, _⟩ => show win3_2.index ⟨(i 0).val / 10000, hlt⟩ (0 : Fin 2) * 10000 ≤ (i 0).val ∧ (i 0).val < win3_2.index ⟨(i 0).val / 10000, hlt⟩ (0 : Fin 2) * 10000 + 10000; rw [e3]; dsimp only; omega
  | ⟨1, _⟩ => show win3_2.index ⟨(i 0).val / 10000, hlt⟩ (1 : Fin 2) * 128 ≤ (i 1).val ∧ (i 1).val < win3_2.index ⟨(i 0).val / 10000, hlt⟩ (1 : Fin 2) * 128 + 128; rw [e4]; omega

/-- THE ARRAY call 3 leaves: the whole stage. -/
theorem arrb3 (c : Dev nD) : (dat3 V c).arrAt 2 cfg3.N = Cert.Spec.biasPos (F := Ideal) (V c main_v79) (V c main_arg5) :=
  (dat3 V c).arrAt_eq_of_cover 2 _ (fun t _ => flushedb3_eq V c t) (coverb3)

end Cert.KernelIdeal.Hand

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.LibIndexSums.lean ====
/-
  A sum over a rank-1 index set.

  A rank-1 index is its one coordinate, so a sum over the index set of an [n] array is the sum over `Fin n` of the
  summand at the index built from the coordinate. (The rank-2 companion is the library's `sum_idx2`.)
-/
import Idealize.ShloMosaic.Lib.ValueIdx

namespace Idealize.ShloMosaic.ValueIdx

open Idealize.ShloMosaic

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.IdealStatsBlock.lean ====
/-
  One block of rows in the column statistics.

  The statistics stage reads three [10000,128] blocks side by side as a [10000,384] block and adds, to a running
  length-384 vector, the block's column sums (and, for the second total, the column sums of the squared entries). When
  the three blocks are rows ρ(p) of three [100000,128] arrays, the side-by-side block at (p, k) is the side-by-side array
  at (ρ(p), k): both read piece 0 for k < 128, piece 1 for 128 ≤ k < 256 and piece 2 otherwise, at the same column of the
  piece. So one step adds Σ_p cat(ρ(p), k) (respectively Σ_p cat(ρ(p), k)²) to entry k.

  A sum over 100000 rows is the sum over ten blocks of 10000 rows (row r = 10000·t + p), and a running total that starts
  at 0 + g(0) and adds g(n+1) at step n+1 is, after step 9, the sum of g over the ten blocks.
-/
import proofs.«125812_j16904991277430_1_alg».proof.Proof.Gen.KernelIdeal.Skeleton
import proofs.«125812_j16904991277430_1_alg».proof.Proof.Spec
import proofs.«125812_j16904991277430_1_alg».proof.Proof.LibConcatRead
import proofs.«125812_j16904991277430_1_alg».proof.Proof.LibColumnSum
import proofs.«125812_j16904991277430_1_alg».proof.Proof.LibIndexSums
import proofs.«125812_j16904991277430_1_alg».proof.Proof.LibERealSums
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Cert.Spec Idealize.ShloMosaic Idealize.ShloMosaic.ValueIdx

/-! ## The side-by-side block is the side-by-side array at the mapped row -/

/-- The three blocks side by side at (p, k) are the three arrays side by side at (ρ p, k). -/
theorem pay3_at (ρ : Fin 10000 → Fin 100000) (x0 x1 x2 : Vec Ideal S10000x128 .f32) (X0 X1 X2 : S100000x128.Idx → EReal)
    (hx0 : ∀ (p : Fin 10000) (k : Fin 128), x0 (ix2 p k) = X0 (ix2 (ρ p) k))
    (hx1 : ∀ (p : Fin 10000) (k : Fin 128), x1 (ix2 p k) = X1 (ix2 (ρ p) k))
    (hx2 : ∀ (p : Fin 10000) (k : Fin 128), x2 (ix2 p k) = X2 (ix2 (ρ p) k)) (p : Fin 10000) (k : Fin 384) :
    k4_pay3 (F := Ideal) x0 x1 x2 (ix2 p k) = catOf (F := Ideal) X0 X1 X2 (ix2 (ρ p) k) := by
  unfold k4_pay3 catOf
  simp only [shapeCast_self]
  by_cases h1 : k.val < 128
  · rw [concat3_cols_first x0 x1 x2 _ p ⟨k.val, h1⟩ k rfl, concat3_cols_first X0 X1 X2 _ (ρ p) ⟨k.val, h1⟩ k rfl]
    exact hx0 p _
  · by_cases h2 : k.val < 256
    · have hk : k.val = 128 + (k.val - 128) := by omega
      rw [concat3_cols_second x0 x1 x2 _ p ⟨k.val - 128, by omega⟩ k hk,
        concat3_cols_second X0 X1 X2 _ (ρ p) ⟨k.val - 128, by omega⟩ k hk]
      exact hx1 p _
    · have hk : k.val = 128 + 128 + (k.val - 256) := by have := k.isLt; omega
      rw [concat3_cols_third x0 x1 x2 _ p ⟨k.val - 256, by have := k.isLt; omega⟩ k hk,
        concat3_cols_third X0 X1 X2 _ (ρ p) ⟨k.val - 256, by have := k.isLt; omega⟩ k hk]
      exact hx2 p _

/-! ## One step of the two running totals -/

/-- One step of the first total at column k: the old entry plus the sum over the block's rows of the side-by-side array
    at the mapped rows. -/
theorem pay4_at (ρ : Fin 10000 → Fin 100000) (x0 x1 x2 : Vec Ideal S10000x128 .f32) (X0 X1 X2 : S100000x128.Idx → EReal)
    (hx0 : ∀ (p : Fin 10000) (k : Fin 128), x0 (ix2 p k) = X0 (ix2 (ρ p) k))
    (hx1 : ∀ (p : Fin 10000) (k : Fin 128), x1 (ix2 p k) = X1 (ix2 (ρ p) k))
    (hx2 : ∀ (p : Fin 10000) (k : Fin 128), x2 (ix2 p k) = X2 (ix2 (ρ p) k)) (s : Vec Ideal S384 .f32) (k : Fin 384) :
    k4_pay4 (F := Ideal) x0 x1 x2 s (ix1 k) = s (ix1 k) + ∑ p : Fin 10000, catOf (F := Ideal) X0 X1 X2 (ix2 (ρ p) k) := by
  unfold k4_pay4
  simp only [shapeCast_self]
  rw [addf_apply]
  refine congrArg (s (ix1 k) + ·) ?_
  refine (multiReduction_add_cols_apply (a := 10000) (b := 384) (k4_pay3 (F := Ideal) x0 x1 x2) _
    reduces_S10000x384_S384 _ _ k).trans ?_
  exact Finset.sum_congr rfl fun p _ => pay3_at ρ x0 x1 x2 X0 X1 X2 hx0 hx1 hx2 p k

/-- One step of the second total at column k: the old entry plus the sum over the block's rows of the squared entries of
    the side-by-side array at the mapped rows. -/
theorem pay5_at_sq (ρ : Fin 10000 → Fin 100000) (x0 x1 x2 : Vec Ideal S10000x128 .f32) (X0 X1 X2 : S100000x128.Idx → EReal)
    (hx0 : ∀ (p : Fin 10000) (k : Fin 128), x0 (ix2 p k) = X0 (ix2 (ρ p) k))
    (hx1 : ∀ (p : Fin 10000) (k : Fin 128), x1 (ix2 p k) = X1 (ix2 (ρ p) k))
    (hx2 : ∀ (p : Fin 10000) (k : Fin 128), x2 (ix2 p k) = X2 (ix2 (ρ p) k)) (q : Vec Ideal S384 .f32) (k : Fin 384) :
    k4_pay5 (F := Ideal) x0 x1 x2 q (ix1 k)
      = q (ix1 k) + ∑ p : Fin 10000, catOf (F := Ideal) X0 X1 X2 (ix2 (ρ p) k) * catOf (F := Ideal) X0 X1 X2 (ix2 (ρ p) k) := by
  unfold k4_pay5
  simp only [shapeCast_self]
  rw [addf_apply]
  refine congrArg (q (ix1 k) + ·) ?_
  refine (multiReduction_add_cols_apply (a := 10000) (b := 384)
    (mulf (k4_pay3 (F := Ideal) x0 x1 x2) (k4_pay3 (F := Ideal) x0 x1 x2)) _ reduces_S10000x384_S384 _ _ k).trans ?_
  refine Finset.sum_congr rfl fun p _ => ?_
  rw [mulf_apply, pay3_at ρ x0 x1 x2 X0 X1 X2 hx0 hx1 hx2 p k]

/-! ## The two totals start at zero -/

/-- The first total's initial vector is zero. -/
theorem pay1_zero (k : Fin 384) : k4_pay1 (F := Ideal) (ix1 k) = 0 := by
  unfold k4_pay1
  simp only [shapeCast_self]
  exact Ideal.ofBits_zero_f32

/-- The second total's initial vector is zero. -/
theorem pay2_zero (k : Fin 384) : k4_pay2 (F := Ideal) (ix1 k) = 0 := by
  unfold k4_pay2
  simp only [shapeCast_self]
  exact Ideal.ofBits_zero_f32

/-! ## Ten blocks of 10000 rows -/

/-- Row r = 10000·t + p of 100000 rows, as (block t, row p within the block). -/
def blockEquiv : Fin 10 × Fin 10000 ≃ Fin 100000 where
  toFun x := ⟨10000 * x.1.val + x.2.val, by have := x.1.isLt; have := x.2.isLt; omega⟩
  invFun r := (⟨r.val / 10000, by have := r.isLt; omega⟩, ⟨r.val % 10000, by omega⟩)
  left_inv := fun ⟨t, p⟩ => by
    have := t.isLt; have := p.isLt
    refine Prod.ext (Fin.ext ?_) (Fin.ext ?_)
    · show (10000 * t.val + p.val) / 10000 = t.val; omega
    · show (10000 * t.val + p.val) % 10000 = p.val; omega
  right_inv := fun r => Fin.ext (by show 10000 * (r.val / 10000) + r.val % 10000 = r.val; omega)

/-- A sum over 100000 rows is the sum over the ten blocks of the sums over each block's 10000 rows. -/
theorem sum_ten_blocks (f : Fin 100000 → EReal) :
    ∑ r : Fin 100000, f r
      = ∑ t : Fin 10, ∑ p : Fin 10000, f ⟨10000 * t.val + p.val, by have := t.isLt; have := p.isLt; omega⟩ := by
  rw [← Equiv.sum_comp blockEquiv f, Fintype.sum_prod_type]
  rfl

/-- A running total over the blocks: after step n it is the sum of the first n + 1 terms. -/
theorem fold_upto (g : Fin 10 → EReal) (acc : (n : ℕ) → n < 10 → EReal) (h0 : acc 0 (by omega) = 0 + g 0)
    (hs : ∀ (n : ℕ) (h : n + 1 < 10), acc (n + 1) h = acc n (by omega) + g ⟨n + 1, h⟩) :
    ∀ (n : ℕ) (h : n < 10), acc n h = ∑ t : Fin (n + 1), g ⟨t.val, by have := t.isLt; omega⟩ := by
  intro n
  induction n with
  | zero =>
    intro h
    rw [h0, zero_add, Fin.sum_univ_one]
    rfl
  | succ n ih =>
    intro h
    rw [hs n h, ih (by omega), Fin.sum_univ_castSucc (n := n + 1)]
    rfl

/-- After the tenth step the running total is the sum over the ten blocks. -/
theorem fold_ten (g : Fin 10 → EReal) (acc : (n : ℕ) → n < 10 → EReal) (h0 : acc 0 (by omega) = 0 + g 0)
    (hs : ∀ (n : ℕ) (h : n + 1 < 10), acc (n + 1) h = acc n (by omega) + g ⟨n + 1, h⟩) :
    acc 9 (by omega) = ∑ t : Fin 10, g t :=
  fold_upto g acc h0 hs 9 (by omega)

end Cert.KernelIdeal.Hand

end
-- ==== Proof.Variance.lean ====
/-
  The two forms of the inverse standard deviation agree on real entries.

  For a column of n = 100000 real numbers a_r with mean m = (Σ a_r)/n, the mean of the squared deviations equals the mean
  of the squares minus the squared mean:  (Σ (a_r − m)²)/n = (Σ a_r²)/n − m²,  because Σ (a_r − m)² = Σ a_r² − 2m Σ a_r + n m²
  and Σ a_r = n m. The left side is a mean of squares, hence nonnegative, so clamping the right side at zero changes
  nothing. Both forms then add the same small constant and take the same inverse root. All sums here are exact sums of
  extended reals that are images of reals, so each is the image of the real sum.
-/
import proofs.«125812_j16904991277430_1_alg».proof.Proof.Spec
import proofs.«125812_j16904991277430_1_alg».proof.Proof.LibERealSums
import Idealize.ShloMosaic.Lib.ValueIdx
import Idealize.ShloMosaic.PureOps.Ideal.Laws

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The float word of 100000.0 denotes the real number 100000. -/
theorem ofBits_100000 : Ideal.ofBits .f32 0x47C35000#32 = ((100000 : ℝ) : EReal) := by
  simp [Ideal.ofBits, Ideal.ieee, -EReal.coe_mul]; norm_num

/-- The column sums read at column k: the sum of the column's entries (the initial word is zero). -/
theorem sumCols_apply (xc : (⟨S100000x384, .f32⟩ : BufTy).Contents (Elt Ideal)) (k : Fin 384) :
    sumCols (F := Ideal) xc (ix1 k) = ∑ r : Fin 100000, xc (ix2 r k) := by
  unfold sumCols
  simp only [Host.reduceAdd, Ideal.hostReduceAdd_def]
  rw [Ideal.hostReduceAdd_single reducesTo_S100000x384_S384_d0 (by decide)]
  rw [constant_apply, Ideal.ofBits_zero_f32, zero_add]
  refine Finset.sum_congr rfl fun r _ => ?_
  exact congrArg xc (funext fun a => Fin.ext (by match a with | ⟨0, _⟩ => rfl | ⟨1, _⟩ => rfl))

/-- A vector of totals divided by the number of rows, read at k: the total times 1/100000. -/
theorem muOf_apply (S : (⟨S384, .f32⟩ : BufTy).Contents (Elt Ideal)) (i : S384.Idx) :
    muOf (F := Ideal) S i = S i * (((1 / 100000 : ℝ)) : EReal) := by
  unfold muOf
  show Ideal.div (S i) (broadcastInDim S384 ![] bcast_S_S384 (constant (F := Ideal) S_ .f32 0x47C35000#32) i) = _
  rw [broadcastInDim_apply _ bcast_S_S384 _ i ix0 (fun a => a.elim0), constant_apply, ofBits_100000]
  exact Ideal.div_coe (by norm_num) _

/-- A length-384 vector repeated down the rows, read at (r, k): the vector's entry k. -/
theorem rowsOf_apply (v : (⟨S384, .f32⟩ : BufTy).Contents (Elt Ideal)) (r : Fin 100000) (k : Fin 384) :
    rowsOf (F := Ideal) v (ix2 r k) = v (ix1 k) := by
  unfold rowsOf
  rw [broadcastInDim_apply _ bcast_S1x384_S100000x384_0_1 _ (ix2 r k) (ix2 (0 : Fin 1) k) (fun a => match a with
    | ⟨0, _⟩ => by show 0 = if (1 : Nat) = 1 then 0 else _; rw [if_pos rfl]
    | ⟨1, _⟩ => by show k.val = if (384 : Nat) = 1 then 0 else k.val; rw [if_neg (by decide)])]
  rw [broadcastInDim_apply _ bcast_S384_S1x384_1 _ (ix2 (0 : Fin 1) k) (ix1 k) (fun a => match a with
    | ⟨0, _⟩ => by show k.val = if (384 : Nat) = 1 then 0 else k.val; rw [if_neg (by decide)])]

/-- The zero vector read at an index. -/
theorem zeroRow_apply (i : S384.Idx) : zeroRow (F := Ideal) i = 0 := by
  unfold zeroRow
  rw [broadcastInDim_apply _ bcast_S_S384 _ i ix0 (fun a => a.elim0), constant_apply, Ideal.ofBits_zero_f32]

/-- For real numbers a_r (r < n = 100000) with mean m = (Σ a_r)/n: (Σ (a_r − m)²)/n = (Σ a_r²)/n − m². -/
theorem mean_sq_dev (a : Fin 100000 → ℝ) :
    (∑ r, (a r - (∑ r, a r) * (1 / 100000)) * (a r - (∑ r, a r) * (1 / 100000))) * (1 / 100000)
      = (∑ r, a r * a r) * (1 / 100000) - ((∑ r, a r) * (1 / 100000)) * ((∑ r, a r) * (1 / 100000)) := by
  have h1 : ∀ r, (a r - (∑ r, a r) * (1 / 100000)) * (a r - (∑ r, a r) * (1 / 100000))
      = a r * a r - 2 * ((∑ r, a r) * (1 / 100000)) * a r + ((∑ r, a r) * (1 / 100000)) * ((∑ r, a r) * (1 / 100000)) :=
    fun r => by ring
  simp_rw [h1]
  rw [Finset.sum_add_distrib, Finset.sum_sub_distrib, ← Finset.mul_sum, Finset.sum_const, Finset.card_univ,
    Fintype.card_fin, nsmul_eq_mul]
  push_cast
  ring

theorem invstd_eq (xc : (⟨S100000x384, .f32⟩ : BufTy).Contents (Elt Ideal)) (hxc : ∀ i, ∃ r : ℝ, xc i = (r : EReal)) :
    invstdK (F := Ideal) (sumCols (F := Ideal) xc) (sumCols (F := Ideal) (mulf (F := Ideal) (s := S100000x384) (φ := .f32) xc xc))
      = invstdR (F := Ideal) xc := by
  unfold invstdK invstdR
  -- both sides are the inverse root of (something + ε): compare the somethings, column by column
  refine congrArg Host.rsqrt (congrArg (fun v : FVec Ideal S384 .f32 => addf v (epsRow (F := Ideal))) ?_)
  funext i
  obtain ⟨k, rfl⟩ : ∃ k : Fin 384, i = ix1 k := ⟨i 0, eq_ix1 i⟩
  -- the real numbers a_r in column k
  choose a ha using fun r : Fin 100000 => hxc (ix2 r k)
  simp only [maximumf_apply, subf_apply, mulf_apply, muOf_apply, sumCols_apply, rowsOf_apply, zeroRow_apply, ha]
  -- every sum is the image of the real sum
  have hS : (∑ r, ((a r : ℝ) : EReal)) = ((∑ r, a r : ℝ) : EReal) := (Cert.Attn.coe_sum_univ a).symm
  have hQ : (∑ r, ((a r : ℝ) : EReal) * ((a r : ℝ) : EReal)) = ((∑ r, a r * a r : ℝ) : EReal) :=
    Cert.Attn.sum_coe_mul_coe a a
  rw [hQ, hS]
  simp only [← EReal.coe_mul, ← EReal.coe_sub]
  rw [← Cert.Attn.coe_sum_univ, ← EReal.coe_mul, mean_sq_dev]
  -- the mean of squares minus the squared mean is a mean of squares, hence nonnegative: the clamp is the identity
  have hnn : 0 ≤ (∑ r, a r * a r) * (1 / 100000) - ((∑ r, a r) * (1 / 100000)) * ((∑ r, a r) * (1 / 100000)) := by
    rw [← mean_sq_dev a]
    exact mul_nonneg (Finset.sum_nonneg fun r _ => mul_self_nonneg _) (by norm_num)
  exact max_eq_left (EReal.coe_nonneg.mpr hnn)

end Cert.Spec

end
-- ==== Proof.IdealArr4.lean ====
/-
  The two arrays the column-statistics call leaves.

  The call runs over ten blocks of 10000 rows. Block t of each of the three [100000,128] inputs is rows 10000·t + p of the
  array, so one step adds to each carried row, at column k, the sum over p of the side-by-side array's entry (respectively
  its square) at row 10000·t + p. The carried rows start at zero, so after the tenth step entry k of the first is
  Σ_t Σ_p xc(10000·t + p, k) = Σ_r xc(r, k), the column sum, and entry k of the second the column sum of the squares. Only the
  last point writes the carried rows back, and there the output's block is the whole length-384 array.
-/
import proofs.«125812_j16904991277430_1_alg».proof.Proof.IdealRegion4
import proofs.«125812_j16904991277430_1_alg».proof.Proof.IdealStatsBlock
import proofs.«125812_j16904991277430_1_alg».proof.Proof.Spec
import proofs.«125812_j16904991277430_1_alg».proof.Proof.Variance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The blocks are rows 10000·t + p of the arrays -/

theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0 ∧ win4_4.index t (0 : Fin 1) = 0 :=
  (by decide +kernel : ∀ t : Fin grid4.N, _)

/-- Row 10000·t + p of 100000 rows. -/
abbrev rowOf (t : Fin cfg4.N) (p : Fin 10000) : Fin 100000 :=
  ⟨10000 * t.val + p.val, by have := lt_of_lt_of_eq t.isLt (show cfg4.N = 10 from N_4); have := p.isLt; omega⟩

theorem iblk4_0_at (c : Dev nD) (t : Fin cfg4.N) (p : Fin 10000) (k : Fin 128) :
    iblk4 V c 0 t (ix2 p k) = V c main_arg0 (ix2 (rowOf t p) k : S100000x128.Idx) := by
  obtain ⟨e0, e1, e2, e3, e4, e5, e6, e7⟩ := idx4 t
  show V c main_arg0 (((cfg4.win 0).blk t).view.emb (ix2 p k)) = _
  refine congrArg (V c main_arg0) ?_
  funext ax; apply Fin.ext
  match ax with
  | ⟨0, _⟩ => show win4_0.index t (0 : Fin 2) * 10000 + 1 * p.val = 10000 * t.val + p.val; omega
  | ⟨1, _⟩ => show win4_0.index t (1 : Fin 2) * 128 + 1 * k.val = k.val; omega

theorem iblk4_1_at (c : Dev nD) (t : Fin cfg4.N) (p : Fin 10000) (k : Fin 128) :
    iblk4 V c 1 t (ix2 p k) = V c main_v45 (ix2 (rowOf t p) k : S100000x128.Idx) := by
  obtain ⟨e0, e1, e2, e3, e4, e5, e6, e7⟩ := idx4 t
  show V c main_v45 (((cfg4.win 1).blk t).view.emb (ix2 p k)) = _
  refine congrArg (V c main_v45) ?_
  funext ax; apply Fin.ext
  match ax with
  | ⟨0, _⟩ => show win4_1.index t (0 : Fin 2) * 10000 + 1 * p.val = 10000 * t.val + p.val; omega
  | ⟨1, _⟩ => show win4_1.index t (1 : Fin 2) * 128 + 1 * k.val = k.val; omega

theorem iblk4_2_at (c : Dev nD) (t : Fin cfg4.N) (p : Fin 10000) (k : Fin 128) :
    iblk4 V c 2 t (ix2 p k) = V c main_v80 (ix2 (rowOf t p) k : S100000x128.Idx) := by
  obtain ⟨e0, e1, e2, e3, e4, e5, e6, e7⟩ := idx4 t
  show V c main_v80 (((cfg4.win 2).blk t).view.emb (ix2 p k)) = _
  refine congrArg (V c main_v80) ?_
  funext ax; apply Fin.ext
  match ax with
  | ⟨0, _⟩ => show win4_2.index t (0 : Fin 2) * 10000 + 1 * p.val = 10000 * t.val + p.val; omega
  | ⟨1, _⟩ => show win4_2.index t (1 : Fin 2) * 128 + 1 * k.val = k.val; omega

/-! ## One step, at the blocks of point t -/

/-- The three [100000,128] arrays side by side. -/
abbrev xc4 (c : Dev nD) : (⟨Cert.ReferenceIdeal.S100000x384, .f32⟩ : BufTy).Contents (Elt Ideal) :=
  Cert.Spec.catOf (F := Ideal) (V c main_arg0) (V c main_v45) (V c main_v80)

/-- One step of the first carried row at point t, column k: it adds the side-by-side array's entries at rows 10000·t + p. -/
theorem stepS_at (c : Dev nD) (t : Fin cfg4.N) (s : Vec Ideal S384 .f32) (k : Fin 384) :
    stepS (iblk4 V c 0 t) (iblk4 V c 1 t) (iblk4 V c 2 t) s (ix1 k)
      = s (ix1 k) + ∑ p : Fin 10000, xc4 V c (ix2 (rowOf t p) k) := by
  unfold stepS
  exact pay4_at (rowOf t) _ _ _ (V c main_arg0) (V c main_v45) (V c main_v80)
    (iblk4_0_at V c t) (iblk4_1_at V c t) (iblk4_2_at V c t) s k

/-- One step of the second carried row at point t, column k: it adds the squares of those entries. -/
theorem stepQ_at (c : Dev nD) (t : Fin cfg4.N) (q : Vec Ideal S384 .f32) (k : Fin 384) :
    stepQ (iblk4 V c 0 t) (iblk4 V c 1 t) (iblk4 V c 2 t) q (ix1 k)
      = q (ix1 k) + ∑ p : Fin 10000, xc4 V c (ix2 (rowOf t p) k) * xc4 V c (ix2 (rowOf t p) k) := by
  unfold stepQ
  exact pay5_at_sq (rowOf t) _ _ _ (V c main_arg0) (V c main_v45) (V c main_v80)
    (iblk4_0_at V c t) (iblk4_1_at V c t) (iblk4_2_at V c t) q k

/-! ## The carried rows after the last point are the column sums -/

theorem accS_closed (c : Dev nD) (k : Fin 384) (h9 : 9 < cfg4.N) :
    (accAt V c 9 h9).1 (ix1 k) = Cert.Spec.sumCols (F := Ideal) (xc4 V c) (ix1 k) := by
  have hN : cfg4.N = 10 := N_4
  rw [Cert.Spec.sumCols_apply, sum_ten_blocks]
  exact fold_ten
    (fun t => ∑ p : Fin 10000, xc4 V c (ix2 (⟨10000 * t.val + p.val, by have := t.isLt; have := p.isLt; omega⟩ : Fin 100000) k))
    (fun n h => (accAt V c n (by omega)).1 (ix1 k))
    (by
      show stepS (iblk4 V c 0 ⟨0, _⟩) (iblk4 V c 1 ⟨0, _⟩) (iblk4 V c 2 ⟨0, _⟩) (k4_pay1 (F := Ideal)) (ix1 k) = _
      rw [stepS_at, pay1_zero]
      rfl)
    (fun n h => by
      show stepS (iblk4 V c 0 ⟨n + 1, _⟩) (iblk4 V c 1 ⟨n + 1, _⟩) (iblk4 V c 2 ⟨n + 1, _⟩) (accAt V c n _).1 (ix1 k) = _
      rw [stepS_at])

theorem accQ_closed (c : Dev nD) (k : Fin 384) (h9 : 9 < cfg4.N) :
    (accAt V c 9 h9).2 (ix1 k)
      = Cert.Spec.sumCols (F := Ideal) (mulf (F := Ideal) (s := Cert.ReferenceIdeal.S100000x384) (φ := .f32) (xc4 V c) (xc4 V c)) (ix1 k) := by
  have hN : cfg4.N = 10 := N_4
  rw [Cert.Spec.sumCols_apply, sum_ten_blocks]
  simp only [mulf_apply]
  exact fold_ten
    (fun t => ∑ p : Fin 10000, xc4 V c (ix2 (⟨10000 * t.val + p.val, by have := t.isLt; have := p.isLt; omega⟩ : Fin 100000) k)
      * xc4 V c (ix2 (⟨10000 * t.val + p.val, by have := t.isLt; have := p.isLt; omega⟩ : Fin 100000) k))
    (fun n h => (accAt V c n (by omega)).2 (ix1 k))
    (by
      show stepQ (iblk4 V c 0 ⟨0, _⟩) (iblk4 V c 1 ⟨0, _⟩) (iblk4 V c 2 ⟨0, _⟩) (k4_pay2 (F := Ideal)) (ix1 k) = _
      rw [stepQ_at, pay2_zero]
      rfl)
    (fun n h => by
      show stepQ (iblk4 V c 0 ⟨n + 1, _⟩) (iblk4 V c 1 ⟨n + 1, _⟩) (iblk4 V c 2 ⟨n + 1, _⟩) (accAt V c n _).2 (ix1 k) = _
      rw [stepQ_at])

/-! ## What the last point writes back, and the arrays the call leaves -/

/-- An output's block at any point is the whole length-384 array. -/
theorem emb4_3 (t : Fin cfg4.N) (k : Fin 384) : ((cfg4.win 3).blk t).view.emb (ix1 k) = (ix1 k : S384.Idx) := by
  obtain ⟨e0, e1, e2, e3, e4, e5, e6, e7⟩ := idx4 t
  funext ax; apply Fin.ext
  match ax with
  | ⟨0, _⟩ => show win4_3.index t (0 : Fin 1) * 384 + 1 * k.val = k.val; omega

theorem emb4_4 (t : Fin cfg4.N) (k : Fin 384) : ((cfg4.win 4).blk t).view.emb (ix1 k) = (ix1 k : S384.Idx) := by
  obtain ⟨e0, e1, e2, e3, e4, e5, e6, e7⟩ := idx4 t
  funext ax; apply Fin.ext
  match ax with
  | ⟨0, _⟩ => show win4_4.index t (0 : Fin 1) * 384 + 1 * k.val = k.val; omega

/-- What a point that writes the first output back writes: the column sums. -/
theorem flushed4_3_eq (c : Dev nD) (t : Fin cfg4.N) (hf : (cfg4.win 3).flush t = true) :
    (dat4 V c).flushed 3 t = ((cfg4.win 3).blk t).view.read (Elt Ideal) (Cert.Spec.sumCols (F := Ideal) (xc4 V c)) := by
  have hN : t.val < 10 := lt_of_lt_of_eq t.isLt (show cfg4.N = 10 from N_4)
  have h9 : t.val = 9 := by have := (flush4_3 t).mp hf; omega
  show (cfg4.win 3).cut (grid4.coords t) ((dat4 V c).after 3 t) = _
  rw [after4_3]
  funext j
  obtain ⟨k, rfl⟩ : ∃ k : Fin 384, j = ix1 k := ⟨j 0, eq_ix1 j⟩
  show (accAt V c t.val t.isLt).1 (ix1 k) = Cert.Spec.sumCols (F := Ideal) (xc4 V c) (((cfg4.win 3).blk t).view.emb (ix1 k))
  rw [emb4_3]
  obtain ⟨n, hn⟩ := t
  obtain rfl : n = 9 := h9
  exact accS_closed V c k hn

/-- What a point that writes the second output back writes: the column sums of the squares. -/
theorem flushed4_4_eq (c : Dev nD) (t : Fin cfg4.N) (hf : (cfg4.win 4).flush t = true) :
    (dat4 V c).flushed 4 t = ((cfg4.win 4).blk t).view.read (Elt Ideal)
      (Cert.Spec.sumCols (F := Ideal) (mulf (F := Ideal) (s := Cert.ReferenceIdeal.S100000x384) (φ := .f32) (xc4 V c) (xc4 V c))) := by
  have hN : t.val < 10 := lt_of_lt_of_eq t.isLt (show cfg4.N = 10 from N_4)
  have h9 : t.val = 9 := by have := (flush4_4 t).mp hf; omega
  show (cfg4.win 4).cut (grid4.coords t) ((dat4 V c).after 4 t) = _
  rw [after4_4]
  funext j
  obtain ⟨k, rfl⟩ : ∃ k : Fin 384, j = ix1 k := ⟨j 0, eq_ix1 j⟩
  show (accAt V c t.val t.isLt).2 (ix1 k)
    = Cert.Spec.sumCols (F := Ideal) (mulf (F := Ideal) (s := Cert.ReferenceIdeal.S100000x384) (φ := .f32) (xc4 V c) (xc4 V c))
        (((cfg4.win 4).blk t).view.emb (ix1 k))
  rw [emb4_4]
  obtain ⟨n, hn⟩ := t
  obtain rfl : n = 9 := h9
  exact accQ_closed V c k hn

theorem mem_blk4_3 (t : Fin cfg4.N) (i : S384.Idx) :
    i ∈ ((cfg4.win 3).blk t).view.set ↔ ∀ a : Fin 1, win4_3.index t a * S384.size a ≤ (i a).val ∧ (i a).val < win4_3.index t a * S384.size a + S384.size a := by
  show i ∈ ((View.whole main_v81_0).slice (win4_3.rect t)).set ↔ _
  rw [View.set_slice_whole, Rect.mem_set_unit]
  exact Iff.rfl

theorem mem_blk4_4 (t : Fin cfg4.N) (i : S384.Idx) :
    i ∈ ((cfg4.win 4).blk t).view.set ↔ ∀ a : Fin 1, win4_4.index t a * S384.size a ≤ (i a).val ∧ (i a).val < win4_4.index t a * S384.size a + S384.size a := by
  show i ∈ ((View.whole main_v81_1).slice (win4_4.rect t)).set ↔ _
  rw [View.set_slice_whole, Rect.mem_set_unit]
  exact Iff.rfl

/-- The last point's block covers the whole first output. -/
theorem cover4_3 (i : S384.Idx) :
    ∃ t : Fin cfg4.N, (cfg4.win 3).flush t = true ∧ i ∈ ((cfg4.win 3).blk t).view.set := by
  have h9 : 9 < cfg4.N := by rw [show cfg4.N = 10 from N_4]; omega
  obtain ⟨e0, e1, e2, e3, e4, e5, e6, e7⟩ := idx4 ⟨9, h9⟩
  refine ⟨⟨9, h9⟩, (flush4_3 _).mpr (by show 9 % 10 = 9; rfl), ?_⟩
  rw [mem_blk4_3]
  intro a
  have hi0 : (i 0).val < 384 := (i 0).isLt
  match a with
  | ⟨0, _⟩ => show win4_3.index ⟨9, h9⟩ (0 : Fin 1) * 384 ≤ (i 0).val ∧ (i 0).val < win4_3.index ⟨9, h9⟩ (0 : Fin 1) * 384 + 384; rw [e6]; omega

/-- The last point's block covers the whole second output. -/
theorem cover4_4 (i : S384.Idx) :
    ∃ t : Fin cfg4.N, (cfg4.win 4).flush t = true ∧ i ∈ ((cfg4.win 4).blk t).view.set := by
  have h9 : 9 < cfg4.N := by rw [show cfg4.N = 10 from N_4]; omega
  obtain ⟨e0, e1, e2, e3, e4, e5, e6, e7⟩ := idx4 ⟨9, h9⟩
  refine ⟨⟨9, h9⟩, (flush4_4 _).mpr (by show 9 % 10 = 9; rfl), ?_⟩
  rw [mem_blk4_4]
  intro a
  have hi0 : (i 0).val < 384 := (i 0).isLt
  match a with
  | ⟨0, _⟩ => show win4_4.index ⟨9, h9⟩ (0 : Fin 1) * 384 ≤ (i 0).val ∧ (i 0).val < win4_4.index ⟨9, h9⟩ (0 : Fin 1) * 384 + 384; rw [e7]; omega

/-- THE FIRST ARRAY the call leaves: the column sums of the three arrays side by side. -/
theorem arr4_sum (c : Dev nD) :
    (dat4 V c).arrAt 3 cfg4.N
      = Cert.Spec.sumCols (F := Ideal) (Cert.Spec.catOf (F := Ideal) (V c main_arg0) (V c main_v45) (V c main_v80)) :=
  (dat4 V c).arrAt_eq_of_cover 3 _ (fun t hf => flushed4_3_eq V c t hf) cover4_3

/-- THE SECOND ARRAY the call leaves: the column sums of the squared entries. -/
theorem arr4_sq (c : Dev nD) :
    (dat4 V c).arrAt 4 cfg4.N
      = Cert.Spec.sumCols (F := Ideal) (mulf (F := Ideal) (s := Cert.ReferenceIdeal.S100000x384) (φ := .f32)
          (Cert.Spec.catOf (F := Ideal) (V c main_arg0) (V c main_v45) (V c main_v80))
          (Cert.Spec.catOf (F := Ideal) (V c main_arg0) (V c main_v45) (V c main_v80))) :=
  (dat4 V c).arrAt_eq_of_cover 4 _ (fun t hf => flushed4_4_eq V c t hf) cover4_4

end Cert.KernelIdeal.Hand

end
-- ==== Proof.IdealOutBlock.lean ====
/-
  One grid point's body of the normalise-and-project kernel, read at an entry, is the whole-array stage read at the
  corresponding row.

  Both sides are, at (r, q) with r the array row that the block row p stands for,

      Σ_k ((((xc(r, k) − mu k) · inv k) · g k) + b k) · Wo(k, q)  +  bo q,

  where xc is the three feature blocks side by side: column k < 128 comes from the first, k < 256 from the second,
  the rest from the third. The kernel body reads row p of its three blocks, the stage reads row r of the three arrays;
  the blocks hold the arrays' rows entry by entry, so the two normalised rows agree entry by entry, the two products
  are the same finite sum, and the two bias rows are the same vector read at q.
-/
import proofs.«125812_j16904991277430_1_alg».proof.Proof.Gen.KernelIdeal.Skeleton
import proofs.«125812_j16904991277430_1_alg».proof.Proof.Spec
import proofs.«125812_j16904991277430_1_alg».proof.Proof.LibConcatRead
import proofs.«125812_j16904991277430_1_alg».proof.Proof.LibBiasRows
import proofs.«125812_j16904991277430_1_alg».proof.Proof.LibPlainMatmul
import proofs.«125812_j16904991277430_1_alg».proof.Proof.LibPlainDotGeneral
import Idealize.ShloMosaic.Lib.ValueLayout
import Idealize.ShloMosaic.Lib.ValueIdx
import Idealize.ShloMosaic.Lib.Pipeline.Value

noncomputable section

namespace Cert.KernelIdeal.Hand

open Cert.KernelIdeal Cert.KernelIdeal.Gen Cert.Spec Idealize.ShloMosaic Idealize.ShloMosaic.ValueIdx

/-! ## Rows and pointwise normalisation read at an entry -/

/-- A length-`n` vector made a `1 × n` row and repeated down `a` rows reads, at `(p, c)`, the vector at `c`. -/
theorem rowK_apply {α : Type} {a n : ℕ} (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) :=
  (broadcastTo_1b_ab_apply _ h2 p c).trans (shapeCast_a_1a_apply v h1 0 c)

/-- Centre, scale, scale, shift, read at an entry. -/
theorem norm_apply {s : Shape} (X M S G B : FVec Ideal s .f32) (i : s.Idx) :
    addf (mulf (mulf (subf X M) S) G) B i = (X i - M i) * S i * G i + B i := rfl

/-- A length-384 vector repeated down the rows of the whole array reads, at `(r, c)`, the vector at `c`. -/
theorem rowsOf_apply (v : Vec Ideal S384 .f32) (r : Fin 100000) (c : Fin 384) :
    rowsOf (F := Ideal) v (ix2 r c) = v (ix1 c) := by
  unfold rowsOf
  exact bias_rows_apply v _ _ r c

/-! ## The kernel body -/

/-- The kernel body's normalised block. -/
def normK (x0 x1 x2 : Vec Ideal S10000x128 .f32) (mu inv g b : Vec Ideal S384 .f32) : FVec Ideal S10000x384 .f32 :=
  addf (mulf (mulf (subf
      (concatenate S10000x384 1 [⟨S10000x128, x0⟩, ⟨S10000x128, shapeCast S10000x128 x1 shapeCasts_S10000x128_S10000x128⟩, ⟨S10000x128, shapeCast S10000x128 x2 shapeCasts_S10000x128_S10000x128⟩] concatenates_S10000x128_S10000x128_S10000x128_S10000x384_d1)
      (broadcastTo S10000x384 (shapeCast S1x384 (shapeCast S384 mu shapeCasts_S384_S384) shapeCasts_S384_S1x384) broadcasts_S1x384_S10000x384))
      (broadcastTo S10000x384 (shapeCast S1x384 (shapeCast S384 inv shapeCasts_S384_S384) shapeCasts_S384_S1x384) broadcasts_S1x384_S10000x384))
      (broadcastTo S10000x384 (shapeCast S1x384 g shapeCasts_S384_S1x384) broadcasts_S1x384_S10000x384))
    (broadcastTo S10000x384 (shapeCast S1x384 b shapeCasts_S384_S1x384) broadcasts_S1x384_S10000x384)

/-- The kernel body is the product of its normalised block by the projection, from zero, plus the output bias rows. -/
theorem k5_pay1_eq (x0 x1 x2 : Vec Ideal S10000x128 .f32) (mu inv g b : Vec Ideal S384 .f32) (Wo : Vec Ideal S384x128 .f32)
    (bo : Vec Ideal S128 .f32) :
    k5_pay1 (F := Ideal) x0 x1 x2 mu inv g b Wo bo
      = addf (matmul (φ₁ := .f32) (φ₂ := .f32) dot_S10000x384_S384x128_S10000x128_1_0_0_1_n_n none (normK x0 x1 x2 mu inv g b) Wo
          (constant S10000x128 .f32 0x00000000#32))
        (broadcastTo S10000x128 (shapeCast S1x128 bo shapeCasts_S128_S1x128) broadcasts_S1x128_S10000x128) := rfl

/-- The kernel body's normalised block read at an entry. -/
theorem normK_apply (x0 x1 x2 : Vec Ideal S10000x128 .f32) (mu inv g b : Vec Ideal S384 .f32) (p : Fin 10000) (c : Fin 384) :
    normK x0 x1 x2 mu inv g b (ix2 p c)
      = (concatenate S10000x384 1 [⟨S10000x128, x0⟩, ⟨S10000x128, x1⟩, ⟨S10000x128, x2⟩] concatenates_S10000x128_S10000x128_S10000x128_S10000x384_d1 (ix2 p c) - mu (ix1 c)) * inv (ix1 c) * g (ix1 c) + b (ix1 c) := by
  unfold normK
  rw [norm_apply, shapeCast_self x1, shapeCast_self x2, shapeCast_self mu, shapeCast_self inv,
    rowK_apply mu, rowK_apply inv, rowK_apply g, rowK_apply b]

/-! ## The blocks against the arrays -/

/-- The three blocks side by side at row `p` are the three arrays side by side at the row `p` stands for. -/
theorem cat_at (ρ : Fin 10000 → Fin 100000) (x0 x1 x2 : Vec Ideal S10000x128 .f32)
    (X0 X1 X2 : S100000x128.Idx → EReal)
    (hx0 : ∀ (p : Fin 10000) (k : Fin 128), x0 (ix2 p k) = X0 (ix2 (ρ p) k))
    (hx1 : ∀ (p : Fin 10000) (k : Fin 128), x1 (ix2 p k) = X1 (ix2 (ρ p) k))
    (hx2 : ∀ (p : Fin 10000) (k : Fin 128), x2 (ix2 p k) = X2 (ix2 (ρ p) k)) (p : Fin 10000) (c : Fin 384) :
    concatenate S10000x384 1 [⟨S10000x128, x0⟩, ⟨S10000x128, x1⟩, ⟨S10000x128, x2⟩] concatenates_S10000x128_S10000x128_S10000x128_S10000x384_d1 (ix2 p c) = catOf (F := Ideal) X0 X1 X2 (ix2 (ρ p) c) := by
  unfold catOf
  have hlt : c.val < 384 := c.isLt
  by_cases h1 : c.val < 128
  · exact (concat3_cols_first x0 x1 x2 _ p ⟨c.val, h1⟩ c rfl).trans
      ((hx0 p _).trans (concat3_cols_first X0 X1 X2 _ (ρ p) ⟨c.val, h1⟩ c rfl).symm)
  · by_cases h2 : c.val < 256
    · have hc : c.val = 128 + (⟨c.val - 128, by omega⟩ : Fin 128).val := by show c.val = 128 + (c.val - 128); omega
      exact (concat3_cols_second x0 x1 x2 _ p ⟨c.val - 128, by omega⟩ c hc).trans
        ((hx1 p _).trans (concat3_cols_second X0 X1 X2 _ (ρ p) ⟨c.val - 128, by omega⟩ c hc).symm)
    · have hc : c.val = 128 + 128 + (⟨c.val - 256, by omega⟩ : Fin 128).val := by show c.val = 128 + 128 + (c.val - 256); omega
      exact (concat3_cols_third x0 x1 x2 _ p ⟨c.val - 256, by omega⟩ c hc).trans
        ((hx2 p _).trans (concat3_cols_third X0 X1 X2 _ (ρ p) ⟨c.val - 256, by omega⟩ c hc).symm)

/-! ## The body at an entry is the stage at the corresponding row -/

/-- One grid point's body of the normalise-and-project kernel at `(p, q)` is the whole-array stage at `(ρ p, q)`, for any
    row map `ρ` along which the three blocks hold the three arrays' rows. -/
theorem pay5_at (ρ : Fin 10000 → Fin 100000) (x0 x1 x2 : Vec Ideal S10000x128 .f32)
    (X0 X1 X2 : S100000x128.Idx → EReal)
    (hx0 : ∀ (p : Fin 10000) (k : Fin 128), x0 (ix2 p k) = X0 (ix2 (ρ p) k))
    (hx1 : ∀ (p : Fin 10000) (k : Fin 128), x1 (ix2 p k) = X1 (ix2 (ρ p) k))
    (hx2 : ∀ (p : Fin 10000) (k : Fin 128), x2 (ix2 p k) = X2 (ix2 (ρ p) k))
    (mu inv g b : Vec Ideal S384 .f32) (Wo : Vec Ideal S384x128 .f32) (bo : Vec Ideal S128 .f32) (p : Fin 10000) (q : Fin 128) :
    k5_pay1 (F := Ideal) x0 x1 x2 mu inv g b Wo bo (ix2 p q)
      = outOf (F := Ideal) (catOf X0 X1 X2) mu inv g b Wo bo (ix2 (ρ p) q) := by
  rw [k5_pay1_eq]
  unfold outOf
  rw [addf_apply, addf_apply]
  refine congrArg₂ (· + ·) ?_ ?_
  · refine (matmul_plain_zero_apply (φ₁ := .f32) (φ₂ := .f32) dot_S10000x384_S384x128_S10000x128_1_0_0_1_n_n_wf none (normK x0 x1 x2 mu inv g b) Wo p q).trans
      (Eq.trans ?_ (dotGeneral_plain_apply (φ₁ := .f32) (φ₂ := .f32) _ none _ Wo (ρ p) q).symm)
    refine Finset.sum_congr rfl fun c _ => ?_
    rw [normK_apply, norm_apply, rowsOf_apply, rowsOf_apply, rowsOf_apply, rowsOf_apply,
      cat_at ρ x0 x1 x2 X0 X1 X2 hx0 hx1 hx2 p c]
  · exact (rowK_apply bo _ _ p q).trans (bias_rows_apply bo _ _ (ρ p) q).symm

end Cert.KernelIdeal.Hand

end
-- ==== Proof.IdealArr5.lean ====
/- The array the normalise-and-project call leaves: its ten blocks of rows are the rows of the whole stage (centre, scale,
   shift column by column the three feature arrays side by side, project, add the output bias), at the exact extended
   reals. Point t of the grid holds rows 10000·t … 10000·t + 9999 of the three feature arrays and the whole of the six
   small arrays; its body's value at (p, q) is the stage at (10000·t + p, q); the ten output blocks tile the rows. -/
import proofs.«125812_j16904991277430_1_alg».proof.Proof.IdealRegion5
import proofs.«125812_j16904991277430_1_alg».proof.Proof.IdealRegion4
import proofs.«125812_j16904991277430_1_alg».proof.Proof.IdealOutBlock
import proofs.«125812_j16904991277430_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Call 5: the blocks of rows of the output are the rows of the whole normalise-and-project stage -/

/-- The index maps over the grid: the three feature windows and the output window take block `t` of the rows, the six
    small windows their whole array. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0 ∧ win5_4.index t (0 : Fin 1) = 0 ∧ win5_5.index t (0 : Fin 1) = 0
    ∧ win5_6.index t (0 : Fin 1) = 0
    ∧ win5_7.index t (0 : Fin 2) = 0 ∧ win5_7.index t (1 : Fin 2) = 0
    ∧ win5_8.index t (0 : Fin 1) = 0
    ∧ win5_9.index t (0 : Fin 2) = t.val ∧ win5_9.index t (1 : Fin 2) = 0 :=
  (by decide +kernel : ∀ t : Fin grid5.N, _)

/-- Window 3 stages its whole array at every point. -/
theorem wblk5_3 (c : Dev nD) (t : Fin cfg5.N) : (iblk5 V c 3 t : Vec Ideal S384 .f32) = V c main_v83 := by
  funext j
  obtain ⟨a, rfl⟩ : ∃ a : Fin 384, j = ix1 a := ⟨j 0, eq_ix1 j⟩
  obtain ⟨_, _, _, _, _, _, e3, e4, e5, e6, e70, e71, e8, _, _⟩ := idx5 t
  show V c main_v83 (((cfg5.win 3).blk t).view.emb (ix1 a)) = V c main_v83 (ix1 a : S384.Idx)
  refine congrArg (V c main_v83) ?_
  funext ax; apply Fin.ext
  match ax with
  | ⟨0, _⟩ => show win5_3.index t (0 : Fin 1) * 384 + 1 * a.val = a.val; omega

/-- Window 4 stages its whole array at every point. -/
theorem wblk5_4 (c : Dev nD) (t : Fin cfg5.N) : (iblk5 V c 4 t : Vec Ideal S384 .f32) = V c main_v92 := by
  funext j
  obtain ⟨a, rfl⟩ : ∃ a : Fin 384, j = ix1 a := ⟨j 0, eq_ix1 j⟩
  obtain ⟨_, _, _, _, _, _, e3, e4, e5, e6, e70, e71, e8, _, _⟩ := idx5 t
  show V c main_v92 (((cfg5.win 4).blk t).view.emb (ix1 a)) = V c main_v92 (ix1 a : S384.Idx)
  refine congrArg (V c main_v92) ?_
  funext ax; apply Fin.ext
  match ax with
  | ⟨0, _⟩ => show win5_4.index t (0 : Fin 1) * 384 + 1 * a.val = a.val; omega

/-- Window 5 stages its whole array at every point. -/
theorem wblk5_5 (c : Dev nD) (t : Fin cfg5.N) : (iblk5 V c 5 t : Vec Ideal S384 .f32) = V c main_arg6 := by
  funext j
  obtain ⟨a, rfl⟩ : ∃ a : Fin 384, j = ix1 a := ⟨j 0, eq_ix1 j⟩
  obtain ⟨_, _, _, _, _, _, e3, e4, e5, e6, e70, e71, e8, _, _⟩ := idx5 t
  show V c main_arg6 (((cfg5.win 5).blk t).view.emb (ix1 a)) = V c main_arg6 (ix1 a : S384.Idx)
  refine congrArg (V c main_arg6) ?_
  funext ax; apply Fin.ext
  match ax with
  | ⟨0, _⟩ => show win5_5.index t (0 : Fin 1) * 384 + 1 * a.val = a.val; omega

/-- Window 6 stages its whole array at every point. -/
theorem wblk5_6 (c : Dev nD) (t : Fin cfg5.N) : (iblk5 V c 6 t : Vec Ideal S384 .f32) = V c main_arg7 := by
  funext j
  obtain ⟨a, rfl⟩ : ∃ a : Fin 384, j = ix1 a := ⟨j 0, eq_ix1 j⟩
  obtain ⟨_, _, _, _, _, _, e3, e4, e5, e6, e70, e71, e8, _, _⟩ := idx5 t
  show V c main_arg7 (((cfg5.win 6).blk t).view.emb (ix1 a)) = V c main_arg7 (ix1 a : S384.Idx)
  refine congrArg (V c main_arg7) ?_
  funext ax; apply Fin.ext
  match ax with
  | ⟨0, _⟩ => show win5_6.index t (0 : Fin 1) * 384 + 1 * a.val = a.val; omega

/-- Window 7 stages its whole array at every point. -/
theorem wblk5_7 (c : Dev nD) (t : Fin cfg5.N) : (iblk5 V c 7 t : Vec Ideal S384x128 .f32) = V c main_arg8 := by
  funext j
  obtain ⟨a, b, rfl⟩ : ∃ (a : Fin 384) (b : Fin 128), j = ix2 a b := ⟨j 0, j 1, eq_ix2 j⟩
  obtain ⟨_, _, _, _, _, _, e3, e4, e5, e6, e70, e71, e8, _, _⟩ := idx5 t
  show V c main_arg8 (((cfg5.win 7).blk t).view.emb (ix2 a b)) = V c main_arg8 (ix2 a b : S384x128.Idx)
  refine congrArg (V c main_arg8) ?_
  funext ax; apply Fin.ext
  match ax with
  | ⟨0, _⟩ => show win5_7.index t (0 : Fin 2) * 384 + 1 * a.val = a.val; omega
  | ⟨1, _⟩ => show win5_7.index t (1 : Fin 2) * 128 + 1 * b.val = b.val; omega

/-- Window 8 stages its whole array at every point. -/
theorem wblk5_8 (c : Dev nD) (t : Fin cfg5.N) : (iblk5 V c 8 t : Vec Ideal S128 .f32) = V c main_arg9 := by
  funext j
  obtain ⟨a, rfl⟩ : ∃ a : Fin 128, j = ix1 a := ⟨j 0, eq_ix1 j⟩
  obtain ⟨_, _, _, _, _, _, e3, e4, e5, e6, e70, e71, e8, _, _⟩ := idx5 t
  show V c main_arg9 (((cfg5.win 8).blk t).view.emb (ix1 a)) = V c main_arg9 (ix1 a : S128.Idx)
  refine congrArg (V c main_arg9) ?_
  funext ax; apply Fin.ext
  match ax with
  | ⟨0, _⟩ => show win5_8.index t (0 : Fin 1) * 128 + 1 * a.val = a.val; omega

/-- The row of the whole arrays that row `p` of block `t` stands for: `10000·t + p`. -/
def rho5 (t : Fin cfg5.N) (p : Fin 10000) : Fin 100000 :=
  ⟨10000 * t.val + p.val, by
    have hN : t.val < 10 := lt_of_lt_of_eq t.isLt (show cfg5.N = 10 from N_5)
    have := p.isLt
    omega⟩

/-- Window 0's block at point `t` holds rows `10000·t …` of its array. -/
theorem rblk5_0 (c : Dev nD) (t : Fin cfg5.N) (p : Fin 10000) (k : Fin 128) :
    (iblk5 V c 0 t : Vec Ideal S10000x128 .f32) (ix2 p k) = (V c main_arg0 : S100000x128.Idx → EReal) (ix2 (rho5 t p) k) := by
  obtain ⟨e00, e01, e10, e11, e20, e21, _, _, _, _, _, _, _, _, _⟩ := idx5 t
  show V c main_arg0 (((cfg5.win 0).blk t).view.emb (ix2 p k)) = _
  refine congrArg (V c main_arg0) ?_
  funext ax; apply Fin.ext
  match ax with
  | ⟨0, _⟩ => show win5_0.index t (0 : Fin 2) * 10000 + 1 * p.val = 10000 * t.val + p.val; omega
  | ⟨1, _⟩ => show win5_0.index t (1 : Fin 2) * 128 + 1 * k.val = k.val; omega

/-- Window 1's block at point `t` holds rows `10000·t …` of its array. -/
theorem rblk5_1 (c : Dev nD) (t : Fin cfg5.N) (p : Fin 10000) (k : Fin 128) :
    (iblk5 V c 1 t : Vec Ideal S10000x128 .f32) (ix2 p k) = (V c main_v45 : S100000x128.Idx → EReal) (ix2 (rho5 t p) k) := by
  obtain ⟨e00, e01, e10, e11, e20, e21, _, _, _, _, _, _, _, _, _⟩ := idx5 t
  show V c main_v45 (((cfg5.win 1).blk t).view.emb (ix2 p k)) = _
  refine congrArg (V c main_v45) ?_
  funext ax; apply Fin.ext
  match ax with
  | ⟨0, _⟩ => show win5_1.index t (0 : Fin 2) * 10000 + 1 * p.val = 10000 * t.val + p.val; omega
  | ⟨1, _⟩ => show win5_1.index t (1 : Fin 2) * 128 + 1 * k.val = k.val; omega

/-- Window 2's block at point `t` holds rows `10000·t …` of its array. -/
theorem rblk5_2 (c : Dev nD) (t : Fin cfg5.N) (p : Fin 10000) (k : Fin 128) :
    (iblk5 V c 2 t : Vec Ideal S10000x128 .f32) (ix2 p k) = (V c main_v80 : S100000x128.Idx → EReal) (ix2 (rho5 t p) k) := by
  obtain ⟨e00, e01, e10, e11, e20, e21, _, _, _, _, _, _, _, _, _⟩ := idx5 t
  show V c main_v80 (((cfg5.win 2).blk t).view.emb (ix2 p k)) = _
  refine congrArg (V c main_v80) ?_
  funext ax; apply Fin.ext
  match ax with
  | ⟨0, _⟩ => show win5_2.index t (0 : Fin 2) * 10000 + 1 * p.val = 10000 * t.val + p.val; omega
  | ⟨1, _⟩ => show win5_2.index t (1 : Fin 2) * 128 + 1 * k.val = k.val; omega

/-- Entry `(p, q)` of the output block at point `t` is entry `(10000·t + p, q)` of the output array. -/
theorem emb5_9 (t : Fin cfg5.N) (p : Fin 10000) (q : Fin 128) :
    ((cfg5.win 9).blk t).view.emb (ix2 p q) = (ix2 (rho5 t p) q : S100000x128.Idx) := by
  obtain ⟨_, _, _, _, _, _, _, _, _, _, _, _, _, e90, e91⟩ := idx5 t
  funext ax; apply Fin.ext
  match ax with
  | ⟨0, _⟩ => show win5_9.index t (0 : Fin 2) * 10000 + 1 * p.val = 10000 * t.val + p.val; omega
  | ⟨1, _⟩ => show win5_9.index t (1 : Fin 2) * 128 + 1 * q.val = q.val; omega

/-- What point `t` writes back is its body's value over the blocks it holds. -/
theorem flushed5_pay (c : Dev nD) (t : Fin cfg5.N) (p : Fin 10000) (q : Fin 128) :
    (dat5 V c).flushed 9 t (ix2 p q)
      = k5_pay1 (iblk5 V c 0 t) (iblk5 V c 1 t) (iblk5 V c 2 t) (iblk5 V c 3 t) (iblk5 V c 4 t) (iblk5 V c 5 t) (iblk5 V c 6 t)
          (iblk5 V c 7 t) (iblk5 V c 8 t) (ix2 p q) := by
  show (cfg5.win 9).cut (grid5.coords t) ((dat5 V c).after 9 t) (ix2 p q) = _
  rw [after5_9]
  unfold out5_9
  rw [View.canon_unit_zero hz2]
  simp only [View.ld_unit_zero (S := S10000x128) hz2, View.ld_unit_zero (S := S384) hz1,
    View.ld_unit_zero (S := S384x128) hz2, View.ld_unit_zero (S := S128) hz1]
  rfl

/-- The body's value at point `t`, entry `(p, q)`, is the whole stage at `(10000·t + p, q)`. -/
theorem pay5_stage (c : Dev nD) (t : Fin cfg5.N) (p : Fin 10000) (q : Fin 128) :
    k5_pay1 (iblk5 V c 0 t) (iblk5 V c 1 t) (iblk5 V c 2 t) (iblk5 V c 3 t) (iblk5 V c 4 t) (iblk5 V c 5 t) (iblk5 V c 6 t)
        (iblk5 V c 7 t) (iblk5 V c 8 t) (ix2 p q)
      = (outOf (F := Ideal) (catOf (F := Ideal) (V c main_arg0) (V c main_v45) (V c main_v80)) (V c main_v83) (V c main_v92) (V c main_arg6) (V c main_arg7) (V c main_arg8) (V c main_arg9)) (ix2 (rho5 t p) q) := by
  rw [wblk5_3 V c t, wblk5_4 V c t, wblk5_5 V c t, wblk5_6 V c t, wblk5_7 V c t, wblk5_8 V c t]
  exact pay5_at (rho5 t) (iblk5 V c 0 t) (iblk5 V c 1 t) (iblk5 V c 2 t) (V c main_arg0) (V c main_v45) (V c main_v80)
    (rblk5_0 V c t) (rblk5_1 V c t) (rblk5_2 V c t)
    (V c main_v83) (V c main_v92) (V c main_arg6) (V c main_arg7) (V c main_arg8) (V c main_arg9) p q

/-- What point `t` writes back is block `t` of the whole stage. -/
theorem flushed5_eq (c : Dev nD) (t : Fin cfg5.N) :
    (dat5 V c).flushed 9 t = ((cfg5.win 9).blk t).view.read (Elt Ideal)
      (outOf (F := Ideal) (catOf (F := Ideal) (V c main_arg0) (V c main_v45) (V c main_v80)) (V c main_v83) (V c main_v92) (V c main_arg6) (V c main_arg7) (V c main_arg8) (V c main_arg9)) := by
  funext j
  obtain ⟨p, q, rfl⟩ : ∃ (p : Fin 10000) (q : Fin 128), j = ix2 p q := ⟨j 0, j 1, eq_ix2 j⟩
  refine (flushed5_pay V c t p q).trans ((pay5_stage V c t p q).trans ?_)
  exact congrArg (outOf (F := Ideal) (catOf (F := Ideal) (V c main_arg0) (V c main_v45) (V c main_v80)) (V c main_v83) (V c main_v92) (V c main_arg6) (V c main_arg7) (V c main_arg8) (V c main_arg9)) (emb5_9 t p q).symm

theorem mem_blk5 (t : Fin cfg5.N) (i : S100000x128.Idx) :
    i ∈ ((cfg5.win 9).blk t).view.set ↔ ∀ a : Fin 2, win5_9.index t a * S10000x128.size a ≤ (i a).val ∧ (i a).val < win5_9.index t a * S10000x128.size a + S10000x128.size a := by
  show i ∈ ((View.whole main_v93).slice (win5_9.rect t)).set ↔ _
  rw [View.set_slice_whole, Rect.mem_set_unit]
  exact Iff.rfl

/-- The ten output blocks tile the rows. -/
theorem cover5 (i : S100000x128.Idx) :
    ∃ t : Fin cfg5.N, (cfg5.win 9).flush t = true ∧ i ∈ ((cfg5.win 9).blk t).view.set := by
  have hi0 : (i 0).val < 100000 := (i 0).isLt
  have hi1 : (i 1).val < 128 := (i 1).isLt
  have hlt : (i 0).val / 10000 < cfg5.N := by rw [show cfg5.N = 10 from N_5]; omega
  obtain ⟨_, _, _, _, _, _, _, _, _, _, _, _, _, e90, e91⟩ := idx5 ⟨(i 0).val / 10000, hlt⟩
  refine ⟨⟨(i 0).val / 10000, hlt⟩, flush5_9 _, ?_⟩
  rw [mem_blk5]
  intro a
  match a with
  | ⟨0, _⟩ => show win5_9.index ⟨(i 0).val / 10000, hlt⟩ (0 : Fin 2) * 10000 ≤ (i 0).val ∧ (i 0).val < win5_9.index ⟨(i 0).val / 10000, hlt⟩ (0 : Fin 2) * 10000 + 10000; rw [e90]; dsimp only; omega
  | ⟨1, _⟩ => show win5_9.index ⟨(i 0).val / 10000, hlt⟩ (1 : Fin 2) * 128 ≤ (i 1).val ∧ (i 1).val < win5_9.index ⟨(i 0).val / 10000, hlt⟩ (1 : Fin 2) * 128 + 128; rw [e91]; omega

/-- THE ARRAY call 5 leaves: the whole stage. -/
theorem arr5 (c : Dev nD) : (dat5 V c).arrAt 9 cfg5.N
    = outOf (F := Ideal) (catOf (F := Ideal) (V c main_arg0) (V c main_v45) (V c main_v80)) (V c main_v83) (V c main_v92) (V c main_arg6) (V c main_arg7) (V c main_arg8) (V c main_arg9) :=
  (dat5 V c).arrAt_eq_of_cover 9 _ (fun t _ => flushed5_eq V c t) (cover5)

end Cert.KernelIdeal.Hand

end
-- ==== Proof.FiniteLayers.lean ====
/-
  Every entry of the reference's concatenated feature matrix is a real number when the float arguments have only
  real entries; nothing is asked of the edge list.

  The extended reals that are images of real numbers are closed under sum, product, maximum and finite sums. The
  degree of a node is zero plus a finite sum of ones, a real number r ≥ 0, so degree plus one is a positive real and
  its inverse root is a real number. A gathered entry is an entry of the gathered array, whatever the row numbers
  say, and a broadcast entry is an entry of the broadcast array. A scatter-add at an entry is that entry of its
  initial array plus a finite sum of update entries, whatever the row numbers say. So one aggregation of a real
  array is real, one layer of a real array with a real bias is real, a product of real matrices (a finite sum of
  products) is real, and each entry of the three blocks side by side is an entry of one of the blocks.
-/
import proofs.«125812_j16904991277430_1_alg».proof.Proof.Spec
import proofs.«125812_j16904991277430_1_alg».proof.Proof.LibConcatRead
import Idealize.ShloMosaic.Lib.ValueIdx
import Idealize.ShloMosaic.Lib.IdealHost
import Idealize.ShloMosaic.PureOps.Ideal
import Idealize.ShloMosaic.PureOps.Ideal.Laws

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

/-! ## Real numbers inside the extended reals -/

/-- An extended real that is the image of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

theorem isReal_zero : IsReal (0 : EReal) := ⟨0, EReal.coe_zero.symm⟩

theorem IsReal.of_eq {x y : EReal} (h : x = y) (hy : IsReal y) : IsReal x := h ▸ hy

/-- A finite sum of real numbers is a real number. -/
theorem IsReal.sum {ι : Type} (s : Finset ι) (f : ι → EReal) (h : ∀ j ∈ s, IsReal (f j)) : IsReal (∑ j ∈ s, f j) := by
  classical
  induction s using Finset.induction_on with
  | empty => rw [Finset.sum_empty]; exact isReal_zero
  | insert a s ha ih =>
    rw [Finset.sum_insert ha]
    exact (h a (Finset.mem_insert_self a s)).add (ih fun j hj => h j (Finset.mem_insert_of_mem hj))

/-- A finite sum of nonnegative real numbers is a nonnegative real number. -/
theorem sum_nonneg_real {ι : Type} (s : Finset ι) (f : ι → EReal) (h : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by rw [Finset.sum_empty, EReal.coe_zero]⟩
  | insert a s ha ih =>
    obtain ⟨ra, hra0, hra⟩ := h a (Finset.mem_insert_self a s)
    obtain ⟨rs, hrs0, hrs⟩ := ih fun j hj => h j (Finset.mem_insert_of_mem hj)
    exact ⟨ra + rs, add_nonneg hra0 hrs0, by rw [Finset.sum_insert ha, hra, hrs, EReal.coe_add]⟩

/-- The inverse root of a positive real number is a real number. -/
theorem rsqrt_real {r : ℝ} (hr : 0 < r) : IsReal (Ideal.rsqrt (r : EReal)) := by
  rw [Ideal.rsqrt_coe, if_neg (not_lt.mpr hr.le), if_neg hr.ne']
  exact ⟨_, rfl⟩

/-! ## The data-movement operations keep real entries -/

/-- A gathered entry is an entry of the gathered array. -/
theorem gather_real {s si t : Shape} {w : Nat} (d : GatherDims s si t) (x : s.Idx → EReal) (idx : IVec si w)
    (hx : ∀ i, IsReal (x i)) (j : t.Idx) : IsReal (Host.gather d x idx j) := hx _

/-- A broadcast entry is an entry of the broadcast array. -/
theorem bcast_real {s t : Shape} (dims : Fin s.rank → Fin t.rank) (h : s.BroadcastsInDim t dims) (x : s.Idx → EReal)
    (hx : ∀ i, IsReal (x i)) (j : t.Idx) : IsReal (broadcastInDim t dims h x j) := hx _

/-- A scatter-add read at an entry: that entry of the initial array plus a finite sum of update entries. -/
theorem scatterAdd_eq {s si su : Shape} {w : Nat} {φ : FTy} (d : ScatterDims s si su) (x : FVec Ideal s φ) (idx : IVec si w)
    (upd : FVec Ideal su φ) (i : s.Idx) :
    ∃ S : Finset su.Idx, Host.scatterAdd d x idx upd i = x i + ∑ j ∈ S, upd j := by
  show ∃ S : Finset su.Idx, Ideal.hostScatterAdd d x idx upd i = x i + ∑ j ∈ S, upd j
  unfold Ideal.hostScatterAdd
  exact ⟨_, rfl⟩

/-- A scatter-add of real updates into a real array is real. -/
theorem scatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) := by
  obtain ⟨S, hS⟩ := scatterAdd_eq d x idx upd i
  rw [hS]
  exact (hx i).add (IsReal.sum S upd fun j _ => hu j)

/-- The zero matrix has real entries. -/
theorem zeros_real (i : S100000x128.Idx) :
    IsReal (broadcastInDim S100000x128 ![] bcast_S_S100000x128 (constant (F := Ideal) S_ .f32 0x00000000#32) i) := by
  refine bcast_real _ _ _ (fun k => ?_) i
  rw [ValueIdx.constant_apply, Ideal.ofBits_zero_f32]
  exact isReal_zero

/-! ## The inverse root degrees -/

/-- The degree before the added one: zero plus a finite sum of ones, a nonnegative real number. -/
theorem deg_real (x1 : (⟨S2x1600000, .i32⟩ : BufTy).Contents (Elt Ideal)) (i : S100000.Idx) :
    ∃ r : ℝ, 0 ≤ r ∧ val_main_v8 (F := Ideal) x1 i = (r : EReal) := by
  have h5 : ∀ j, val_main_v5 (F := Ideal) j = ((1 : ℝ) : EReal) := fun j => by
    rw [val_main_v5_apply, val_main_cst_apply, Ideal.ofBits_def, Ideal.ofBits_one_f32, EReal.coe_one]
  have h6 : val_main_v6 (F := Ideal) i = ((0 : ℝ) : EReal) := by
    rw [val_main_v6_apply, val_main_cst_0_apply, Ideal.ofBits_def, Ideal.ofBits_zero_f32, EReal.coe_zero]
  obtain ⟨S, hS⟩ := scatterAdd_eq scatter_S100000_S1600000x1_S1600000_n_0_0_1 (val_main_v6 (F := Ideal)) (val_main_v7 (F := Ideal) x1)
    (val_main_v5 (F := Ideal)) i
  obtain ⟨r, hr0, hr⟩ := sum_nonneg_real S (val_main_v5 (F := Ideal)) (fun j _ => ⟨1, zero_le_one, h5 j⟩)
  refine ⟨0 + r, by linarith, ?_⟩
  unfold val_main_v8
  rw [hS, h6, hr, EReal.coe_add]

/-- The inverse root degree of every node is a real number. -/
theorem dinv_real (x1 : (⟨S2x1600000, .i32⟩ : BufTy).Contents (Elt Ideal)) (i : S100000.Idx) :
    IsReal (val_main_v11 (F := Ideal) x1 i) := by
  obtain ⟨r, hr0, hr⟩ := deg_real x1 i
  have h9 : val_main_v9 (F := Ideal) i = ((1 : ℝ) : EReal) := by
    rw [val_main_v9_apply, val_main_cst_1_apply, Ideal.ofBits_def, Ideal.ofBits_one_f32, EReal.coe_one]
  rw [val_main_v11_apply, val_main_v10_apply, hr, h9, Ideal.hostUnary_rsqrt_def, Ideal.addf_def, ← EReal.coe_add]
  exact rsqrt_real (by linarith)

/-- The per-edge factor, repeated along the row, is real. -/
theorem edgeFactor_real (x1 : (⟨S2x1600000, .i32⟩ : BufTy).Contents (Elt Ideal)) (j : S1600000x128.Idx) :
    IsReal (val_main_v35 (F := Ideal) x1 j) := by
  rw [val_main_v35_apply, val_main_v34_apply, val_main_v26_apply, Ideal.mulf_def]
  exact (gather_real _ _ _ (dinv_real x1) _).mul (gather_real _ _ _ (dinv_real x1) _)

/-- The squared inverse root degree, repeated along the row, is real. -/
theorem selfFactor_real (x1 : (⟨S2x1600000, .i32⟩ : BufTy).Contents (Elt Ideal)) (i : S100000x128.Idx) :
    IsReal (val_main_v42 (F := Ideal) x1 i) := by
  rw [val_main_v42_apply, val_main_v41_apply, val_main_v40_apply, Ideal.mulf_def]
  exact (dinv_real x1 _).mul (dinv_real x1 _)

/-! ## One aggregation, one layer -/

/-- The aggregation of a real array over any edge list is real. -/
theorem agg_real (h : (⟨S100000x128, .f32⟩ : BufTy).Contents (Elt Ideal)) (x1 : (⟨S2x1600000, .i32⟩ : BufTy).Contents (Elt Ideal))
    (hh : ∀ i, IsReal (h i)) (i : S100000x128.Idx) : IsReal (aggOf (F := Ideal) h x1 i) := by
  unfold aggOf
  rw [ValueIdx.addf_apply, ValueIdx.mulf_apply]
  refine IsReal.add (scatterAdd_real _ _ _ _ zeros_real (fun j => ?_) i) ((hh i).mul (selfFactor_real x1 i))
  rw [ValueIdx.mulf_apply]
  exact (gather_real _ _ _ hh j).mul (edgeFactor_real x1 j)

/-- One layer of a real array with a real bias is real. -/
theorem layer_real (h : (⟨S100000x128, .f32⟩ : BufTy).Contents (Elt Ideal)) (x1 : (⟨S2x1600000, .i32⟩ : BufTy).Contents (Elt Ideal))
    (b : (⟨S128, .f32⟩ : BufTy).Contents (Elt Ideal)) (hh : ∀ i, IsReal (h i)) (hb : ∀ i, IsReal (b i)) (i : S100000x128.Idx) :
    IsReal (layerOf (F := Ideal) h x1 b i) := by
  unfold layerOf
  rw [ValueIdx.maximumf_apply, ValueIdx.addf_apply]
  exact ((agg_real h x1 hh i).add (bcast_real _ _ _ (bcast_real _ _ _ hb) i)).max (zeros_real i)

/-! ## The two products -/

theorem prod1_real (x0 : (⟨S100000x128, .f32⟩ : BufTy).Contents (Elt Ideal)) (x2 : (⟨S128x128, .f32⟩ : BufTy).Contents (Elt Ideal))
    (h0 : ∀ i, IsReal (x0 i)) (h2 : ∀ i, IsReal (x2 i)) (i : S100000x128.Idx) :
    IsReal (val_main_v4 (F := Ideal) x0 x2 i) := by
  rw [val_main_v4_apply]
  exact IsReal.sum _ _ fun k _ => (h0 _).mul (h2 _)

theorem prod2_real (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (h48 : ∀ i, IsReal (val_main_v48 (F := Ideal) x0 x1 x2 x3 i)) (h4 : ∀ i, IsReal (x4 i)) (i : S100000x128.Idx) :
    IsReal (val_main_v49 (F := Ideal) x0 x1 x2 x3 x4 i) := by
  rw [val_main_v49_apply]
  exact IsReal.sum _ _ fun k _ => (h48 _).mul (h4 _)

/-! ## The three blocks side by side -/

/-- Each entry of three real blocks side by side is real. -/
theorem cat3_real (a b c : (⟨S100000x128, .f32⟩ : BufTy).Contents (Elt Ideal))
    (ha : ∀ i, IsReal (a i)) (hb : ∀ i, IsReal (b i)) (hc : ∀ i, IsReal (c i)) (i : S100000x384.Idx) :
    IsReal (catOf (F := Ideal) a b c i) := by
  unfold catOf
  obtain ⟨p, q, rfl⟩ : ∃ (p : Fin 100000) (q : Fin 384), i = ValueIdx.ix2 p q := ⟨i 0, i 1, ValueIdx.eq_ix2 i⟩
  have hlt : q.val < 384 := q.isLt
  by_cases h1 : q.val < 128
  · have e : concatenate S100000x384 1 [⟨S100000x128, a⟩, ⟨S100000x128, b⟩, ⟨S100000x128, c⟩] concatenates_S100000x128_S100000x128_S100000x128_S100000x384_d1 (ValueIdx.ix2 p q) = a (ValueIdx.ix2 p (⟨q.val, h1⟩ : Fin 128)) :=
      ValueIdx.concat3_cols_first a b c _ p ⟨q.val, h1⟩ q rfl
    exact IsReal.of_eq e (ha _)
  · by_cases h2 : q.val < 256
    · have e : concatenate S100000x384 1 [⟨S100000x128, a⟩, ⟨S100000x128, b⟩, ⟨S100000x128, c⟩] concatenates_S100000x128_S100000x128_S100000x128_S100000x384_d1 (ValueIdx.ix2 p q) = b (ValueIdx.ix2 p (⟨q.val - 128, by omega⟩ : Fin 128)) :=
        ValueIdx.concat3_cols_second a b c _ p ⟨q.val - 128, by omega⟩ q (by show q.val = 128 + (q.val - 128); omega)
      exact IsReal.of_eq e (hb _)
    · have e : concatenate S100000x384 1 [⟨S100000x128, a⟩, ⟨S100000x128, b⟩, ⟨S100000x128, c⟩] concatenates_S100000x128_S100000x128_S100000x128_S100000x384_d1 (ValueIdx.ix2 p q) = c (ValueIdx.ix2 p (⟨q.val - 256, by omega⟩ : Fin 128)) :=
        ValueIdx.concat3_cols_third a b c _ p ⟨q.val - 256, by omega⟩ q (by show q.val = 128 + 128 + (q.val - 256); omega)
      exact IsReal.of_eq e (hc _)

/-! ## The concatenated feature matrix -/

/-- If the float arguments of the first layer have only real entries, every entry of the first layer is a real number,
    whatever the edge list. -/
theorem h1_real (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, val_main_v48 (F := Ideal) x0 x1 x2 x3 i = (r : EReal) := fun i => by
  rw [ref_v48]
  exact layer_real _ x1 x3 (prod1_real x0 x2 h0 h2) h3 i

/-- If the float arguments of the two layers have only real entries, every entry of the second layer is a real number,
    whatever the edge list. -/
theorem h2_real (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    ∀ i, ∃ r : ℝ, val_main_v93 (F := Ideal) x0 x1 x2 x3 x4 x5 i = (r : EReal) := fun i => by
  rw [ref_v93]
  exact layer_real _ x1 x5 (prod2_real x0 x1 x2 x3 x4 (h1_real x0 x1 x2 x3 h0 h2 h3) h4) h5 i

/-- If the float arguments have only real entries, every entry of the reference's concatenated feature matrix is a real
    number, whatever the edge list. -/
theorem cat_real (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    ∀ i, ∃ r : ℝ, val_main_v94 (F := Ideal) x0 x1 x2 x3 x4 x5 i = (r : EReal) := by
  intro i
  rw [ref_v94]
  exact cat3_real x0 _ _ h0 (h1_real x0 x1 x2 x3 h0 h2 h3) (h2_real x0 x1 x2 x3 x4 x5 h0 h2 h3 h4 h5) i

end Cert.Spec

end
-- ==== Proof.IdealValue.lean ====
/- The result of the idealized kernel program is the reference's result, as arrays over the extended reals, when the float
   arguments are finite. Boundary by boundary: the first product; the first aggregation and layer; the second product,
   aggregation and layer; the three feature blocks side by side; the two column totals; the mean and the kernel's inverse
   standard deviation; the normalise-and-project stage. The kernel's inverse standard deviation (mean of squares minus squared
   mean, clamped at zero) is the reference's (mean of squared deviations) because every entry of the feature matrix is a real
   number. -/
import proofs.«125812_j16904991277430_1_alg».proof.Proof.IdealCarry
import proofs.«125812_j16904991277430_1_alg».proof.Proof.IdealStretches
import proofs.«125812_j16904991277430_1_alg».proof.Proof.IdealArr0
import proofs.«125812_j16904991277430_1_alg».proof.Proof.IdealArr1
import proofs.«125812_j16904991277430_1_alg».proof.Proof.IdealArr2
import proofs.«125812_j16904991277430_1_alg».proof.Proof.IdealArr3
import proofs.«125812_j16904991277430_1_alg».proof.Proof.IdealArr4
import proofs.«125812_j16904991277430_1_alg».proof.Proof.IdealArr5
import proofs.«125812_j16904991277430_1_alg».proof.Proof.FiniteLayers
import proofs.«125812_j16904991277430_1_alg».proof.Proof.Variance
import proofs.«125812_j16904991277430_1_alg».proof.Proof.Spec2
import proofs.«125812_j16904991277430_1_alg».proof.Proof.LibMatrixProduct

set_option maxRecDepth 16384

noncomputable section

namespace Cert.KernelIdeal.Hand

open Cert.KernelIdeal Cert.KernelIdeal.Gen Cert.Spec Cert.ReferenceIdeal.Read
open Idealize.ShloMosaic Idealize.ShloMosaic.TcCoe Idealize.ShloMosaic.StableHlo Idealize.ShloMosaic.ValueIdx
open Idealize.SL.Sem
open Cert.MatrixProduct

variable (m : (ℓ : Loc nD τ sig) → Buf (Elt Ideal) ℓ)

/-- The first product. -/
theorem v11_eq (c : Dev nD) : W2 m c (Proc.devRef .tc main_v11) = val_main_v4 (F := Ideal) (m ((c : Thread nD τ).loc main_arg0)) (m ((c : Thread nD τ).loc main_arg2)) := by
  refine (W2_arr m c 2).trans ?_
  rw [arr0]
  rw [show U1 m c main_arg0 = (m ((c : Thread nD τ).loc main_arg0)) from W1_eq_W0 m c main_arg0 (by decide),
    show U1 m c main_arg2 = (m ((c : Thread nD τ).loc main_arg2)) from W1_eq_W0 m c main_arg2 (by decide)]
  exact (dotGeneral_eq_mm Cert.ReferenceIdeal.dot_S100000x128_S128x128_S100000x128_1_0_0_1_n_n.wf none _ _).symm

/-- The first aggregation. -/
theorem v44_eq (c : Dev nD) : W3 m c (Proc.devRef .tc main_v44) = val_main_v44 (F := Ideal) (m ((c : Thread nD τ).loc main_arg0)) (m ((c : Thread nD τ).loc main_arg1)) (m ((c : Thread nD τ).loc main_arg2)) := by
  rw [stretch1 m c ((W2_eq_W1 m c main_v10 (by decide)).trans (W1_dinv m c)) ((W2_eq_W1 m c main_v1 (by decide)).trans (W1_src m c)) ((W2_eq_W1 m c main_v3 (by decide)).trans (W1_dst m c)),
    v11_eq, ref_v44]

/-- The first layer. -/
theorem v45_eq (c : Dev nD) : W4 m c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) := by
  refine (W4_arr m c 2).trans ?_
  rw [arrb1]
  rw [show U3 m c main_v44 = val_main_v44 (F := Ideal) (m ((c : Thread nD τ).loc main_arg0)) (m ((c : Thread nD τ).loc main_arg1)) (m ((c : Thread nD τ).loc main_arg2)) from v44_eq m c,
    show U3 m c main_arg3 = (m ((c : Thread nD τ).loc main_arg3)) from W3_eq_W0 m c main_arg3 (by decide) (by decide) (by decide),
    ref_v44, ref_v48, layerOf_eq]

/-- The second product. -/
theorem v46_eq (c : Dev nD) : W5 m c (Proc.devRef .tc main_v46) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m c 2).trans ?_
  rw [arr2]
  rw [show U4 m c main_v45 = val_main_v48 (F := Ideal) (m ((c : Thread nD τ).loc main_arg0)) (m ((c : Thread nD τ).loc main_arg1)) (m ((c : Thread nD τ).loc main_arg2)) (m ((c : Thread nD τ).loc main_arg3)) from v45_eq m c,
    show U4 m c main_arg4 = (m ((c : Thread nD τ).loc main_arg4)) from W4_eq_W0 m c main_arg4 (by decide) (by decide) (by decide) (by decide)]
  exact (dotGeneral_eq_mm Cert.ReferenceIdeal.dot_S100000x128_S128x128_S100000x128_1_0_0_1_n_n.wf none _ _).symm

/-- The second aggregation. -/
theorem v79_eq (c : Dev nD) : W6 m c (Proc.devRef .tc main_v79) = aggOf (F := Ideal) (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  rw [stretch3 m c ((W5_eq_W1 m c main_v10 (by decide) (by decide) (by decide) (by decide)).trans (W1_dinv m c))
      ((W5_eq_W1 m c main_v1 (by decide) (by decide) (by decide) (by decide)).trans (W1_src m c))
      ((W5_eq_W1 m c main_v3 (by decide) (by decide) (by decide) (by decide)).trans (W1_dst m c)),
    v46_eq]

/-- The second layer. -/
theorem v80_eq (c : Dev nD) : W7 m c (Proc.devRef .tc main_v80) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m c 2).trans ?_
  rw [arrb3]
  rw [show U6 m c main_v79 = aggOf (F := Ideal) (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) from v79_eq m c,
    show U6 m c main_arg5 = (m ((c : Thread nD τ).loc main_arg5)) from W6_eq_W0 m c main_arg5 (by decide) (by decide) (by decide) (by decide) (by decide) (by decide),
    ref_v93, layerOf_eq]

/-- The first layer's output is still in place when the statistics call and the last call read it. -/
theorem v45_at7 (c : Dev nD) : W7 m c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) :=
  (W7_eq_W4 m c main_v45 (by decide) (by decide) (by decide)).trans (v45_eq m c)
theorem v45_at9 (c : Dev nD) : W9 m c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) :=
  (W9_eq_W4 m c main_v45 (by decide) (by decide) (by decide) (by decide) (by decide) (by decide)).trans (v45_eq m c)
theorem v80_at9 (c : Dev nD) : W9 m c (Proc.devRef .tc main_v80) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_eq_W7 m c main_v80 (by decide) (by decide) (by decide)).trans (v80_eq m c)

/-- The feature matrix the two last calls read. -/
abbrev xcOf (c : Dev nD) : (⟨Cert.ReferenceIdeal.S100000x384, .f32⟩ : BufTy).Contents (Elt Ideal) :=
  val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The two column totals. -/
theorem sum_eq (c : Dev nD) : W8 m c (Proc.devRef .tc main_v81_0) = sumCols (F := Ideal) (xcOf m c) := by
  refine (W8_arr m c 3).trans ?_
  rw [arr4_sum]
  rw [show U7 m c main_arg0 = (m ((c : Thread nD τ).loc main_arg0)) from W7_eq_W0 m c main_arg0 (by decide) (by decide) (by decide) (by decide) (by decide) (by decide) (by decide),
    show U7 m c main_v45 = _ from v45_at7 m c, show U7 m c main_v80 = _ from v80_eq m c]
  rfl
theorem sq_eq (c : Dev nD) : W8 m c (Proc.devRef .tc main_v81_1) = sumCols (F := Ideal) (mulf (F := Ideal) (s := Cert.ReferenceIdeal.S100000x384) (φ := .f32) (xcOf m c) (xcOf m c)) := by
  refine (W8_arr m c 4).trans ?_
  rw [arr4_sq]
  rw [show U7 m c main_arg0 = (m ((c : Thread nD τ).loc main_arg0)) from W7_eq_W0 m c main_arg0 (by decide) (by decide) (by decide) (by decide) (by decide) (by decide) (by decide),
    show U7 m c main_v45 = _ from v45_at7 m c, show U7 m c main_v80 = _ from v80_eq m c]
  rfl

/-- THE RESULT: with every float argument finite, the kernel program's result array is the reference's result stage of the
    same arguments. -/
theorem result_eq (c : Dev nD)
    (h0 : ∀ i, ∃ r : ℝ, (m ((c : Thread nD τ).loc main_arg0)) i = (r : EReal)) (h2 : ∀ i, ∃ r : ℝ, (m ((c : Thread nD τ).loc main_arg2)) i = (r : EReal)) (h3 : ∀ i, ∃ r : ℝ, (m ((c : Thread nD τ).loc main_arg3)) i = (r : EReal))
    (h4 : ∀ i, ∃ r : ℝ, (m ((c : Thread nD τ).loc main_arg4)) i = (r : EReal)) (h5 : ∀ i, ∃ r : ℝ, (m ((c : Thread nD τ).loc main_arg5)) i = (r : EReal)) :
    W10 m c (Proc.devRef .tc main_v93) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m c 9).trans ?_
  rw [arr5]
  rw [show U9 m c main_arg0 = (m ((c : Thread nD τ).loc main_arg0)) from W9_eq_W0 m c main_arg0 (by decide) (by decide) (by decide) (by decide) (by decide) (by decide) (by decide) (by decide) (by decide) (by decide),
    show U9 m c main_v45 = _ from v45_at9 m c, show U9 m c main_v80 = _ from v80_at9 m c,
    show U9 m c main_v83 = _ from W9_mu m c, show U9 m c main_v92 = _ from W9_invstd m c,
    show U9 m c main_arg6 = (m ((c : Thread nD τ).loc main_arg6)) from W9_eq_W0 m c main_arg6 (by decide) (by decide) (by decide) (by decide) (by decide) (by decide) (by decide) (by decide) (by decide) (by decide),
    show U9 m c main_arg7 = (m ((c : Thread nD τ).loc main_arg7)) from W9_eq_W0 m c main_arg7 (by decide) (by decide) (by decide) (by decide) (by decide) (by decide) (by decide) (by decide) (by decide) (by decide),
    show U9 m c main_arg8 = (m ((c : Thread nD τ).loc main_arg8)) from W9_eq_W0 m c main_arg8 (by decide) (by decide) (by decide) (by decide) (by decide) (by decide) (by decide) (by decide) (by decide) (by decide),
    show U9 m c main_arg9 = (m ((c : Thread nD τ).loc main_arg9)) from W9_eq_W0 m c main_arg9 (by decide) (by decide) (by decide) (by decide) (by decide) (by decide) (by decide) (by decide) (by decide) (by decide)]
  rw [sum_eq, sq_eq, ← ref_v94]
  rw [invstd_eq (xcOf m c) (cat_real _ _ _ _ _ _ h0 h2 h3 h4 h5), ref_v123]

end Cert.KernelIdeal.Hand

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.PreFinite.lean ====
/-
  The precondition "every float argument is finite", read back at the exact-extended-real instance.

  The printed predicate computes, for each of the nine float arguments x, the conjunction over all entries of the bit
  |x| < +∞ (the comparison of max(x, −x) with the float word 0x7F800000, which denotes ⊤), and then the conjunction of
  the nine bits. Where the resulting scalar is 1, each of the nine conjunctions is 1, so each entry's bit is 1, and an
  extended real whose absolute value is below ⊤ is the image of a real number. The theorem states this for the
  arguments 0, 2, 3, 4 and 5 (the node features, the two weight matrices and their two biases).
-/
import proofs.«125812_j16904991277430_1_alg».proof.Pre_finite_inputs
import proofs.«125812_j16904991277430_1_alg».proof.Proof.Gen.Pre_finite_inputs
import proofs.«125812_j16904991277430_1_alg».proof.Proof.LibFiniteEntry
import Idealize.ShloMosaic.Lib.ReduceAll
import Idealize.ShloMosaic.Lib.ValueIdx
import Idealize.ShloMosaic.PureOps.Ideal

noncomputable section

namespace Cert.PreFinite

open Idealize.ShloMosaic Cert.Pre_finite_inputs

/-- The scalar shape has one index. -/
instance : Subsingleton S_.Idx := ⟨fun a b => funext fun d => d.elim0⟩

/-- The conjunction of two one-bit scalars is 1 at an index exactly when both are. -/
theorem andi_apply_eq_one {s : Shape} (a b : IVec s 1) (i : s.Idx) : andi a b i = 1#1 ↔ a i = 1#1 ∧ b i = 1#1 :=
  IntOp.andi_eq_one

/-- Where the bit |x| < +∞ of an array is 1 at an index, the entry there is a real number. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) :=
  Ideal.real_of_abs_lt_inf (x i) h

/-- Where the conjunction over all entries of the bit |x| < +∞ is 1, every entry is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi
        (cmpf .olt (Host.absf x) (broadcastInDim s ![] hb (constant (F := Ideal) S_ .f32 0x7F800000#32)))
        (constantI S_ 1 1#1) hr hu j = 1#1) (i : s.Idx) :
    ∃ r : ℝ, x i = (r : EReal) :=
  entry_real x hb i (Host.reduce_andi_all _ _ hr hu j h i)

/-- THE PRECONDITION READ BACK: where the printed predicate is 1, every entry of the arguments 0, 2, 3, 4 and 5 is a
    real number. -/
theorem pre_real [Cert.Pre_finite_inputs.Facts]
    (x0 : FVec Ideal S100000x128 .f32) (x1 : IVec S2x1600000 32) (x2 : FVec Ideal S128x128 .f32)
    (x3 : FVec Ideal S128 .f32) (x4 : FVec Ideal S128x128 .f32) (x5 : FVec Ideal S128 .f32)
    (x6 : FVec Ideal S384 .f32) (x7 : FVec Ideal S384 .f32) (x8 : FVec Ideal S384x128 .f32) (x9 : FVec Ideal S128 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have e := congrFun h ValueIdx.ix0
  dsimp only [Cert.Pre_finite_inputs.fn, Cert.Pre_finite_inputs.fn_part1, Cert.Pre_finite_inputs.fn_part2] at e
  simp only [andi_apply_eq_one] at e
  obtain ⟨⟨⟨⟨⟨⟨⟨⟨h0, h2⟩, h3⟩, h4⟩, h5⟩, h6⟩, h7⟩, h8⟩, h9⟩ := e
  exact ⟨all_real x0 _ _ _ _ h0, all_real x2 _ _ _ _ h2, all_real x3 _ _ _ _ h3, all_real x4 _ _ _ _ h4,
    all_real x5 _ _ _ _ h5⟩

end Cert.PreFinite

end
-- ==== Proof.lean ====
/- The certificate's claims. The kernel program — two graph-convolution layers whose dense parts (the two matrix products, the
   two bias-and-positive-part passes) run as tiled kernel calls around the host's gather and scatter-add aggregation, then a
   batch normalisation whose column totals are accumulated over the grid by one call and applied, with the output projection,
   by another — against the plain reference. Over the extended reals both compute the same arrays stage by stage: a tiled
   product is the whole product, a sum accumulated block by block is the whole sum, and the one real difference, the kernel's
   variance as mean of squares minus squared mean (clamped at zero) against the reference's mean of squared deviations,
   disappears because finite arguments make every entry of the feature matrix a real number. Each program's frame (it runs
   to the end, faults nowhere, leaves its arguments unchanged) is the run of its segments: the host stretches, and each
   kernel call with the body's effect at every grid point. The ideal pass rewrote nothing, so the idealized kernel is the
   kernel's own text read at the exact instance. -/
import proofs.«125812_j16904991277430_1_alg».proof.Defs
import proofs.«125812_j16904991277430_1_alg».proof.Proof.Gen.Kernel
import proofs.«125812_j16904991277430_1_alg».proof.Proof.Gen.KernelIdeal
import proofs.«125812_j16904991277430_1_alg».proof.Proof.Gen.ReferenceIdeal
import proofs.«125812_j16904991277430_1_alg».proof.Proof.Gen.Pre_finite_inputs
import proofs.«125812_j16904991277430_1_alg».proof.Proof.Gen.ReferenceIdeal.Run
import proofs.«125812_j16904991277430_1_alg».proof.Proof.Gen.ReferenceIdeal.Read
import proofs.«125812_j16904991277430_1_alg».proof.Proof.BitsFrame
import proofs.«125812_j16904991277430_1_alg».proof.Proof.IdealFrame
import proofs.«125812_j16904991277430_1_alg».proof.Proof.IdealValue
import proofs.«125812_j16904991277430_1_alg».proof.Proof.PreFinite
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_k [Cert.Kernel.Facts] [Cert.Pre_finite_inputs.Facts] : Cert.frame_Kernel := fun m ρ _ => Cert.Kernel.Hand.frame m ρ

/-- So does its reading at the exact instance. -/
theorem frame_ki [Cert.KernelIdeal.Facts] [Cert.Pre_finite_inputs.Facts] : Cert.frame_KernelIdeal := fun m ρ _ => Cert.KernelIdeal.Hand.frame m ρ

/-- The reference is a line of host operations: its run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on finite arguments both programs end with the same result array. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.W10 m c (Proc.devRef .tc Cert.KernelIdeal.main_v93), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v93 (by decide)),
      (h c _ (Cert.KernelIdeal.Hand.mem_uc Cert.KernelIdeal.main_arg0 (by decide))).trans (Cert.KernelIdeal.Hand.W10_launch m c Cert.KernelIdeal.main_arg0 (by decide) (by decide) (by decide) (by decide) (by decide)),
      (h c _ (Cert.KernelIdeal.Hand.mem_uc Cert.KernelIdeal.main_arg1 (by decide))).trans (Cert.KernelIdeal.Hand.W10_launch m c Cert.KernelIdeal.main_arg1 (by decide) (by decide) (by decide) (by decide) (by decide)),
      (h c _ (Cert.KernelIdeal.Hand.mem_uc Cert.KernelIdeal.main_arg2 (by decide))).trans (Cert.KernelIdeal.Hand.W10_launch m c Cert.KernelIdeal.main_arg2 (by decide) (by decide) (by decide) (by decide) (by decide)),
      (h c _ (Cert.KernelIdeal.Hand.mem_uc Cert.KernelIdeal.main_arg3 (by decide))).trans (Cert.KernelIdeal.Hand.W10_launch m c Cert.KernelIdeal.main_arg3 (by decide) (by decide) (by decide) (by decide) (by decide)),
      (h c _ (Cert.KernelIdeal.Hand.mem_uc Cert.KernelIdeal.main_arg4 (by decide))).trans (Cert.KernelIdeal.Hand.W10_launch m c Cert.KernelIdeal.main_arg4 (by decide) (by decide) (by decide) (by decide) (by decide)),
      (h c _ (Cert.KernelIdeal.Hand.mem_uc Cert.KernelIdeal.main_arg5 (by decide))).trans (Cert.KernelIdeal.Hand.W10_launch m c Cert.KernelIdeal.main_arg5 (by decide) (by decide) (by decide) (by decide) (by decide)),
      (h c _ (Cert.KernelIdeal.Hand.mem_uc Cert.KernelIdeal.main_arg6 (by decide))).trans (Cert.KernelIdeal.Hand.W10_launch m c Cert.KernelIdeal.main_arg6 (by decide) (by decide) (by decide) (by decide) (by decide)),
      (h c _ (Cert.KernelIdeal.Hand.mem_uc Cert.KernelIdeal.main_arg7 (by decide))).trans (Cert.KernelIdeal.Hand.W10_launch m c Cert.KernelIdeal.main_arg7 (by decide) (by decide) (by decide) (by decide) (by decide)),
      (h c _ (Cert.KernelIdeal.Hand.mem_uc Cert.KernelIdeal.main_arg8 (by decide))).trans (Cert.KernelIdeal.Hand.W10_launch m c Cert.KernelIdeal.main_arg8 (by decide) (by decide) (by decide) (by decide) (by decide)),
      (h c _ (Cert.KernelIdeal.Hand.mem_uc Cert.KernelIdeal.main_arg9 (by decide))).trans (Cert.KernelIdeal.Hand.W10_launch m c Cert.KernelIdeal.main_arg9 (by decide) (by decide) (by decide) (by decide) (by decide))⟩
  · refine (θ_run Cert.ReferenceIdeal.defs _ _).mono (fun _ h c => ⟨(h c).1.trans ?_, (h c).2⟩) (Cert.ReferenceIdeal.Value.run (F := Ideal) m' ρ')
    obtain ⟨a0, a1, a2, a3, a4, a5, a6, a7, a8, a9⟩ := hagree c
    obtain ⟨h0, h2, h3, h4, h5⟩ := Cert.PreFinite.pre_real _ _ _ _ _ _ _ _ _ _ (hpre c)
    rw [Cert.ReferenceIdeal.Read.val_main_v123_eq, a0, a1, a2, a3, a4, a5, a6, a7, a8, a9]
    exact (Cert.KernelIdeal.Hand.result_eq m c h0 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
